-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x16x16 : Shape := ⟨4, ![16, 8, 16, 16]⟩
abbrev S16x8x3x4 : Shape := ⟨4, ![16, 8, 3, 4]⟩
abbrev S7x90 : Shape := ⟨2, ![7, 90]⟩
abbrev S90 : Shape := ⟨1, ![90]⟩
abbrev S90x90 : Shape := ⟨2, ![90, 90]⟩
abbrev S90x1 : Shape := ⟨2, ![90, 1]⟩
abbrev S1 : Shape := ⟨1, ![1]⟩
abbrev S3x3 : Shape := ⟨2, ![3, 3]⟩
abbrev S3x4 : Shape := ⟨2, ![3, 4]⟩
abbrev S_ : Shape := ⟨0, ![]⟩

class Facts : Prop where
  bcast_S_S16x8x16x16 : S_.BroadcastsInDim S16x8x16x16 (![] : Fin 0 → Fin S16x8x16x16.rank)
  reducesTo_S16x8x16x16_S_d0_1_2_3 : S16x8x16x16.ReducesTo [0, 1, 2, 3] S_
  h_S_ : 0 < S_.numel
  bcast_S_S16x8x3x4 : S_.BroadcastsInDim S16x8x3x4 (![] : Fin 0 → Fin S16x8x3x4.rank)
  reducesTo_S16x8x3x4_S_d0_1_2_3 : S16x8x3x4.ReducesTo [0, 1, 2, 3] S_
  bcast_S_S7x90 : S_.BroadcastsInDim S7x90 (![] : Fin 0 → Fin S7x90.rank)
  reducesTo_S7x90_S_d0_1 : S7x90.ReducesTo [0, 1] S_
  bcast_S_S90 : S_.BroadcastsInDim S90 (![] : Fin 0 → Fin S90.rank)
  reducesTo_S90_S_d0 : S90.ReducesTo [0] S_
  bcast_S_S90x90 : S_.BroadcastsInDim S90x90 (![] : Fin 0 → Fin S90x90.rank)
  reducesTo_S90x90_S_d0_1 : S90x90.ReducesTo [0, 1] S_
  bcast_S_S90x1 : S_.BroadcastsInDim S90x1 (![] : Fin 0 → Fin S90x1.rank)
  reducesTo_S90x1_S_d0_1 : S90x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S90x90 .f32) (main_arg5 : FVec F S90 .f32) (main_arg6 : FVec F S90x1 .f32) (main_arg7 : FVec F S1 .f32) (main_v13 : IVec S_ 1) (main_v16 : IVec S90 1) : IVec S_ 1 :=
  let main_c_5 : IVec S_ 1 := constantI S_ 1 1#1
  let main_v17 : IVec S_ 1 := (fun x v => Host.reduce IntOp.andi x v reducesTo_S90_S_d0 h_S_) main_v16 main_c_5
  let main_v18 : IVec S_ 1 := andi main_v13 main_v17
  let main_v19 : FVec F S90x90 .f32 := Host.absf main_arg4
  let main_cst_6 : FVec F S_ .f32 := constant S_ .f32 0x7F800000#32
  let main_v20 : FVec F S90x90 .f32 := broadcastInDim S90x90 ![] bcast_S_S90x90 main_cst_6
  let main_v21 : IVec S90x90 1 := cmpf .olt main_v19 main_v20
  let main_c_7 : IVec S_ 1 := constantI S_ 1 1#1
  let main_v22 : IVec S_ 1 := (fun x v => Host.reduce IntOp.andi x v reducesTo_S90x90_S_d0_1 h_S_) main_v21 main_c_7
  let main_v23 : IVec S_ 1 := andi main_v18 main_v22
  let main_v24 : FVec F S90 .f32 := Host.absf main_arg5
  let main_cst_8 : FVec F S_ .f32 := constant S_ .f32 0x7F800000#32
  let main_v25 : FVec F S90 .f32 := broadcastInDim S90 ![] bcast_S_S90 main_cst_8
  let main_v26 : IVec S90 1 := cmpf .olt main_v24 main_v25
  let main_c_9 : IVec S_ 1 := constantI S_ 1 1#1
  let main_v27 : IVec S_ 1 := (fun x v => Host.reduce IntOp.andi x v reducesTo_S90_S_d0 h_S_) main_v26 main_c_9
  let main_v28 : IVec S_ 1 := andi main_v23 main_v27
  let main_v29 : FVec F S90x1 .f32 := Host.absf main_arg6
  let main_cst_10 : FVec F S_ .f32 := constant S_ .f32 0x7F800000#32
  let main_v30 : FVec F S90x1 .f32 := broadcastInDim S90x1 ![] bcast_S_S90x1 main_cst_10
  let main_v31 : IVec S90x1 1 := cmpf .olt main_v29 main_v30
  let main_c_11 : IVec S_ 1 := constantI S_ 1 1#1
  let main_v32 : IVec S_ 1 := (fun x v => Host.reduce IntOp.andi x v reducesTo_S90x1_S_d0_1 h_S_) main_v31 main_c_11
  let main_v33 : IVec S_ 1 := andi main_v28 main_v32
  fn_part2 (F := F) main_arg7 main_v33

def fn {F : FTy → Type} [FloatOps F] (main_arg0 : FVec F S16x8x16x16 .f32) (main_arg1 : FVec F S16x8x3x4 .f32) (main_arg2 : FVec F S7x90 .f32) (main_arg3 : FVec F S90 .f32) (main_arg4 : FVec F S90x90 .f32) (main_arg5 : FVec F S90 .f32) (main_arg6 : FVec F S90x1 .f32) (main_arg7 : FVec F S1 .f32) (main_arg8 : IVec S3x3 32) (main_arg9 : IVec S3x4 32) : IVec S_ 1 :=
  let main_v0 : FVec F S16x8x16x16 .f32 := Host.absf main_arg0
  let main_cst : FVec F S_ .f32 := constant S_ .f32 0x7F800000#32
  let main_v1 : FVec F S16x8x16x16 .f32 := broadcastInDim S16x8x16x16 ![] bcast_S_S16x8x16x16 main_cst
  let main_v2 : IVec S16x8x16x16 1 := cmpf .olt main_v0 main_v1
  let main_c : IVec S_ 1 := constantI S_ 1 1#1
  let main_v3 : IVec S_ 1 := (fun x v => Host.reduce IntOp.andi x v reducesTo_S16x8x16x16_S_d0_1_2_3 h_S_) main_v2 main_c
  let main_v4 : FVec F S16x8x3x4 .f32 := Host.absf main_arg1
  let main_cst_0 : FVec F S_ .f32 := constant S_ .f32 0x7F800000#32
  let main_v5 : FVec F S16x8x3x4 .f32 := broadcastInDim S16x8x3x4 ![] bcast_S_S16x8x3x4 main_cst_0
  let main_v6 : IVec S16x8x3x4 1 := cmpf .olt main_v4 main_v5
  let main_c_1 : IVec S_ 1 := constantI S_ 1 1#1
  let main_v7 : IVec S_ 1 := (fun x v => Host.reduce IntOp.andi x v reducesTo_S16x8x3x4_S_d0_1_2_3 h_S_) main_v6 main_c_1
  let main_v8 : IVec S_ 1 := andi main_v3 main_v7
  let main_v9 : FVec F S7x90 .f32 := Host.absf main_arg2
  let main_cst_2 : FVec F S_ .f32 := constant S_ .f32 0x7F800000#32
  let main_v10 : FVec F S7x90 .f32 := broadcastInDim S7x90 ![] bcast_S_S7x90 main_cst_2
  let main_v11 : IVec S7x90 1 := cmpf .olt main_v9 main_v10
  let main_c_3 : IVec S_ 1 := constantI S_ 1 1#1
  let main_v12 : IVec S_ 1 := (fun x v => Host.reduce IntOp.andi x v reducesTo_S7x90_S_d0_1 h_S_) main_v11 main_c_3
  let main_v13 : IVec S_ 1 := andi main_v8 main_v12
  let main_v14 : FVec F S90 .f32 := Host.absf main_arg3
  let main_cst_4 : FVec F S_ .f32 := constant S_ .f32 0x7F800000#32
  let main_v15 : FVec F S90 .f32 := broadcastInDim S90 ![] bcast_S_S90 main_cst_4
  let main_v16 : IVec S90 1 := cmpf .olt main_v14 main_v15
  fn_part1 (F := F) main_arg4 main_arg5 main_arg6 main_arg7 main_v13 main_v16
-- ==== Kernel.lean ====
abbrev S16x8x16x16 : Shape := ⟨4, ![16, 8, 16, 16]⟩
abbrev S16x8x3x4 : Shape := ⟨4, ![16, 8, 3, 4]⟩
abbrev S7x90 : Shape := ⟨2, ![7, 90]⟩
abbrev S90 : Shape := ⟨1, ![90]⟩
abbrev S90x90 : Shape := ⟨2, ![90, 90]⟩
abbrev S90x1 : Shape := ⟨2, ![90, 1]⟩
abbrev S1 : Shape := ⟨1, ![1]⟩
abbrev S3x3 : Shape := ⟨2, ![3, 3]⟩
abbrev S3x4 : Shape := ⟨2, ![3, 4]⟩
abbrev S_ : Shape := ⟨0, ![]⟩
abbrev S16x8x18x18 : Shape := ⟨4, ![16, 8, 18, 18]⟩
abbrev S16x8x1x16x16 : Shape := ⟨5, ![16, 8, 1, 16, 16]⟩
abbrev S16x8x9x16x16 : Shape := ⟨5, ![16, 8, 9, 16, 16]⟩
abbrev S16x72x256 : Shape := ⟨3, ![16, 72, 256]⟩
abbrev S16x8x9x256 : Shape := ⟨4, ![16, 8, 9, 256]⟩
abbrev S16x8x256x9 : Shape := ⟨4, ![16, 8, 256, 9]⟩
abbrev S16x8x256x3x3 : Shape := ⟨5, ![16, 8, 256, 3, 3]⟩
abbrev S16x1x8x256x3x3 : Shape := ⟨6, ![16, 1, 8, 256, 3, 3]⟩
abbrev S16x16x8x256x3x3 : Shape := ⟨6, ![16, 16, 8, 256, 3, 3]⟩
abbrev S1x16x8x1x3x4 : Shape := ⟨6, ![1, 16, 8, 1, 3, 4]⟩
abbrev S16x16x8x256x3x4 : Shape := ⟨6, ![16, 16, 8, 256, 3, 4]⟩
abbrev S16x16x8x256x3x7 : Shape := ⟨6, ![16, 16, 8, 256, 3, 7]⟩
abbrev S3x7 : Shape := ⟨2, ![3, 7]⟩
abbrev S3 : Shape := ⟨1, ![3]⟩
abbrev S3x1 : Shape := ⟨2, ![3, 1]⟩
abbrev S3x7x1 : Shape := ⟨3, ![3, 7, 1]⟩
abbrev S3x7x2 : Shape := ⟨3, ![3, 7, 2]⟩
abbrev S1572864x7 : Shape := ⟨2, ![1572864, 7]⟩
abbrev S1572864x1 : Shape := ⟨2, ![1572864, 1]⟩
abbrev S16384x7 : Shape := ⟨2, ![16384, 7]⟩
abbrev S16384x1 : Shape := ⟨2, ![16384, 1]⟩
abbrev S16384x90 : Shape := ⟨2, ![16384, 90]⟩
abbrev S1x90 : Shape := ⟨2, ![1, 90]⟩
abbrev S1x1 : Shape := ⟨2, ![1, 1]⟩
abbrev S16x16x8x256x3 : Shape := ⟨5, ![16, 16, 8, 256, 3]⟩
abbrev S16x16x8x256 : Shape := ⟨4, ![16, 16, 8, 256]⟩
abbrev S16x16x256 : Shape := ⟨3, ![16, 16, 256]⟩
abbrev S16x16x16x16 : Shape := ⟨4, ![16, 16, 16, 16]⟩

abbrev nBuf : Space → Nat
  | .hbm => 75
  | .vmem => 10
  | .smem => 0
  | _ => 0

abbrev bufTy : (tb : Table) → Fin (tcTables nBuf tb) → BufTy
  | .hbm, ⟨0, _⟩ => ⟨S16x8x16x16, .f32⟩
  | .hbm, ⟨1, _⟩ => ⟨S16x8x3x4, .f32⟩
  | .hbm, ⟨2, _⟩ => ⟨S7x90, .f32⟩
  | .hbm, ⟨3, _⟩ => ⟨S90, .f32⟩
  | .hbm, ⟨4, _⟩ => ⟨S90x90, .f32⟩
  | .hbm, ⟨5, _⟩ => ⟨S90, .f32⟩
  | .hbm, ⟨6, _⟩ => ⟨S90x1, .f32⟩
  | .hbm, ⟨7, _⟩ => ⟨S1, .f32⟩
  | .hbm, ⟨8, _⟩ => ⟨S3x3, .i32⟩
  | .hbm, ⟨9, _⟩ => ⟨S3x4, .i32⟩
  | .hbm, ⟨10, _⟩ => ⟨S_, .i32⟩
  | .hbm, ⟨11, _⟩ => ⟨S_, .f32⟩
  | .hbm, ⟨12, _⟩ => ⟨S16x8x18x18, .f32⟩
  | .hbm, ⟨13, _⟩ => ⟨S16x8x16x16, .f32⟩
  | .hbm, ⟨14, _⟩ => ⟨S16x8x16x16, .f32⟩
  | .hbm, ⟨15, _⟩ => ⟨S16x8x16x16, .f32⟩
  | .hbm, ⟨16, _⟩ => ⟨S16x8x16x16, .f32⟩
  | .hbm, ⟨17, _⟩ => ⟨S16x8x16x16, .f32⟩
  | .hbm, ⟨18, _⟩ => ⟨S16x8x16x16, .f32⟩
  | .hbm, ⟨19, _⟩ => ⟨S16x8x16x16, .f32⟩
  | .hbm, ⟨20, _⟩ => ⟨S16x8x16x16, .f32⟩
  | .hbm, ⟨21, _⟩ => ⟨S16x8x16x16, .f32⟩
  | .hbm, ⟨22, _⟩ => ⟨S16x8x1x16x16, .f32⟩
  | .hbm, ⟨23, _⟩ => ⟨S16x8x1x16x16, .f32⟩
  | .hbm, ⟨24, _⟩ => ⟨S16x8x1x16x16, .f32⟩
  | .hbm, ⟨25, _⟩ => ⟨S16x8x1x16x16, .f32⟩
  | .hbm, ⟨26, _⟩ => ⟨S16x8x1x16x16, .f32⟩
  | .hbm, ⟨27, _⟩ => ⟨S16x8x1x16x16, .f32⟩
  | .hbm, ⟨28, _⟩ => ⟨S16x8x1x16x16, .f32⟩
  | .hbm, ⟨29, _⟩ => ⟨S16x8x1x16x16, .f32⟩
  | .hbm, ⟨30, _⟩ => ⟨S16x8x1x16x16, .f32⟩
  | .hbm, ⟨31, _⟩ => ⟨S16x8x9x16x16, .f32⟩
  | .hbm, ⟨32, _⟩ => ⟨S16x72x256, .f32⟩
  | .hbm, ⟨33, _⟩ => ⟨S16x8x9x256, .f32⟩
  | .hbm, ⟨34, _⟩ => ⟨S16x8x256x9, .f32⟩
  | .hbm, ⟨35, _⟩ => ⟨S16x8x256x3x3, .f32⟩
  | .hbm, ⟨36, _⟩ => ⟨S16x1x8x256x3x3, .f32⟩
  | .hbm, ⟨37, _⟩ => ⟨S16x16x8x256x3x3, .f32⟩
  | .hbm, ⟨38, _⟩ => ⟨S1x16x8x1x3x4, .f32⟩
  | .hbm, ⟨39, _⟩ => ⟨S16x16x8x256x3x4, .f32⟩
  | .hbm, ⟨40, _⟩ => ⟨S16x16x8x256x3x7, .f32⟩
  | .hbm, ⟨41, _⟩ => ⟨S3x7, .i32⟩
  | .hbm, ⟨42, _⟩ => ⟨S3, .i32⟩
  | .hbm, ⟨43, _⟩ => ⟨S3x1, .i32⟩
  | .hbm, ⟨44, _⟩ => ⟨S_, .i32⟩
  | .hbm, ⟨45, _⟩ => ⟨S3x1, .i32⟩
  | .hbm, ⟨46, _⟩ => ⟨S3x1, .i1⟩
  | .hbm, ⟨47, _⟩ => ⟨S_, .i32⟩
  | .hbm, ⟨48, _⟩ => ⟨S3x1, .i32⟩
  | .hbm, ⟨49, _⟩ => ⟨S3x1, .i32⟩
  | .hbm, ⟨50, _⟩ => ⟨S3x1, .i32⟩
  | .hbm, ⟨51, _⟩ => ⟨S_, .i32⟩
  | .hbm, ⟨52, _⟩ => ⟨S3x7, .i32⟩
  | .hbm, ⟨53, _⟩ => ⟨S3x7, .i1⟩
  | .hbm, ⟨54, _⟩ => ⟨S_, .i32⟩
  | .hbm, ⟨55, _⟩ => ⟨S3x7, .i32⟩
  | .hbm, ⟨56, _⟩ => ⟨S3x7, .i32⟩
  | .hbm, ⟨57, _⟩ => ⟨S3x7, .i32⟩
  | .hbm, ⟨58, _⟩ => ⟨S3x7, .i32⟩
  | .hbm, ⟨59, _⟩ => ⟨S3x7x1, .i32⟩
  | .hbm, ⟨60, _⟩ => ⟨S3x7x1, .i32⟩
  | .hbm, ⟨61, _⟩ => ⟨S3x7x2, .i32⟩
  | .hbm, ⟨62, _⟩ => ⟨S16x16x8x256x3x7, .f32⟩
  | .hbm, ⟨63, _⟩ => ⟨S1572864x7, .f32⟩
  | .hbm, ⟨64, _⟩ => ⟨S1572864x7, .bf16⟩
  | .hbm, ⟨65, _⟩ => ⟨S7x90, .bf16⟩
  | .hbm, ⟨66, _⟩ => ⟨S90x90, .bf16⟩
  | .hbm, ⟨67, _⟩ => ⟨S90x1, .bf16⟩
  | .hbm, ⟨68, _⟩ => ⟨S1572864x1, .f32⟩
  | .hbm, ⟨69, _⟩ => ⟨S16x16x8x256x3, .f32⟩
  | .hbm, ⟨70, _⟩ => ⟨S_, .f32⟩
  | .hbm, ⟨71, _⟩ => ⟨S16x16x8x256, .f32⟩
  | .hbm, ⟨72, _⟩ => ⟨S_, .f32⟩
  | .hbm, ⟨73, _⟩ => ⟨S16x16x256, .f32⟩
  | .hbm, ⟨74, _⟩ => ⟨S16x16x16x16, .f32⟩
  | .local _ .vmem, ⟨0, _⟩ => ⟨S16384x7, .bf16⟩
  | .local _ .vmem, ⟨1, _⟩ => ⟨S16384x7, .bf16⟩
  | .local _ .vmem, ⟨2, _⟩ => ⟨S7x90, .bf16⟩
  | .local _ .vmem, ⟨3, _⟩ => ⟨S90, .f32⟩
  | .local _ .vmem, ⟨4, _⟩ => ⟨S90x90, .bf16⟩
  | .local _ .vmem, ⟨5, _⟩ => ⟨S90, .f32⟩
  | .local _ .vmem, ⟨6, _⟩ => ⟨S90x1, .bf16⟩
  | .local _ .vmem, ⟨7, _⟩ => ⟨S1, .f32⟩
  | .local _ .vmem, ⟨8, _⟩ => ⟨S16384x1, .f32⟩
  | .local _ .vmem, ⟨9, _⟩ => ⟨S16384x1, .f32⟩
  | _, _ => ⟨S16x8x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_0 : Ref sig .tc := ⟨.hbm, 44, rfl⟩
abbrev main_v32 : Ref sig .tc := ⟨.hbm, 45, rfl⟩
abbrev main_v33 : Ref sig .tc := ⟨.hbm, 46, rfl⟩
abbrev main_c_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_2 : Ref sig .tc := ⟨.hbm, 51, rfl⟩
abbrev main_v37 : Ref sig .tc := ⟨.hbm, 52, rfl⟩
abbrev main_v38 : Ref sig .tc := ⟨.hbm, 53, rfl⟩
abbrev main_c_3 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst : Ref sig .tc := ⟨.hbm, 70, rfl⟩
abbrev main_v54 : Ref sig .tc := ⟨.hbm, 71, rfl⟩
abbrev main_cst_4 : Ref sig .tc := ⟨.hbm, 72, rfl⟩
abbrev main_v55 : Ref sig .tc := ⟨.hbm, 73, rfl⟩
abbrev main_v56 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x7 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x90 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S90 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S90x90 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S90 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S90x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16384x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  pads_S16x8x16x16_S16x8x18x18_000_000_110_110 : S16x8x16x16.Pads (![0, 0, 1, 1] : Fin 4 → Nat) ![0, 0, 1, 1] ![0, 0, 0, 0] S16x8x18x18
  h_S_ : 0 < S_.numel
  slices_S16x8x18x18_S16x8x16x16_0_0_0_0 : S16x8x18x18.Slices ![0, 0, 0, 0] S16x8x16x16
  slices_S16x8x18x18_S16x8x16x16_0_0_0_1 : S16x8x18x18.Slices ![0, 0, 0, 1] S16x8x16x16
  slices_S16x8x18x18_S16x8x16x16_0_0_0_2 : S16x8x18x18.Slices ![0, 0, 0, 2] S16x8x16x16
  slices_S16x8x18x18_S16x8x16x16_0_0_1_0 : S16x8x18x18.Slices ![0, 0, 1, 0] S16x8x16x16
  slices_S16x8x18x18_S16x8x16x16_0_0_1_1 : S16x8x18x18.Slices ![0, 0, 1, 1] S16x8x16x16
  slices_S16x8x18x18_S16x8x16x16_0_0_1_2 : S16x8x18x18.Slices ![0, 0, 1, 2] S16x8x16x16
  slices_S16x8x18x18_S16x8x16x16_0_0_2_0 : S16x8x18x18.Slices ![0, 0, 2, 0] S16x8x16x16
  slices_S16x8x18x18_S16x8x16x16_0_0_2_1 : S16x8x18x18.Slices ![0, 0, 2, 1] S16x8x16x16
  slices_S16x8x18x18_S16x8x16x16_0_0_2_2 : S16x8x18x18.Slices ![0, 0, 2, 2] S16x8x16x16
  bcast_S16x8x16x16_S16x8x1x16x16_0_1_3_4 : S16x8x16x16.BroadcastsInDim S16x8x1x16x16 (![0, 1, 3, 4] : Fin 4 → Fin S16x8x1x16x16.rank)
  concatenates_S16x8x1x16x16_S16x8x1x16x16_S16x8x1x16x16_S16x8x1x16x16_S16x8x1x16x16_S16x8x1x16x16_S16x8x1x16x16_S16x8x1x16x16_S16x8x1x16x16_S16x8x9x16x16_d2 : Shape.Concatenates [S16x8x1x16x16, S16x8x1x16x16, S16x8x1x16x16, S16x8x1x16x16, S16x8x1x16x16, S16x8x1x16x16, S16x8x1x16x16, S16x8x1x16x16, S16x8x1x16x16] S16x8x9x16x16 2
  shapeCasts_S16x8x9x16x16_S16x72x256 : S16x8x9x16x16.ShapeCasts S16x72x256
  shapeCasts_S16x72x256_S16x8x9x256 : S16x72x256.ShapeCasts S16x8x9x256
  transposes_S16x8x9x256_S16x8x256x9_0_1_3_2 : S16x8x9x256.Transposes [0, 1, 3, 2] S16x8x256x9
  shapeCasts_S16x8x256x9_S16x8x256x3x3 : S16x8x256x9.ShapeCasts S16x8x256x3x3
  bcast_S16x8x256x3x3_S16x1x8x256x3x3_0_2_3_4_5 : S16x8x256x3x3.BroadcastsInDim S16x1x8x256x3x3 (![0, 2, 3, 4, 5] : Fin 5 → Fin S16x1x8x256x3x3.rank)
  bcast_S16x1x8x256x3x3_S16x16x8x256x3x3_0_1_2_3_4_5 : S16x1x8x256x3x3.BroadcastsInDim S16x16x8x256x3x3 (![0, 1, 2, 3, 4, 5] : Fin 6 → Fin S16x16x8x256x3x3.rank)
  bcast_S16x8x3x4_S1x16x8x1x3x4_1_2_4_5 : S16x8x3x4.BroadcastsInDim S1x16x8x1x3x4 (![1, 2, 4, 5] : Fin 4 → Fin S1x16x8x1x3x4.rank)
  bcast_S1x16x8x1x3x4_S16x16x8x256x3x4_0_1_2_3_4_5 : S1x16x8x1x3x4.BroadcastsInDim S16x16x8x256x3x4 (![0, 1, 2, 3, 4, 5] : Fin 6 → Fin S16x16x8x256x3x4.rank)
  concatenates_S16x16x8x256x3x3_S16x16x8x256x3x4_S16x16x8x256x3x7_d5 : Shape.Concatenates [S16x16x8x256x3x3, S16x16x8x256x3x4] S16x16x8x256x3x7 5
  concatenates_S3x3_S3x4_S3x7_d1 : Shape.Concatenates [S3x3, S3x4] S3x7 1
  bcast_S3_S3x1_0 : S3.BroadcastsInDim S3x1 (![0] : Fin 1 → Fin S3x1.rank)
  bcast_S_S3x1 : S_.BroadcastsInDim S3x1 (![] : Fin 0 → Fin S3x1.rank)
  bcast_S_S3x7 : S_.BroadcastsInDim S3x7 (![] : Fin 0 → Fin S3x7.rank)
  bcast_S3x1_S3x7_0_1 : S3x1.BroadcastsInDim S3x7 (![0, 1] : Fin 2 → Fin S3x7.rank)
  bcast_S3x7_S3x7x1_0_1 : S3x7.BroadcastsInDim S3x7x1 (![0, 1] : Fin 2 → Fin S3x7x1.rank)
  concatenates_S3x7x1_S3x7x1_S3x7x2_d2 : Shape.Concatenates [S3x7x1, S3x7x1] S3x7x2 2
  shapeCasts_S16x16x8x256x3x7_S1572864x7 : S16x16x8x256x3x7.ShapeCasts S1572864x7
  bitsLt_bf16_f32 : FTy.bits .bf16 < FTy.bits .f32
  inb_S16384x7_S16384x7_0_0 : ∀ a, (![0, 0] : Fin 2 → Nat) a + S16384x7.size a ≤ S16384x7.size a
  h_S16384x7 : 0 < S16384x7.numel
  shapeCasts_S16384x7_S16384x7 : S16384x7.ShapeCasts S16384x7
  inb_S7x90_S7x90_0_0 : ∀ a, (![0, 0] : Fin 2 → Nat) a + S7x90.size a ≤ S7x90.size a
  h_S7x90 : 0 < S7x90.numel
  shapeCasts_S7x90_S7x90 : S7x90.ShapeCasts S7x90
  inb_S90_S90_0 : ∀ a, (![0] : Fin 1 → Nat) a + S90.size a ≤ S90.size a
  h_S90 : 0 < S90.numel
  shapeCasts_S90_S1x90 : S90.ShapeCasts S1x90
  broadcasts_S1x90_S16384x90 : S1x90.Broadcasts S16384x90
  inb_S90x90_S90x90_0_0 : ∀ a, (![0, 0] : Fin 2 → Nat) a + S90x90.size a ≤ S90x90.size a
  h_S90x90 : 0 < S90x90.numel
  shapeCasts_S90x90_S90x90 : S90x90.ShapeCasts S90x90
  inb_S90x1_S90x1_0_0 : ∀ a, (![0, 0] : Fin 2 → Nat) a + S90x1.size a ≤ S90x1.size a
  h_S90x1 : 0 < S90x1.numel
  shapeCasts_S90x1_S90x1 : S90x1.ShapeCasts S90x1
  inb_S1_S1_0 : ∀ a, (![0] : Fin 1 → Nat) a + S1.size a ≤ S1.size a
  h_S1 : 0 < S1.numel
  shapeCasts_S1_S1x1 : S1.ShapeCasts S1x1
  broadcasts_S1x1_S16384x1 : S1x1.Broadcasts S16384x1
  inb_S16384x1_S16384x1_0_0 : ∀ a, (![0, 0] : Fin 2 → Nat) a + S16384x1.size a ≤ S16384x1.size a
  h_S16384x1 : 0 < S16384x1.numel
  shapeCasts_S1572864x1_S16x16x8x256x3 : S1572864x1.ShapeCasts S16x16x8x256x3
  reducesTo_S16x16x8x256x3_S16x16x8x256_d4 : S16x16x8x256x3.ReducesTo [4] S16x16x8x256
  reducesTo_S16x16x8x256_S16x16x256_d2 : S16x16x8x256.ReducesTo [2] S16x16x256
  shapeCasts_S16x16x256_S16x16x16x16 : S16x16x256.ShapeCasts S16x16x16x16
  gather_S16x16x8x256x3x7_S3x7x2_S16x16x8x256x3x7_0123_45_n_n_45_2_1616825611_wf : GatherDims.WF S16x16x8x256x3x7 S3x7x2 S16x16x8x256x3x7 [0, 1, 2, 3] [4, 5] [] [4, 5] [] 2 ![16, 16, 8, 256, 1, 1]
  dot_S16384x7_S7x90_S16384x90_1_0_0_1_n_n_wf : DotDims.WF S16384x7 S7x90 S16384x90 [1] [0] [0] [1] [] []
  dot_S16384x90_S90x90_S16384x90_1_0_0_1_n_n_wf : DotDims.WF S16384x90 S90x90 S16384x90 [1] [0] [0] [1] [] []
  dot_S16384x90_S90x1_S16384x1_1_0_0_1_n_n_wf : DotDims.WF S16384x90 S90x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x7.size a ≤ S1572864x7.size a
  hwx0_0 : ∀ i : grid0.Coords, EltTy.bits .bf16 = 32 ∨ (Rect.block (s := S1572864x7) S16384x7.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x90.size a ≤ S7x90.size a
  hwx0_1 : ∀ i : grid0.Coords, EltTy.bits .bf16 = 32 ∨ (Rect.block (s := S7x90) S7x90.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S90.size a ≤ S90.size a
  hwx0_2 : ∀ i : grid0.Coords, EltTy.bits .f32 = 32 ∨ (Rect.block (s := S90) S90.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S90x90.size a ≤ S90x90.size a
  hwx0_3 : ∀ i : grid0.Coords, EltTy.bits .bf16 = 32 ∨ (Rect.block (s := S90x90) S90x90.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S90.size a ≤ S90.size a
  hwx0_4 : ∀ i : grid0.Coords, EltTy.bits .f32 = 32 ∨ (Rect.block (s := S90) S90.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S90x1.size a ≤ S90x1.size a
  hwx0_5 : ∀ i : grid0.Coords, EltTy.bits .bf16 = 32 ∨ (Rect.block (s := S90x1) S90x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16384x1.size a ≤ S1572864x1.size a
  hwx0_7 : ∀ i : grid0.Coords, EltTy.bits .f32 = 32 ∨ (Rect.block (s := S1572864x1) S16384x1.size (cc0_transform_7 i) (hinb0_7 i)).WholeWords (EltTy.packing .f32)

variable [Facts₀]

def gather_S16x16x8x256x3x7_S3x7x2_S16x16x8x256x3x7_0123_45_n_n_45_2_1616825611 : GatherDims S16x16x8x256x3x7 S3x7x2 S16x16x8x256x3x7 where
  offsetDims := [0, 1, 2, 3]
  collapsedSliceDims := [4, 5]
  operandBatchingDims := []
  startIndicesBatchingDims := []
  startIndexMap := [4, 5]
  indexVectorDim := 2
  sliceSizes := ![16, 16, 8, 256, 1, 1]
  wf := gather_S16x16x8x256x3x7_S3x7x2_S16x16x8x256x3x7_0123_45_n_n_45_2_1616825611_wf
def dot_S16384x7_S7x90_S16384x90_1_0_0_1_n_n : DotDims S16384x7 S7x90 S16384x90 where
  lhsContracting := [1]
  rhsContracting := [0]
  lhsNonContracting := [0]
  rhsNonContracting := [1]
  lhsBatch := []
  rhsBatch := []
  wf := dot_S16384x7_S7x90_S16384x90_1_0_0_1_n_n_wf
def dot_S16384x90_S90x90_S16384x90_1_0_0_1_n_n : DotDims S16384x90 S90x90 S16384x90 where
  lhsContracting := [1]
  rhsContracting := [0]
  lhsNonContracting := [0]
  rhsNonContracting := [1]
  lhsBatch := []
  rhsBatch := []
  wf := dot_S16384x90_S90x90_S16384x90_1_0_0_1_n_n_wf
def dot_S16384x90_S90x1_S16384x1_1_0_0_1_n_n : DotDims S16384x90 S90x1 S16384x1 where
  lhsContracting := [1]
  rhsContracting := [0]
  lhsNonContracting := [0]
  rhsNonContracting := [1]
  lhsBatch := []
  rhsBatch := []
  wf := dot_S16384x90_S90x1_S16384x1_1_0_0_1_n_n_wf

abbrev win0_0 : Pipeline.Window sig grid0 :=
  Pipeline.Window.ofSpec (Memref.whole main_v48) S16384x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S7x90.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S90.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S90x90.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S90.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51) S90x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52) S16384x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x8x16x16 : Shape := ⟨4, ![16, 8, 16, 16]⟩
abbrev S16x8x3x4 : Shape := ⟨4, ![16, 8, 3, 4]⟩
abbrev S7x90 : Shape := ⟨2, ![7, 90]⟩
abbrev S90 : Shape := ⟨1, ![90]⟩
abbrev S90x90 : Shape := ⟨2, ![90, 90]⟩
abbrev S90x1 : Shape := ⟨2, ![90, 1]⟩
abbrev S1 : Shape := ⟨1, ![1]⟩
abbrev S3x3 : Shape := ⟨2, ![3, 3]⟩
abbrev S3x4 : Shape := ⟨2, ![3, 4]⟩
abbrev S_ : Shape := ⟨0, ![]⟩
abbrev S16x8x18x18 : Shape := ⟨4, ![16, 8, 18, 18]⟩
abbrev S16x8x1x16x16 : Shape := ⟨5, ![16, 8, 1, 16, 16]⟩
abbrev S16x8x9x16x16 : Shape := ⟨5, ![16, 8, 9, 16, 16]⟩
abbrev S16x72x256 : Shape := ⟨3, ![16, 72, 256]⟩
abbrev S16x8x9x256 : Shape := ⟨4, ![16, 8, 9, 256]⟩
abbrev S16x8x256x9 : Shape := ⟨4, ![16, 8, 256, 9]⟩
abbrev S16x8x256x3x3 : Shape := ⟨5, ![16, 8, 256, 3, 3]⟩
abbrev S16x1x8x256x3x3 : Shape := ⟨6, ![16, 1, 8, 256, 3, 3]⟩
abbrev S16x16x8x256x3x3 : Shape := ⟨6, ![16, 16, 8, 256, 3, 3]⟩
abbrev S1x16x8x1x3x4 : Shape := ⟨6, ![1, 16, 8, 1, 3, 4]⟩
abbrev S16x16x8x256x3x4 : Shape := ⟨6, ![16, 16, 8, 256, 3, 4]⟩
abbrev S16x16x8x256x3x7 : Shape := ⟨6, ![16, 16, 8, 256, 3, 7]⟩
abbrev S3x7 : Shape := ⟨2, ![3, 7]⟩
abbrev S3 : Shape := ⟨1, ![3]⟩
abbrev S3x1 : Shape := ⟨2, ![3, 1]⟩
abbrev S3x7x1 : Shape := ⟨3, ![3, 7, 1]⟩
abbrev S3x7x2 : Shape := ⟨3, ![3, 7, 2]⟩
abbrev S1572864x7 : Shape := ⟨2, ![1572864, 7]⟩
abbrev S1572864x90 : Shape := ⟨2, ![1572864, 90]⟩
abbrev S1x90 : Shape := ⟨2, ![1, 90]⟩
abbrev S1572864x1 : Shape := ⟨2, ![1572864, 1]⟩
abbrev S1x1 : Shape := ⟨2, ![1, 1]⟩
abbrev S16x16x8x256x3 : Shape := ⟨5, ![16, 16, 8, 256, 3]⟩
abbrev S16x16x8x256 : Shape := ⟨4, ![16, 16, 8, 256]⟩
abbrev S16x16x256 : Shape := ⟨3, ![16, 16, 256]⟩
abbrev S16x16x16x16 : Shape := ⟨4, ![16, 16, 16, 16]⟩

abbrev nBuf : Space → Nat
  | .hbm => 112
  | .vmem => 0
  | .smem => 0
  | _ => 0

abbrev bufTy : (tb : Table) → Fin (tcTables nBuf tb) → BufTy
  | .hbm, ⟨0, _⟩ => ⟨S16x8x16x16, .f32⟩
  | .hbm, ⟨1, _⟩ => ⟨S16x8x3x4, .f32⟩
  | .hbm, ⟨2, _⟩ => ⟨S7x90, .f32⟩
  | .hbm, ⟨3, _⟩ => ⟨S90, .f32⟩
  | .hbm, ⟨4, _⟩ => ⟨S90x90, .f32⟩
  | .hbm, ⟨5, _⟩ => ⟨S90, .f32⟩
  | .hbm, ⟨6, _⟩ => ⟨S90x1, .f32⟩
  | .hbm, ⟨7, _⟩ => ⟨S1, .f32⟩
  | .hbm, ⟨8, _⟩ => ⟨S3x3, .i32⟩
  | .hbm, ⟨9, _⟩ => ⟨S3x4, .i32⟩
  | .hbm, ⟨10, _⟩ => ⟨S_, .i32⟩
  | .hbm, ⟨11, _⟩ => ⟨S_, .f32⟩
  | .hbm, ⟨12, _⟩ => ⟨S16x8x18x18, .f32⟩
  | .hbm, ⟨13, _⟩ => ⟨S16x8x16x16, .f32⟩
  | .hbm, ⟨14, _⟩ => ⟨S16x8x16x16, .f32⟩
  | .hbm, ⟨15, _⟩ => ⟨S16x8x16x16, .f32⟩
  | .hbm, ⟨16, _⟩ => ⟨S16x8x16x16, .f32⟩
  | .hbm, ⟨17, _⟩ => ⟨S16x8x16x16, .f32⟩
  | .hbm, ⟨18, _⟩ => ⟨S16x8x16x16, .f32⟩
  | .hbm, ⟨19, _⟩ => ⟨S16x8x16x16, .f32⟩
  | .hbm, ⟨20, _⟩ => ⟨S16x8x16x16, .f32⟩
  | .hbm, ⟨21, _⟩ => ⟨S16x8x16x16, .f32⟩
  | .hbm, ⟨22, _⟩ => ⟨S16x8x1x16x16, .f32⟩
  | .hbm, ⟨23, _⟩ => ⟨S16x8x1x16x16, .f32⟩
  | .hbm, ⟨24, _⟩ => ⟨S16x8x1x16x16, .f32⟩
  | .hbm, ⟨25, _⟩ => ⟨S16x8x1x16x16, .f32⟩
  | .hbm, ⟨26, _⟩ => ⟨S16x8x1x16x16, .f32⟩
  | .hbm, ⟨27, _⟩ => ⟨S16x8x1x16x16, .f32⟩
  | .hbm, ⟨28, _⟩ => ⟨S16x8x1x16x16, .f32⟩
  | .hbm, ⟨29, _⟩ => ⟨S16x8x1x16x16, .f32⟩
  | .hbm, ⟨30, _⟩ => ⟨S16x8x1x16x16, .f32⟩
  | .hbm, ⟨31, _⟩ => ⟨S16x8x9x16x16, .f32⟩
  | .hbm, ⟨32, _⟩ => ⟨S16x72x256, .f32⟩
  | .hbm, ⟨33, _⟩ => ⟨S16x8x9x256, .f32⟩
  | .hbm, ⟨34, _⟩ => ⟨S16x8x256x9, .f32⟩
  | .hbm, ⟨35, _⟩ => ⟨S16x8x256x3x3, .f32⟩
  | .hbm, ⟨36, _⟩ => ⟨S16x1x8x256x3x3, .f32⟩
  | .hbm, ⟨37, _⟩ => ⟨S16x16x8x256x3x3, .f32⟩
  | .hbm, ⟨38, _⟩ => ⟨S1x16x8x1x3x4, .f32⟩
  | .hbm, ⟨39, _⟩ => ⟨S16x16x8x256x3x4, .f32⟩
  | .hbm, ⟨40, _⟩ => ⟨S16x16x8x256x3x7, .f32⟩
  | .hbm, ⟨41, _⟩ => ⟨S3x7, .i32⟩
  | .hbm, ⟨42, _⟩ => ⟨S3, .i32⟩
  | .hbm, ⟨43, _⟩ => ⟨S3x1, .i32⟩
  | .hbm, ⟨44, _⟩ => ⟨S_, .i32⟩
  | .hbm, ⟨45, _⟩ => ⟨S3x1, .i32⟩
  | .hbm, ⟨46, _⟩ => ⟨S3x1, .i1⟩
  | .hbm, ⟨47, _⟩ => ⟨S_, .i32⟩
  | .hbm, ⟨48, _⟩ => ⟨S3x1, .i32⟩
  | .hbm, ⟨49, _⟩ => ⟨S3x1, .i32⟩
  | .hbm, ⟨50, _⟩ => ⟨S3x1, .i32⟩
  | .hbm, ⟨51, _⟩ => ⟨S_, .i32⟩
  | .hbm, ⟨52, _⟩ => ⟨S3x7, .i32⟩
  | .hbm, ⟨53, _⟩ => ⟨S3x7, .i1⟩
  | .hbm, ⟨54, _⟩ => ⟨S_, .i32⟩
  | .hbm, ⟨55, _⟩ => ⟨S3x7, .i32⟩
  | .hbm, ⟨56, _⟩ => ⟨S3x7, .i32⟩
  | .hbm, ⟨57, _⟩ => ⟨S3x7, .i32⟩
  | .hbm, ⟨58, _⟩ => ⟨S3x7, .i32⟩
  | .hbm, ⟨59, _⟩ => ⟨S3x7x1, .i32⟩
  | .hbm, ⟨60, _⟩ => ⟨S3x7x1, .i32⟩
  | .hbm, ⟨61, _⟩ => ⟨S3x7x2, .i32⟩
  | .hbm, ⟨62, _⟩ => ⟨S16x16x8x256x3x7, .f32⟩
  | .hbm, ⟨63, _⟩ => ⟨S1572864x7, .f32⟩
  | .hbm, ⟨64, _⟩ => ⟨S1572864x90, .f32⟩
  | .hbm, ⟨65, _⟩ => ⟨S1x90, .f32⟩
  | .hbm, ⟨66, _⟩ => ⟨S1572864x90, .f32⟩
  | .hbm, ⟨67, _⟩ => ⟨S1572864x90, .f32⟩
  | .hbm, ⟨68, _⟩ => ⟨S_, .f32⟩
  | .hbm, ⟨69, _⟩ => ⟨S1572864x90, .f32⟩
  | .hbm, ⟨70, _⟩ => ⟨S1572864x90, .i1⟩
  | .hbm, ⟨71, _⟩ => ⟨S_, .f32⟩
  | .hbm, ⟨72, _⟩ => ⟨S1572864x90, .f32⟩
  | .hbm, ⟨73, _⟩ => ⟨S1572864x90, .i1⟩
  | .hbm, ⟨74, _⟩ => ⟨S_, .f32⟩
  | .hbm, ⟨75, _⟩ => ⟨S_, .f32⟩
  | .hbm, ⟨76, _⟩ => ⟨S1572864x90, .f32⟩
  | .hbm, ⟨77, _⟩ => ⟨S1572864x90, .f32⟩
  | .hbm, ⟨78, _⟩ => ⟨S1572864x90, .f32⟩
  | .hbm, ⟨79, _⟩ => ⟨S_, .f32⟩
  | .hbm, ⟨80, _⟩ => ⟨S1572864x90, .f32⟩
  | .hbm, ⟨81, _⟩ => ⟨S1572864x90, .f32⟩
  | .hbm, ⟨82, _⟩ => ⟨S1572864x90, .f32⟩
  | .hbm, ⟨83, _⟩ => ⟨S1572864x90, .f32⟩
  | .hbm, ⟨84, _⟩ => ⟨S1x90, .f32⟩
  | .hbm, ⟨85, _⟩ => ⟨S1572864x90, .f32⟩
  | .hbm, ⟨86, _⟩ => ⟨S1572864x90, .f32⟩
  | .hbm, ⟨87, _⟩ => ⟨S_, .f32⟩
  | .hbm, ⟨88, _⟩ => ⟨S1572864x90, .f32⟩
  | .hbm, ⟨89, _⟩ => ⟨S1572864x90, .i1⟩
  | .hbm, ⟨90, _⟩ => ⟨S_, .f32⟩
  | .hbm, ⟨91, _⟩ => ⟨S1572864x90, .f32⟩
  | .hbm, ⟨92, _⟩ => ⟨S1572864x90, .i1⟩
  | .hbm, ⟨93, _⟩ => ⟨S_, .f32⟩
  | .hbm, ⟨94, _⟩ => ⟨S_, .f32⟩
  | .hbm, ⟨95, _⟩ => ⟨S1572864x90, .f32⟩
  | .hbm, ⟨96, _⟩ => ⟨S1572864x90, .f32⟩
  | .hbm, ⟨97, _⟩ => ⟨S1572864x90, .f32⟩
  | .hbm, ⟨98, _⟩ => ⟨S_, .f32⟩
  | .hbm, ⟨99, _⟩ => ⟨S1572864x90, .f32⟩
  | .hbm, ⟨100, _⟩ => ⟨S1572864x90, .f32⟩
  | .hbm, ⟨101, _⟩ => ⟨S1572864x90, .f32⟩
  | .hbm, ⟨102, _⟩ => ⟨S1572864x1, .f32⟩
  | .hbm, ⟨103, _⟩ => ⟨S1x1, .f32⟩
  | .hbm, ⟨104, _⟩ => ⟨S1572864x1, .f32⟩
  | .hbm, ⟨105, _⟩ => ⟨S1572864x1, .f32⟩
  | .hbm, ⟨106, _⟩ => ⟨S16x16x8x256x3, .f32⟩
  | .hbm, ⟨107, _⟩ => ⟨S_, .f32⟩
  | .hbm, ⟨108, _⟩ => ⟨S16x16x8x256, .f32⟩
  | .hbm, ⟨109, _⟩ => ⟨S_, .f32⟩
  | .hbm, ⟨110, _⟩ => ⟨S16x16x256, .f32⟩
  | .hbm, ⟨111, _⟩ => ⟨S16x16x16x16, .f32⟩
  | _, _ => ⟨S16x8x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_0 : Ref sig .tc := ⟨.hbm, 44, rfl⟩
abbrev main_v32 : Ref sig .tc := ⟨.hbm, 45, rfl⟩
abbrev main_v33 : Ref sig .tc := ⟨.hbm, 46, rfl⟩
abbrev main_c_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_2 : Ref sig .tc := ⟨.hbm, 51, rfl⟩
abbrev main_v37 : Ref sig .tc := ⟨.hbm, 52, rfl⟩
abbrev main_v38 : Ref sig .tc := ⟨.hbm, 53, rfl⟩
abbrev main_c_3 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_cst_1 : Ref sig .tc := ⟨.hbm, 74, rfl⟩
abbrev main_call1_call0_v0 : Ref sig .tc := ⟨.hbm, 75, rfl⟩
abbrev main_call1_call0_v1 : Ref sig .tc := ⟨.hbm, 76, rfl⟩
abbrev main_call1_v4 : Ref sig .tc := ⟨.hbm, 77, rfl⟩
abbrev main_call1_v5 : Ref sig .tc := ⟨.hbm, 78, rfl⟩
abbrev main_call1_cst_2 : Ref sig .tc := ⟨.hbm, 79, rfl⟩
abbrev main_call1_v6 : Ref sig .tc := ⟨.hbm, 80, rfl⟩
abbrev main_call1_v7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_cst_0 : Ref sig .tc := ⟨.hbm, 90, rfl⟩
abbrev main_call2_v2 : Ref sig .tc := ⟨.hbm, 91, rfl⟩
abbrev main_call2_v3 : Ref sig .tc := ⟨.hbm, 92, rfl⟩
abbrev main_call2_cst_1 : Ref sig .tc := ⟨.hbm, 93, rfl⟩
abbrev main_call2_call0_v0 : Ref sig .tc := ⟨.hbm, 94, rfl⟩
abbrev main_call2_call0_v1 : Ref sig .tc := ⟨.hbm, 95, rfl⟩
abbrev main_call2_v4 : Ref sig .tc := ⟨.hbm, 96, rfl⟩
abbrev main_call2_v5 : Ref sig .tc := ⟨.hbm, 97, rfl⟩
abbrev main_call2_cst_2 : Ref sig .tc := ⟨.hbm, 98, rfl⟩
abbrev main_call2_v6 : Ref sig .tc := ⟨.hbm, 99, rfl⟩
abbrev main_call2_v7 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst : Ref sig .tc := ⟨.hbm, 107, rfl⟩
abbrev main_v63 : Ref sig .tc := ⟨.hbm, 108, rfl⟩
abbrev main_cst_4 : Ref sig .tc := ⟨.hbm, 109, rfl⟩
abbrev main_v64 : Ref sig .tc := ⟨.hbm, 110, rfl⟩
abbrev main_v65 : Ref sig .tc := ⟨.hbm, 111, rfl⟩

abbrev nD : Nat := 1
abbrev τ : Topo := Topo.v7x

variable {F : FTy → Type} [FloatOps F]

class Facts₀ : Prop where
  pads_S16x8x16x16_S16x8x18x18_000_000_110_110 : S16x8x16x16.Pads (![0, 0, 1, 1] : Fin 4 → Nat) ![0, 0, 1, 1] ![0, 0, 0, 0] S16x8x18x18
  h_S_ : 0 < S_.numel
  slices_S16x8x18x18_S16x8x16x16_0_0_0_0 : S16x8x18x18.Slices ![0, 0, 0, 0] S16x8x16x16
  slices_S16x8x18x18_S16x8x16x16_0_0_0_1 : S16x8x18x18.Slices ![0, 0, 0, 1] S16x8x16x16
  slices_S16x8x18x18_S16x8x16x16_0_0_0_2 : S16x8x18x18.Slices ![0, 0, 0, 2] S16x8x16x16
  slices_S16x8x18x18_S16x8x16x16_0_0_1_0 : S16x8x18x18.Slices ![0, 0, 1, 0] S16x8x16x16
  slices_S16x8x18x18_S16x8x16x16_0_0_1_1 : S16x8x18x18.Slices ![0, 0, 1, 1] S16x8x16x16
  slices_S16x8x18x18_S16x8x16x16_0_0_1_2 : S16x8x18x18.Slices ![0, 0, 1, 2] S16x8x16x16
  slices_S16x8x18x18_S16x8x16x16_0_0_2_0 : S16x8x18x18.Slices ![0, 0, 2, 0] S16x8x16x16
  slices_S16x8x18x18_S16x8x16x16_0_0_2_1 : S16x8x18x18.Slices ![0, 0, 2, 1] S16x8x16x16
  slices_S16x8x18x18_S16x8x16x16_0_0_2_2 : S16x8x18x18.Slices ![0, 0, 2, 2] S16x8x16x16
  bcast_S16x8x16x16_S16x8x1x16x16_0_1_3_4 : S16x8x16x16.BroadcastsInDim S16x8x1x16x16 (![0, 1, 3, 4] : Fin 4 → Fin S16x8x1x16x16.rank)
  concatenates_S16x8x1x16x16_S16x8x1x16x16_S16x8x1x16x16_S16x8x1x16x16_S16x8x1x16x16_S16x8x1x16x16_S16x8x1x16x16_S16x8x1x16x16_S16x8x1x16x16_S16x8x9x16x16_d2 : Shape.Concatenates [S16x8x1x16x16, S16x8x1x16x16, S16x8x1x16x16, S16x8x1x16x16, S16x8x1x16x16, S16x8x1x16x16, S16x8x1x16x16, S16x8x1x16x16, S16x8x1x16x16] S16x8x9x16x16 2
  shapeCasts_S16x8x9x16x16_S16x72x256 : S16x8x9x16x16.ShapeCasts S16x72x256
  shapeCasts_S16x72x256_S16x8x9x256 : S16x72x256.ShapeCasts S16x8x9x256
  transposes_S16x8x9x256_S16x8x256x9_0_1_3_2 : S16x8x9x256.Transposes [0, 1, 3, 2] S16x8x256x9
  shapeCasts_S16x8x256x9_S16x8x256x3x3 : S16x8x256x9.ShapeCasts S16x8x256x3x3
  bcast_S16x8x256x3x3_S16x1x8x256x3x3_0_2_3_4_5 : S16x8x256x3x3.BroadcastsInDim S16x1x8x256x3x3 (![0, 2, 3, 4, 5] : Fin 5 → Fin S16x1x8x256x3x3.rank)
  bcast_S16x1x8x256x3x3_S16x16x8x256x3x3_0_1_2_3_4_5 : S16x1x8x256x3x3.BroadcastsInDim S16x16x8x256x3x3 (![0, 1, 2, 3, 4, 5] : Fin 6 → Fin S16x16x8x256x3x3.rank)
  bcast_S16x8x3x4_S1x16x8x1x3x4_1_2_4_5 : S16x8x3x4.BroadcastsInDim S1x16x8x1x3x4 (![1, 2, 4, 5] : Fin 4 → Fin S1x16x8x1x3x4.rank)
  bcast_S1x16x8x1x3x4_S16x16x8x256x3x4_0_1_2_3_4_5 : S1x16x8x1x3x4.BroadcastsInDim S16x16x8x256x3x4 (![0, 1, 2, 3, 4, 5] : Fin 6 → Fin S16x16x8x256x3x4.rank)
  concatenates_S16x16x8x256x3x3_S16x16x8x256x3x4_S16x16x8x256x3x7_d5 : Shape.Concatenates [S16x16x8x256x3x3, S16x16x8x256x3x4] S16x16x8x256x3x7 5
  concatenates_S3x3_S3x4_S3x7_d1 : Shape.Concatenates [S3x3, S3x4] S3x7 1
  bcast_S3_S3x1_0 : S3.BroadcastsInDim S3x1 (![0] : Fin 1 → Fin S3x1.rank)
  bcast_S_S3x1 : S_.BroadcastsInDim S3x1 (![] : Fin 0 → Fin S3x1.rank)
  bcast_S_S3x7 : S_.BroadcastsInDim S3x7 (![] : Fin 0 → Fin S3x7.rank)
  bcast_S3x1_S3x7_0_1 : S3x1.BroadcastsInDim S3x7 (![0, 1] : Fin 2 → Fin S3x7.rank)
  bcast_S3x7_S3x7x1_0_1 : S3x7.BroadcastsInDim S3x7x1 (![0, 1] : Fin 2 → Fin S3x7x1.rank)
  concatenates_S3x7x1_S3x7x1_S3x7x2_d2 : Shape.Concatenates [S3x7x1, S3x7x1] S3x7x2 2
  shapeCasts_S16x16x8x256x3x7_S1572864x7 : S16x16x8x256x3x7.ShapeCasts S1572864x7
  bcast_S90_S1x90_1 : S90.BroadcastsInDim S1x90 (![1] : Fin 1 → Fin S1x90.rank)
  bcast_S1x90_S1572864x90_0_1 : S1x90.BroadcastsInDim S1572864x90 (![0, 1] : Fin 2 → Fin S1572864x90.rank)
  bcast_S_S1572864x90 : S_.BroadcastsInDim S1572864x90 (![] : Fin 0 → Fin S1572864x90.rank)
  bcast_S1_S1x1_1 : S1.BroadcastsInDim S1x1 (![1] : Fin 1 → Fin S1x1.rank)
  bcast_S1x1_S1572864x1_0_1 : S1x1.BroadcastsInDim S1572864x1 (![0, 1] : Fin 2 → Fin S1572864x1.rank)
  shapeCasts_S1572864x1_S16x16x8x256x3 : S1572864x1.ShapeCasts S16x16x8x256x3
  reducesTo_S16x16x8x256x3_S16x16x8x256_d4 : S16x16x8x256x3.ReducesTo [4] S16x16x8x256
  reducesTo_S16x16x8x256_S16x16x256_d2 : S16x16x8x256.ReducesTo [2] S16x16x256
  shapeCasts_S16x16x256_S16x16x16x16 : S16x16x256.ShapeCasts S16x16x16x16
  gather_S16x16x8x256x3x7_S3x7x2_S16x16x8x256x3x7_0123_45_n_n_45_2_1616825611_wf : GatherDims.WF S16x16x8x256x3x7 S3x7x2 S16x16x8x256x3x7 [0, 1, 2, 3] [4, 5] [] [4, 5] [] 2 ![16, 16, 8, 256, 1, 1]
  dot_S1572864x7_S7x90_S1572864x90_1_0_0_1_n_n_wf : DotDims.WF S1572864x7 S7x90 S1572864x90 [1] [0] [0] [1] [] []
  dot_S1572864x90_S90x90_S1572864x90_1_0_0_1_n_n_wf : DotDims.WF S1572864x90 S90x90 S1572864x90 [1] [0] [0] [1] [] []
  dot_S1572864x90_S90x1_S1572864x1_1_0_0_1_n_n_wf : DotDims.WF S1572864x90 S90x1 S1572864x1 [1] [0] [0] [1] [] []

variable [Facts₀]

def gather_S16x16x8x256x3x7_S3x7x2_S16x16x8x256x3x7_0123_45_n_n_45_2_1616825611 : GatherDims S16x16x8x256x3x7 S3x7x2 S16x16x8x256x3x7 where
  offsetDims := [0, 1, 2, 3]
  collapsedSliceDims := [4, 5]
  operandBatchingDims := []
  startIndicesBatchingDims := []
  startIndexMap := [4, 5]
  indexVectorDim := 2
  sliceSizes := ![16, 16, 8, 256, 1, 1]
  wf := gather_S16x16x8x256x3x7_S3x7x2_S16x16x8x256x3x7_0123_45_n_n_45_2_1616825611_wf
def dot_S1572864x7_S7x90_S1572864x90_1_0_0_1_n_n : DotDims S1572864x7 S7x90 S1572864x90 where
  lhsContracting := [1]
  rhsContracting := [0]
  lhsNonContracting := [0]
  rhsNonContracting := [1]
  lhsBatch := []
  rhsBatch := []
  wf := dot_S1572864x7_S7x90_S1572864x90_1_0_0_1_n_n_wf
def dot_S1572864x90_S90x90_S1572864x90_1_0_0_1_n_n : DotDims S1572864x90 S90x90 S1572864x90 where
  lhsContracting := [1]
  rhsContracting := [0]
  lhsNonContracting := [0]
  rhsNonContracting := [1]
  lhsBatch := []
  rhsBatch := []
  wf := dot_S1572864x90_S90x90_S1572864x90_1_0_0_1_n_n_wf
def dot_S1572864x90_S90x1_S1572864x1_1_0_0_1_n_n : DotDims S1572864x90 S90x1 S1572864x1 where
  lhsContracting := [1]
  rhsContracting := [0]
  lhsNonContracting := [0]
  rhsNonContracting := [1]
  lhsBatch := []
  rhsBatch := []
  wf := dot_S1572864x90_S90x1_S1572864x1_1_0_0_1_n_n_wf

class Facts : Prop extends Facts₀ where

variable [Facts]
-- ==== Proof.BitsFrame.lean ====
/-
  The program around its one pallas_call: the host lines before it compute the table of rows and the narrowed weights,
  the call runs the three-layer network block by block over a grid of 96 points, and the host lines after it add the
  outputs up. This module says what every buffer holds when the call is entered (the fold of the earlier lines over
  the launch memory), that no host line ever writes an argument array, what block of its array each window of the call
  holds at a grid point, and that a run which ends with every array of the call as the proof data computes it and
  every other buffer as the later lines leave it is, in particular, a run that leaves the ten arguments as launched.
-/
import proofs.«141062_j86612310491664_1_alg».proof.Proof.Gen.Kernel.Launch
import proofs.«141062_j86612310491664_1_alg».proof.Proof.Gen.Kernel.Skeleton
import proofs.«141062_j86612310491664_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold when the call is entered -/

/-- Core `c`'s buffer contents when the call is entered: the host lines before it, folded over the launch memory. -/
abbrev entry (c : Dev nD) : Valuation τ sig (Elt F) :=
  StableHlo.after (List.flatten [hostOps0, hostOps0_1, hostOps0_2]) (fun b => m (c, b))
/-- The same, read at a reference of the core. -/
abbrev entryAt (c : Dev nD) (b : Ref sig .tc) : Buf (Elt F) ((c : Thread nD τ).loc b) := entry m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the lines before the call, the call, the lines after it. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## Which buffers the host lines write -/

/-- A reference outside a list that holds every buffer the lines write is written by none of them. -/
theorem not_written {W : List (Ref sig .tc)} {r : Ref sig .tc} (ops : List (HloOp τ sig (Elt F)))
    (hW : ops.Forall fun op => op.writes ⊆ (W.map (Proc.devRef (τ := τ) .tc)).toFinset) (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

/-- Every buffer a line before the call writes: each line's own result. -/
def earlier : List (Ref sig .tc) :=
  [main_c, main_call0_v0, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_c_0, main_v32, main_v33, main_c_1, main_v34, main_v35, main_v36, main_c_2, main_v37, main_v38, main_c_3, main_v39, main_v40, main_v41, main_v42, main_v43, main_v44, main_v45, main_v46, main_v47, main_v48, main_v49, main_v50, main_v51]

/-- Every buffer a line after the call writes. -/
def later : List (Ref sig .tc) := [main_v53, main_cst, main_v54, main_cst_4, main_v55, main_v56]

theorem earlier_holds : (List.flatten [hostOps0, hostOps0_1, hostOps0_2] : List (HloOp τ sig (Elt F))).Forall
    fun op => op.writes ⊆ (earlier.map (Proc.devRef (τ := τ) .tc)).toFinset := by
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.reshape_writes, StableHlo.nary_writes, Finset.singleton_subset_iff]
  repeat' apply And.intro
  all_goals exact List.mem_toFinset.mpr (List.mem_map_of_mem (by decide))

theorem later_holds : (List.flatten [hostOps1] : List (HloOp τ sig (Elt F))).Forall
    fun op => op.writes ⊆ (later.map (Proc.devRef (τ := τ) .tc)).toFinset := by
  simp only [hostOps1, List.flatten_cons, List.flatten_nil, List.append_nil, List.cons_append,
    List.nil_append, List.Forall, StableHlo.nullary_writes, StableHlo.unary_writes, StableHlo.binary_writes,
    StableHlo.ternary_writes, StableHlo.reshape_writes, StableHlo.nary_writes, Finset.singleton_subset_iff]
  repeat' apply And.intro
  all_goals exact List.mem_toFinset.mpr (List.mem_map_of_mem (by decide))

/-- A buffer no earlier line writes is found by the call as launched. -/
theorem entry_kept (c : Dev nD) (b : Ref sig .tc) (hb : b ∉ earlier) : entryAt m c b = m ((c : Thread nD τ).loc b) :=
  StableHlo.after_of_writes_sub _ _ earlier_holds hb

/-- The lines after the call touch the call's arrays and the buffers that bypass it, nothing else. -/
theorem later_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem later_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And they write no array of the call. -/
theorem later_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  refine not_written (W := later) hostOps1 ?_ ((by decide : ∀ w, Pipeline.arrRef spec0 w ∉ later) w) op hop
  have h := later_holds (F := F)
  simp only [List.flatten_cons, List.flatten_nil, List.append_nil] at h
  exact h

/-- A buffer that is no array of the call and that no host line writes ends the program as launched. -/
theorem exit_kept (dats : (p : Fin _) → (c : Dev nD) → Dat τ (Elt F) Unit ℕ (UR sig nD τ) ℕ (cfgs p) c) (c : Dev nD)
    (b : Ref sig .tc) (hb : b ∉ earlier) (hb' : b ∉ later) (ha : ∀ w, Pipeline.arrRef spec0 w ≠ b) :
    Pipeline.afterTail₀ cfgs dats 0 (entry m) [hostOps1] c b = m ((c : Thread nD τ).loc b) := by
  unfold Pipeline.afterTail₀
  rw [StableHlo.after_of_writes_sub _ _ later_holds hb', Pipeline.withArrays_of_ne _ c (entry m c) _ b ha]
  exact entry_kept m c b hb

/-! ## The windows' blocks -/

/-- Window `w`'s block at grid point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-! ## What an input window's buffer holds at a point -/

/-- Input window 0's current buffer holds its block at every grid point, fetched there or not, for any proof data
    whose array is the entry contents and whose body leaves the block in place. -/
theorem held0_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current buffer holds its block at every grid point, fetched there or not, for any proof data
    whose array is the entry contents and whose body leaves the block in place. -/
theorem held1_of {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current buffer holds its block at every grid point, fetched there or not, for any proof data
    whose array is the entry contents and whose body leaves the block in place. -/
theorem held2_of {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current buffer holds its block at every grid point, fetched there or not, for any proof data
    whose array is the entry contents and whose body leaves the block in place. -/
theorem held3_of {c : Dev nD} (dat : Dat τ (Elt F) Unit ℕ (UR sig nD τ) ℕ cfg0 c) (hA : dat.A 3 = entryAt m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current buffer holds its block at every grid point, fetched there or not, for any proof data
    whose array is the entry contents and whose body leaves the block in place. -/
theorem held4_of {c : Dev nD} (dat : Dat τ (Elt F) Unit ℕ (UR sig nD τ) ℕ cfg0 c) (hA : dat.A 4 = entryAt m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current buffer holds its block at every grid point, fetched there or not, for any proof data
    whose array is the entry contents and whose body leaves the block in place. -/
theorem held5_of {c : Dev nD} (dat : Dat τ (Elt F) Unit ℕ (UR sig nD τ) ℕ cfg0 c) (hA : dat.A 5 = entryAt m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current buffer holds its block at every grid point, fetched there or not, for any proof data
    whose array is the entry contents and whose body leaves the block in place. -/
theorem held6_of {c : Dev nD} (dat : Dat τ (Elt F) Unit ℕ (UR sig nD τ) ℕ cfg0 c) (hA : dat.A 6 = entryAt m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end as launched -/

/-- In a final state that has every array of the call as the proof data computes it and every other buffer as the later
    lines leave it, the ten argument arrays are as launched. Three of them (the two hidden biases and the output bias) are
    arrays of the call, staged and never written back; the other seven bypass it. -/
theorem args_at (dats : (p : Fin 1) → (c : Dev nD) → Dat τ (Elt F) Unit ℕ (UR sig nD τ) ℕ (cfgs p) c)
    (hA : ∀ c w, (dats 0 c).A w = entryAt m c (Pipeline.arrRef spec0 w)) (r : PUnit × MemSt nD τ sig (Elt F))
    (h : Pipeline.FramePost cfgs dats 0 (Pipeline.afterTail₀ cfgs dats 0 (entry m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
    ⟨((h c).2 main_arg0 (Pipeline.mem_restRefs_of main_arg0 (by decide) (by decide))).trans (exit_kept m dats c main_arg0 (by decide) (by decide) (by decide)),
     ((h c).2 main_arg1 (Pipeline.mem_restRefs_of main_arg1 (by decide) (by decide))).trans (exit_kept m dats c main_arg1 (by decide) (by decide) (by decide)),
     ((h c).2 main_arg2 (Pipeline.mem_restRefs_of main_arg2 (by decide) (by decide))).trans (exit_kept m dats c main_arg2 (by decide) (by decide) (by decide)),
     ((h c).1 2).trans (((dats 0 c).arrAt_in 2 rfl _).trans ((hA c 2).trans (entry_kept m c main_arg3 (by decide)))),
     ((h c).2 main_arg4 (Pipeline.mem_restRefs_of main_arg4 (by decide) (by decide))).trans (exit_kept m dats c main_arg4 (by decide) (by decide) (by decide)),
     ((h c).1 4).trans (((dats 0 c).arrAt_in 4 rfl _).trans ((hA c 4).trans (entry_kept m c main_arg5 (by decide)))),
     ((h c).2 main_arg6 (Pipeline.mem_restRefs_of main_arg6 (by decide) (by decide))).trans (exit_kept m dats c main_arg6 (by decide) (by decide) (by decide)),
     ((h c).1 6).trans (((dats 0 c).arrAt_in 6 rfl _).trans ((hA c 6).trans (entry_kept m c main_arg7 (by decide)))),
     ((h c).2 main_arg8 (Pipeline.mem_restRefs_of main_arg8 (by decide) (by decide))).trans (exit_kept m dats c main_arg8 (by decide) (by decide) (by decide)),
     ((h c).2 main_arg9 (Pipeline.mem_restRefs_of main_arg9 (by decide) (by decide))).trans (exit_kept m dats c main_arg9 (by decide) (by decide) (by decide))⟩

/-- So a run to such final states leaves the ten arguments as launched. -/
theorem args_kept_of (dats : (p : Fin 1) → (c : Dev nD) → Dat τ (Elt F) Unit ℕ (UR sig nD τ) ℕ (cfgs p) c)
    (hA : ∀ c w, (dats 0 c).A w = entryAt m c (Pipeline.arrRef spec0 w))
    (h : θ_run defs (onTc (τ := τ) (main (F := F))) (s₀ m ρ) (Pipeline.FramePost cfgs dats 0 (Pipeline.afterTail₀ cfgs dats 0 (entry m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_at m dats hA r h c) h

/-! ## The body: whole-buffer loads, one whole-buffer store -/

abbrev boxRows : Rect S16384x7 := Rect.unit (s := S16384x7) ![0, 0] S16384x7.size inb_S16384x7_S16384x7_0_0
abbrev boxW1 : Rect S7x90 := Rect.unit (s := S7x90) ![0, 0] S7x90.size inb_S7x90_S7x90_0_0
abbrev boxB : Rect S90 := Rect.unit (s := S90) ![0] S90.size inb_S90_S90_0
abbrev boxW2 : Rect S90x90 := Rect.unit (s := S90x90) ![0, 0] S90x90.size inb_S90x90_S90x90_0_0
abbrev boxW3 : Rect S90x1 := Rect.unit (s := S90x1) ![0, 0] S90x1.size inb_S90x1_S90x1_0_0
abbrev boxB3 : Rect S1 := Rect.unit (s := S1) ![0] S1.size inb_S1_S1_0
abbrev boxOut : Rect S16384x1 := Rect.unit (s := S16384x1) ![0, 0] S16384x1.size inb_S16384x1_S16384x1_0_0

/-- What the body leaves in the output window's buffer, from the seven input blocks: its one store, of the network's value
    on the block of rows, over the whole buffer. -/
def left (x0 : Vec F S16384x7 .bf16) (x1 : Vec F S7x90 .bf16) (x2 : Vec F S90 .f32) (x3 : Vec F S90x90 .bf16) (x4 : Vec F S90 .f32)
    (x5 : Vec F S90x1 .bf16) (x6 : Vec F S1 .f32) : Vec F S16384x1 .f32 :=
  View.canon [⟨boxOut, k0_pay1 (View.ld x0 boxRows) (View.ld x1 boxW1) (View.ld x2 boxB) (View.ld x3 boxW2) (View.ld x4 boxB) (View.ld x5 boxW3) (View.ld x6 boxB3)⟩]

/-- The one store covers the buffer. -/
theorem left_covers (p0 : Vec F S16384x1 .f32) (y : S16384x1.Idx) :
    ∃ pc ∈ ([⟨boxOut, p0⟩] : List (View.Piece (Elt F) S16384x1 .f32)), y ∈ pc.1.set :=
  View.cover_of_tiled [⟨boxOut, p0⟩] S16384x1.size (by rfl) y

set_option maxHeartbeats 1000000 in
/-- The body on whole buffers, the inputs' holding `x0 … x6` and the output's holding anything, runs to its end with the
    inputs' as they were and the output's at `left x0 … x6`. -/
theorem body_runs (c : Dev nD) (E : Set ℕ) (i : grid0.Coords)
    (a1 : Memref sig .tc .vmem S16384x7 .bf16) (h1 : a1.IsWhole) (a2 : Memref sig .tc .vmem S7x90 .bf16) (h2 : a2.IsWhole)
    (a3 : Memref sig .tc .vmem S90 .f32) (h3 : a3.IsWhole) (a4 : Memref sig .tc .vmem S90x90 .bf16) (h4 : a4.IsWhole)
    (a5 : Memref sig .tc .vmem S90 .f32) (h5 : a5.IsWhole) (a6 : Memref sig .tc .vmem S90x1 .bf16) (h6 : a6.IsWhole)
    (a7 : Memref sig .tc .vmem S1 .f32) (h7 : a7.IsWhole) (a8 : Memref sig .tc .vmem S16384x1 .f32) (h8 : a8.IsWhole)
    (x0 : Vec F S16384x7 .bf16) (x1 : Vec F S7x90 .bf16) (x2 : Vec F S90 .f32) (x3 : Vec F S90x90 .bf16) (x4 : Vec F S90 .f32)
    (x5 : Vec F S90x1 .bf16) (x6 : Vec F S1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare (left x0 x1 x2 x3 x4 x5 x6)) -∗ K ⟨⟩))
      ⊢ wp frame (wpE (defs₀ (F := F)) Variants.none c none) E (cc0__mlp_kernel i a1 h1 a2 h2 a3 h3 a4 h4 a5 h5 a6 h6 a7 h7 a8 h8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (left_covers _)

/-! ## The call's proof data -/

/-- The proof data of the one pipeline on core `c`: the arrays as the call finds them; after the body at point `t` each input's
    buffer at its block and the output's at `left` of the input blocks; the invariant of a body that keeps nothing of its own;
    nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => left (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

/-- The proof data's arrays are the entry contents (projected, so that the fold over the host lines is never opened). -/
theorem arrays_eq (c : Dev nD) (w : Fin cfg0.W) : (dats m 0 c).A w = entryAt m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = blockAt m c 6 t := by dsimp only [dats]
theorem after7 (c : Dev nD) (t : Fin cfg0.N) : (dats m 0 c).after 7 t
    = left (blockAt m c 0 t) (blockAt m c 1 t) (blockAt m c 2 t) (blockAt m c 3 t) (blockAt m c 4 t) (blockAt m c 5 t) (blockAt m c 6 t) := by dsimp only [dats]

theorem held0 (c : Dev nD) (t : Fin cfg0.N) (d) : (dats m 0 c).before 0 t d = blockAt m c 0 t :=
  held0_of m (dats m 0 c) (arrays_eq m c 0) (after0 m c) t d
theorem held1 (c : Dev nD) (t : Fin cfg0.N) (d) : (dats m 0 c).before 1 t d = blockAt m c 1 t :=
  held1_of m (dats m 0 c) (arrays_eq m c 1) (after1 m c) t d
theorem held2 (c : Dev nD) (t : Fin cfg0.N) (d) : (dats m 0 c).before 2 t d = blockAt m c 2 t :=
  held2_of m (dats m 0 c) (arrays_eq m c 2) (after2 m c) t d
theorem held3 (c : Dev nD) (t : Fin cfg0.N) (d) : (dats m 0 c).before 3 t d = blockAt m c 3 t :=
  held3_of m (dats m 0 c) (arrays_eq m c 3) (after3 m c) t d
theorem held4 (c : Dev nD) (t : Fin cfg0.N) (d) : (dats m 0 c).before 4 t d = blockAt m c 4 t :=
  held4_of m (dats m 0 c) (arrays_eq m c 4) (after4 m c) t d
theorem held5 (c : Dev nD) (t : Fin cfg0.N) (d) : (dats m 0 c).before 5 t d = blockAt m c 5 t :=
  held5_of m (dats m 0 c) (arrays_eq m c 5) (after5 m c) t d
theorem held6 (c : Dev nD) (t : Fin cfg0.N) (d) : (dats m 0 c).before 6 t d = blockAt m c 6 t :=
  held6_of m (dats m 0 c) (arrays_eq m c 6) (after6 m c) t d

/-! ## The body at a grid point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `body_runs` applies; the invariant and the core's
    dues pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4, held5, held6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c Set.univ (grid0.coords t) _ _ _ _ _ _ _ _ _ _ _ _ _ _ _ _
    (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's obligation on the body, at every point. -/
theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of the program terminates, and every final state has
    every array of the call at what the proof data computes and every other unscoped buffer as the lines after the call
    leave it. -/
theorem run_main : θ_run defs (onTc (τ := τ) (main (F := F))) (s₀ m ρ) (Pipeline.FramePost cfgs (dats m) 0 (Pipeline.afterTail₀ cfgs (dats m) 0 (entry m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry m) (opss := [hostOps1]) (hsub := later_sub) (hfresh := later_fresh) (hkeep := later_keeps)
    (hmain := main_around m Variants.none) (hA := arrays_eq m) (hΦ := fun _ _ => rfl)

/-- The program runs to its end, nothing faulting, and the ten argument arrays end as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  args_kept_of m ρ (dats m) (arrays_eq m) (run_main m ρ)

end Cert.Kernel.Hand

end
-- ==== Proof.IdealFrame.lean ====
/-
  The program around its one pallas_call: the host lines before it compute the table of rows and the narrowed weights,
  the call runs the three-layer network block by block over a grid of 96 points, and the host lines after it add the
  outputs up. This module says what every buffer holds when the call is entered (the fold of the earlier lines over
  the launch memory), that no host line ever writes an argument array, what block of its array each window of the call
  holds at a grid point, and that a run which ends with every array of the call as the proof data computes it and
  every other buffer as the later lines leave it is, in particular, a run that leaves the ten arguments as launched.
-/
import proofs.«141062_j86612310491664_1_alg».proof.Proof.Gen.KernelIdeal.Launch
import proofs.«141062_j86612310491664_1_alg».proof.Proof.Gen.KernelIdeal.Skeleton
import proofs.«141062_j86612310491664_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold when the call is entered -/

/-- Core `c`'s buffer contents when the call is entered: the host lines before it, folded over the launch memory. -/
abbrev entry (c : Dev nD) : Valuation τ sig (Elt F) :=
  StableHlo.after (List.flatten [hostOps0, hostOps0_1, hostOps0_2]) (fun b => m (c, b))
/-- The same, read at a reference of the core. -/
abbrev entryAt (c : Dev nD) (b : Ref sig .tc) : Buf (Elt F) ((c : Thread nD τ).loc b) := entry m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the lines before the call, the call, the lines after it. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## Which buffers the host lines write -/

/-- A reference outside a list that holds every buffer the lines write is written by none of them. -/
theorem not_written {W : List (Ref sig .tc)} {r : Ref sig .tc} (ops : List (HloOp τ sig (Elt F)))
    (hW : ops.Forall fun op => op.writes ⊆ (W.map (Proc.devRef (τ := τ) .tc)).toFinset) (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

/-- Every buffer a line before the call writes: each line's own result. -/
def earlier : List (Ref sig .tc) :=
  [main_c, main_call0_v0, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_c_0, main_v32, main_v33, main_c_1, main_v34, main_v35, main_v36, main_c_2, main_v37, main_v38, main_c_3, main_v39, main_v40, main_v41, main_v42, main_v43, main_v44, main_v45, main_v46, main_v47, main_v48, main_v49, main_v50, main_v51]

/-- Every buffer a line after the call writes. -/
def later : List (Ref sig .tc) := [main_v53, main_cst, main_v54, main_cst_4, main_v55, main_v56]

theorem earlier_holds : (List.flatten [hostOps0, hostOps0_1, hostOps0_2] : List (HloOp τ sig (Elt F))).Forall
    fun op => op.writes ⊆ (earlier.map (Proc.devRef (τ := τ) .tc)).toFinset := by
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.reshape_writes, StableHlo.nary_writes, Finset.singleton_subset_iff]
  repeat' apply And.intro
  all_goals exact List.mem_toFinset.mpr (List.mem_map_of_mem (by decide))

theorem later_holds : (List.flatten [hostOps1] : List (HloOp τ sig (Elt F))).Forall
    fun op => op.writes ⊆ (later.map (Proc.devRef (τ := τ) .tc)).toFinset := by
  simp only [hostOps1, List.flatten_cons, List.flatten_nil, List.append_nil, List.cons_append,
    List.nil_append, List.Forall, StableHlo.nullary_writes, StableHlo.unary_writes, StableHlo.binary_writes,
    StableHlo.ternary_writes, StableHlo.reshape_writes, StableHlo.nary_writes, Finset.singleton_subset_iff]
  repeat' apply And.intro
  all_goals exact List.mem_toFinset.mpr (List.mem_map_of_mem (by decide))

/-- A buffer no earlier line writes is found by the call as launched. -/
theorem entry_kept (c : Dev nD) (b : Ref sig .tc) (hb : b ∉ earlier) : entryAt m c b = m ((c : Thread nD τ).loc b) :=
  StableHlo.after_of_writes_sub _ _ earlier_holds hb

/-- The lines after the call touch the call's arrays and the buffers that bypass it, nothing else. -/
theorem later_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem later_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And they write no array of the call. -/
theorem later_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  refine not_written (W := later) hostOps1 ?_ ((by decide : ∀ w, Pipeline.arrRef spec0 w ∉ later) w) op hop
  have h := later_holds (F := F)
  simp only [List.flatten_cons, List.flatten_nil, List.append_nil] at h
  exact h

/-- A buffer that is no array of the call and that no host line writes ends the program as launched. -/
theorem exit_kept (dats : (p : Fin _) → (c : Dev nD) → Dat τ (Elt F) Unit ℕ (UR sig nD τ) ℕ (cfgs p) c) (c : Dev nD)
    (b : Ref sig .tc) (hb : b ∉ earlier) (hb' : b ∉ later) (ha : ∀ w, Pipeline.arrRef spec0 w ≠ b) :
    Pipeline.afterTail₀ cfgs dats 0 (entry m) [hostOps1] c b = m ((c : Thread nD τ).loc b) := by
  unfold Pipeline.afterTail₀
  rw [StableHlo.after_of_writes_sub _ _ later_holds hb', Pipeline.withArrays_of_ne _ c (entry m c) _ b ha]
  exact entry_kept m c b hb

/-! ## The windows' blocks -/

/-- Window `w`'s block at grid point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-! ## What an input window's buffer holds at a point -/

/-- Input window 0's current buffer holds its block at every grid point, fetched there or not, for any proof data
    whose array is the entry contents and whose body leaves the block in place. -/
theorem held0_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current buffer holds its block at every grid point, fetched there or not, for any proof data
    whose array is the entry contents and whose body leaves the block in place. -/
theorem held1_of {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current buffer holds its block at every grid point, fetched there or not, for any proof data
    whose array is the entry contents and whose body leaves the block in place. -/
theorem held2_of {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current buffer holds its block at every grid point, fetched there or not, for any proof data
    whose array is the entry contents and whose body leaves the block in place. -/
theorem held3_of {c : Dev nD} (dat : Dat τ (Elt F) Unit ℕ (UR sig nD τ) ℕ cfg0 c) (hA : dat.A 3 = entryAt m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current buffer holds its block at every grid point, fetched there or not, for any proof data
    whose array is the entry contents and whose body leaves the block in place. -/
theorem held4_of {c : Dev nD} (dat : Dat τ (Elt F) Unit ℕ (UR sig nD τ) ℕ cfg0 c) (hA : dat.A 4 = entryAt m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current buffer holds its block at every grid point, fetched there or not, for any proof data
    whose array is the entry contents and whose body leaves the block in place. -/
theorem held5_of {c : Dev nD} (dat : Dat τ (Elt F) Unit ℕ (UR sig nD τ) ℕ cfg0 c) (hA : dat.A 5 = entryAt m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current buffer holds its block at every grid point, fetched there or not, for any proof data
    whose array is the entry contents and whose body leaves the block in place. -/
theorem held6_of {c : Dev nD} (dat : Dat τ (Elt F) Unit ℕ (UR sig nD τ) ℕ cfg0 c) (hA : dat.A 6 = entryAt m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end as launched -/

/-- In a final state that has every array of the call as the proof data computes it and every other buffer as the later
    lines leave it, the ten argument arrays are as launched. Three of them (the two hidden biases and the output bias) are
    arrays of the call, staged and never written back; the other seven bypass it. -/
theorem args_at (dats : (p : Fin 1) → (c : Dev nD) → Dat τ (Elt F) Unit ℕ (UR sig nD τ) ℕ (cfgs p) c)
    (hA : ∀ c w, (dats 0 c).A w = entryAt m c (Pipeline.arrRef spec0 w)) (r : PUnit × MemSt nD τ sig (Elt F))
    (h : Pipeline.FramePost cfgs dats 0 (Pipeline.afterTail₀ cfgs dats 0 (entry m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
    ⟨((h c).2 main_arg0 (Pipeline.mem_restRefs_of main_arg0 (by decide) (by decide))).trans (exit_kept m dats c main_arg0 (by decide) (by decide) (by decide)),
     ((h c).2 main_arg1 (Pipeline.mem_restRefs_of main_arg1 (by decide) (by decide))).trans (exit_kept m dats c main_arg1 (by decide) (by decide) (by decide)),
     ((h c).2 main_arg2 (Pipeline.mem_restRefs_of main_arg2 (by decide) (by decide))).trans (exit_kept m dats c main_arg2 (by decide) (by decide) (by decide)),
     ((h c).1 2).trans (((dats 0 c).arrAt_in 2 rfl _).trans ((hA c 2).trans (entry_kept m c main_arg3 (by decide)))),
     ((h c).2 main_arg4 (Pipeline.mem_restRefs_of main_arg4 (by decide) (by decide))).trans (exit_kept m dats c main_arg4 (by decide) (by decide) (by decide)),
     ((h c).1 4).trans (((dats 0 c).arrAt_in 4 rfl _).trans ((hA c 4).trans (entry_kept m c main_arg5 (by decide)))),
     ((h c).2 main_arg6 (Pipeline.mem_restRefs_of main_arg6 (by decide) (by decide))).trans (exit_kept m dats c main_arg6 (by decide) (by decide) (by decide)),
     ((h c).1 6).trans (((dats 0 c).arrAt_in 6 rfl _).trans ((hA c 6).trans (entry_kept m c main_arg7 (by decide)))),
     ((h c).2 main_arg8 (Pipeline.mem_restRefs_of main_arg8 (by decide) (by decide))).trans (exit_kept m dats c main_arg8 (by decide) (by decide) (by decide)),
     ((h c).2 main_arg9 (Pipeline.mem_restRefs_of main_arg9 (by decide) (by decide))).trans (exit_kept m dats c main_arg9 (by decide) (by decide) (by decide))⟩

/-- So a run to such final states leaves the ten arguments as launched. -/
theorem args_kept_of (dats : (p : Fin 1) → (c : Dev nD) → Dat τ (Elt F) Unit ℕ (UR sig nD τ) ℕ (cfgs p) c)
    (hA : ∀ c w, (dats 0 c).A w = entryAt m c (Pipeline.arrRef spec0 w))
    (h : θ_run defs (onTc (τ := τ) (main (F := F))) (s₀ m ρ) (Pipeline.FramePost cfgs dats 0 (Pipeline.afterTail₀ cfgs dats 0 (entry m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_at m dats hA r h c) h

/-! ## The body: whole-buffer loads, one whole-buffer store -/

abbrev boxRows : Rect S16384x7 := Rect.unit (s := S16384x7) ![0, 0] S16384x7.size inb_S16384x7_S16384x7_0_0
abbrev boxW1 : Rect S7x90 := Rect.unit (s := S7x90) ![0, 0] S7x90.size inb_S7x90_S7x90_0_0
abbrev boxB : Rect S90 := Rect.unit (s := S90) ![0] S90.size inb_S90_S90_0
abbrev boxW2 : Rect S90x90 := Rect.unit (s := S90x90) ![0, 0] S90x90.size inb_S90x90_S90x90_0_0
abbrev boxW3 : Rect S90x1 := Rect.unit (s := S90x1) ![0, 0] S90x1.size inb_S90x1_S90x1_0_0
abbrev boxB3 : Rect S1 := Rect.unit (s := S1) ![0] S1.size inb_S1_S1_0
abbrev boxOut : Rect S16384x1 := Rect.unit (s := S16384x1) ![0, 0] S16384x1.size inb_S16384x1_S16384x1_0_0

/-- What the body leaves in the output window's buffer, from the seven input blocks: its one store, of the network's value
    on the block of rows, over the whole buffer. -/
def left (x0 : Vec F S16384x7 .bf16) (x1 : Vec F S7x90 .bf16) (x2 : Vec F S90 .f32) (x3 : Vec F S90x90 .bf16) (x4 : Vec F S90 .f32)
    (x5 : Vec F S90x1 .bf16) (x6 : Vec F S1 .f32) : Vec F S16384x1 .f32 :=
  View.canon [⟨boxOut, k0_pay1 (View.ld x0 boxRows) (View.ld x1 boxW1) (View.ld x2 boxB) (View.ld x3 boxW2) (View.ld x4 boxB) (View.ld x5 boxW3) (View.ld x6 boxB3)⟩]

/-- The one store covers the buffer. -/
theorem left_covers (p0 : Vec F S16384x1 .f32) (y : S16384x1.Idx) :
    ∃ pc ∈ ([⟨boxOut, p0⟩] : List (View.Piece (Elt F) S16384x1 .f32)), y ∈ pc.1.set :=
  View.cover_of_tiled [⟨boxOut, p0⟩] S16384x1.size (by rfl) y

set_option maxHeartbeats 1000000 in
/-- The body on whole buffers, the inputs' holding `x0 … x6` and the output's holding anything, runs to its end with the
    inputs' as they were and the output's at `left x0 … x6`. -/
theorem body_runs (c : Dev nD) (E : Set ℕ) (i : grid0.Coords)
    (a1 : Memref sig .tc .vmem S16384x7 .bf16) (h1 : a1.IsWhole) (a2 : Memref sig .tc .vmem S7x90 .bf16) (h2 : a2.IsWhole)
    (a3 : Memref sig .tc .vmem S90 .f32) (h3 : a3.IsWhole) (a4 : Memref sig .tc .vmem S90x90 .bf16) (h4 : a4.IsWhole)
    (a5 : Memref sig .tc .vmem S90 .f32) (h5 : a5.IsWhole) (a6 : Memref sig .tc .vmem S90x1 .bf16) (h6 : a6.IsWhole)
    (a7 : Memref sig .tc .vmem S1 .f32) (h7 : a7.IsWhole) (a8 : Memref sig .tc .vmem S16384x1 .f32) (h8 : a8.IsWhole)
    (x0 : Vec F S16384x7 .bf16) (x1 : Vec F S7x90 .bf16) (x2 : Vec F S90 .f32) (x3 : Vec F S90x90 .bf16) (x4 : Vec F S90 .f32)
    (x5 : Vec F S90x1 .bf16) (x6 : Vec F S1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare (left x0 x1 x2 x3 x4 x5 x6)) -∗ K ⟨⟩))
      ⊢ wp frame (wpE (defs₀ (F := F)) Variants.none c none) E (cc0__mlp_kernel i a1 h1 a2 h2 a3 h3 a4 h4 a5 h5 a6 h6 a7 h7 a8 h8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (left_covers _)

/-! ## The call's proof data -/

/-- The proof data of the one pipeline on core `c`: the arrays as the call finds them; after the body at point `t` each input's
    buffer at its block and the output's at `left` of the input blocks; the invariant of a body that keeps nothing of its own;
    nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => left (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

/-- The proof data's arrays are the entry contents (projected, so that the fold over the host lines is never opened). -/
theorem arrays_eq (c : Dev nD) (w : Fin cfg0.W) : (dats m 0 c).A w = entryAt m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = blockAt m c 6 t := by dsimp only [dats]
theorem after7 (c : Dev nD) (t : Fin cfg0.N) : (dats m 0 c).after 7 t
    = left (blockAt m c 0 t) (blockAt m c 1 t) (blockAt m c 2 t) (blockAt m c 3 t) (blockAt m c 4 t) (blockAt m c 5 t) (blockAt m c 6 t) := by dsimp only [dats]

theorem held0 (c : Dev nD) (t : Fin cfg0.N) (d) : (dats m 0 c).before 0 t d = blockAt m c 0 t :=
  held0_of m (dats m 0 c) (arrays_eq m c 0) (after0 m c) t d
theorem held1 (c : Dev nD) (t : Fin cfg0.N) (d) : (dats m 0 c).before 1 t d = blockAt m c 1 t :=
  held1_of m (dats m 0 c) (arrays_eq m c 1) (after1 m c) t d
theorem held2 (c : Dev nD) (t : Fin cfg0.N) (d) : (dats m 0 c).before 2 t d = blockAt m c 2 t :=
  held2_of m (dats m 0 c) (arrays_eq m c 2) (after2 m c) t d
theorem held3 (c : Dev nD) (t : Fin cfg0.N) (d) : (dats m 0 c).before 3 t d = blockAt m c 3 t :=
  held3_of m (dats m 0 c) (arrays_eq m c 3) (after3 m c) t d
theorem held4 (c : Dev nD) (t : Fin cfg0.N) (d) : (dats m 0 c).before 4 t d = blockAt m c 4 t :=
  held4_of m (dats m 0 c) (arrays_eq m c 4) (after4 m c) t d
theorem held5 (c : Dev nD) (t : Fin cfg0.N) (d) : (dats m 0 c).before 5 t d = blockAt m c 5 t :=
  held5_of m (dats m 0 c) (arrays_eq m c 5) (after5 m c) t d
theorem held6 (c : Dev nD) (t : Fin cfg0.N) (d) : (dats m 0 c).before 6 t d = blockAt m c 6 t :=
  held6_of m (dats m 0 c) (arrays_eq m c 6) (after6 m c) t d

/-! ## The body at a grid point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `body_runs` applies; the invariant and the core's
    dues pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4, held5, held6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c Set.univ (grid0.coords t) _ _ _ _ _ _ _ _ _ _ _ _ _ _ _ _
    (blockAt m c 0 t) (blockAt m c 1 t) (blockAt m c 2 t) (blockAt m c 3 t) (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's obligation on the body, at every point. -/
theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of the program terminates, and every final state has
    every array of the call at what the proof data computes and every other unscoped buffer as the lines after the call
    leave it. -/
theorem run_main : θ_run defs (onTc (τ := τ) (main (F := F))) (s₀ m ρ) (Pipeline.FramePost cfgs (dats m) 0 (Pipeline.afterTail₀ cfgs (dats m) 0 (entry m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry m) (opss := [hostOps1]) (hsub := later_sub) (hfresh := later_fresh) (hkeep := later_keeps)
    (hmain := main_around m Variants.none) (hA := arrays_eq m) (hΦ := fun _ _ => rfl)

/-- The program runs to its end, nothing faulting, and the ten argument arrays end as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  args_kept_of m ρ (dats m) (arrays_eq m) (run_main m ρ)

end Cert.KernelIdeal.Hand

end
-- ==== Proof.MlpSpec.lean ====
/-
  One row of the three-layer perceptron both programs apply, as a function on the extended reals: a row x of seven
  features goes to  ∑ₖ elu (∑ⱼ elu (∑ᵢ xᵢ · W1ᵢⱼ + b1ⱼ) · W2ⱼₖ + b2ₖ) · W3ₖ + b3,  where elu y is y for y > 0 and
  exp y − 1 otherwise. Rows do not interact, so a program that sends every row of its input table through this function
  is determined by it.
-/
import Idealize.ShloMosaic.Lib.ValueIdx
import Idealize.ShloMosaic.PureOps.Ideal

noncomputable section

open scoped BigOperators

namespace Cert.MlpSpec

open Idealize.ShloMosaic

/-- The exponential linear unit on the extended reals: `y` where `y > 0`, `exp y − 1` elsewhere; the comparison is the
    ordered "greater than" against the zero word, the `1` the word of the float one. -/
def elu (y : EReal) : EReal :=
  Scalar.select (Ideal.cmp .ogt y (Ideal.ofBits .f32 0x00000000#32)) y (Ideal.exp y - Ideal.ofBits .f32 0x3F800000#32)

/-- The first hidden layer at unit `j`. -/
def hid1 (x : Fin 7 → EReal) (W1 : Fin 7 → Fin 90 → EReal) (b1 : Fin 90 → EReal) (j : Fin 90) : EReal :=
  elu ((∑ i : Fin 7, x i * W1 i j) + b1 j)

/-- The second hidden layer at unit `k`. -/
def hid2 (x : Fin 7 → EReal) (W1 : Fin 7 → Fin 90 → EReal) (b1 : Fin 90 → EReal) (W2 : Fin 90 → Fin 90 → EReal)
    (b2 : Fin 90 → EReal) (k : Fin 90) : EReal :=
  elu ((∑ j : Fin 90, hid1 x W1 b1 j * W2 j k) + b2 k)

/-- The network's one output for the row `x`. -/
def row (x : Fin 7 → EReal) (W1 : Fin 7 → Fin 90 → EReal) (b1 : Fin 90 → EReal) (W2 : Fin 90 → Fin 90 → EReal)
    (b2 : Fin 90 → EReal) (W3 : Fin 90 → EReal) (b3 : EReal) : EReal :=
  (∑ k : Fin 90, hid2 x W1 b1 W2 b2 k * W3 k) + b3

end Cert.MlpSpec

end
-- ==== Proof.LibMatmul.lean ====
/-
  A plain M × K by K × N matrix product into a zero accumulator, read at one entry: at the exact (extended real) values the
  entry (a, b) is the sum over the contracted coordinate c of A (a, c) · B (c, b) — no rounding and no chunk order left in it.
-/
import Idealize.ShloMosaic.Lib.ValueIdx
import Idealize.ShloMosaic.PureOps.Ideal.Laws

noncomputable section

open scoped BigOperators

namespace Cert.LibMatmul

open Idealize.ShloMosaic Idealize.ShloMosaic.ValueIdx

/-- The product of an `M × K` by a `K × N` matrix accumulated into the zero splat, at entry `(a, b)`, is
    `∑ c, A (a, c) · B (c, b)` over the extended reals. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibMatmul

end
-- ==== Proof.LibRows.lean ====
/-
  General facts about arrays of extended reals read at an entry, used by the layer and head lemmas:
  a host matrix product M × K by K × N at entry (a, b) is the sum over c of A (a, c) · B (c, b) (the same sum a
  matmul into the zero accumulator gives); a length-N vector laid out as one row and repeated down M rows reads,
  at (a, b), the vector at b; a length-M vector laid out as one column and repeated across N columns reads the
  vector at a; a scalar repeated over any shape reads the scalar; and a sum over 192 terms is the sum of its
  three consecutive runs of 64.
-/
import Idealize.ShloMosaic.Lib.ValueIdx
import Idealize.ShloMosaic.Lib.ValueLayout
import Idealize.ShloMosaic.Lib.Pipeline.Value
import Idealize.ShloMosaic.PureOps.Ideal.Laws
import proofs.«141062_j86612310491664_1_alg».proof.Proof.LibMatmul

noncomputable section

open scoped BigOperators

namespace Cert.LibRows

open Idealize.ShloMosaic Idealize.ShloMosaic.ValueIdx

/-- The contraction sum of a plain M × K by K × N product at entry `(a, b)`, re-indexed by the contracted
    coordinate: `∑ c, A (a, c) · B (c, b)`. -/
theorem plain_contr_sum {M K N : Nat} {φ₁ φ₂ : FTy}
    (A : FVec Ideal ⟨2, ![M, K]⟩ φ₁) (B : FVec Ideal ⟨2, ![K, N]⟩ φ₂) (a : Fin M) (b : Fin N) :
    (∑ k : (DotDims.plain M K N).contr.Idx,
        A ((DotDims.plain M K N).lhsIdx (ix2 a b) k) * B ((DotDims.plain M K N).rhsIdx (ix2 a b) k))
      = ∑ c : Fin K, A (ix2 a c) * B (ix2 c b) :=
  (Ideal.matmul_constant_zero_apply (DotDims.plain M K N) none A B (ix2 a b)).symm.trans
    (Cert.LibMatmul.matmul_plain_zero_apply none A B a b)

/-- A host `dot_general` of an M × K by a K × N matrix, at the exact values and at entry `(a, b)`, is
    `∑ c, A (a, c) · B (c, b)`. -/
theorem dotGeneral_plain_apply {M K N : Nat} {φ₁ φ₂ : FTy} (prec : Option ContractPrecision) (sched : HostSchedule)
    (A : FVec Ideal ⟨2, ![M, K]⟩ φ₁) (B : FVec Ideal ⟨2, ![K, N]⟩ φ₂) (a : Fin M) (b : Fin N) :
    FloatOps.dotGeneral (DotDims.plain M K N) prec sched A B (ix2 a b) = ∑ c : Fin K, A (ix2 a c) * B (ix2 c b) :=
  (Ideal.dotGeneral_apply (DotDims.plain M K N) prec sched A B (ix2 a b)).trans (plain_contr_sum A B a b)

variable {α : Type}

/-- A vector of length N cast to one row and repeated down M rows: entry `(a, b)` is the vector's entry `b`. -/
theorem rowBroadcastTo_apply {M N : Nat} (v : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (a : Fin M) (b : Fin N) :
    broadcastTo ⟨2, ![M, N]⟩ (shapeCast ⟨2, ![1, N]⟩ v h1) h2 (ix2 a b) = v (ix1 b) := by
  rw [broadcastTo_apply _ h2 (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)]
  exact shapeCast_a_1a_apply v h1 0 b

/-- The host form of the same: a vector placed along axis 1 of a 1 × N array, then along both axes of an M × N one. -/
theorem rowBroadcastInDim_apply {M N : Nat} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (a : Fin M) (b : Fin N) :
    broadcastInDim ⟨2, ![M, N]⟩ ![0, 1] h2 (broadcastInDim ⟨2, ![1, N]⟩ ![1] h1 v) (ix2 a b) = v (ix1 b) := by
  rw [broadcastInDim_apply ![0, 1] h2 _ (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)]
  exact broadcastInDim_apply ![1] h1 v (ix2 (0 : Fin 1) b) (ix1 b) (fun c => by
    match c with
    | ⟨0, _⟩ =>
      show b.val = if N = 1 then 0 else b.val
      split
      · have := b.isLt; omega
      · rfl)

/-- A vector of length M cast to one column and repeated across N columns: entry `(a, b)` is the vector's entry `a`. -/
theorem colBroadcastTo_apply {M N : Nat} (v : (⟨1, ![M]⟩ : Shape).Idx → α)
    (h1 : (⟨1, ![M]⟩ : Shape).ShapeCasts ⟨2, ![M, 1]⟩) (h2 : (⟨2, ![M, 1]⟩ : Shape).Broadcasts ⟨2, ![M, N]⟩)
    (a : Fin M) (b : Fin N) :
    broadcastTo ⟨2, ![M, N]⟩ (shapeCast ⟨2, ![M, 1]⟩ v h1) h2 (ix2 a b) = v (ix1 a) := by
  rw [broadcastTo_apply _ h2 (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])]
  exact shapeCast_apply v h1 _ _ (by
    rw [Shape.rowMajor_val_two, Shape.rowMajor_val_one]
    show a.val = a.val * 1 + 0
    omega)

/-- The host form: a vector placed along axis 0 of an M × 1 array, then along both axes of an M × N one. -/
theorem colBroadcastInDim_apply {M N : Nat} (v : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, N]⟩ ![0, 1]) (a : Fin M) (b : Fin N) :
    broadcastInDim ⟨2, ![M, N]⟩ ![0, 1] h2 (broadcastInDim ⟨2, ![M, 1]⟩ ![0] h1 v) (ix2 a b) = v (ix1 a) := by
  rw [broadcastInDim_apply ![0, 1] h2 _ (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])]
  exact broadcastInDim_apply ![0] h1 v (ix2 a (0 : Fin 1)) (ix1 a) (fun c => by
    match c with
    | ⟨0, _⟩ =>
      show a.val = if M = 1 then 0 else a.val
      split
      · have := a.isLt; omega
      · rfl)

/-- A scalar placed along no axis of any shape reads the scalar everywhere. -/
theorem splatInDim_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 (fun c => c.elim0)

/-- Putting coordinate `k` back on axis 1 of a row index `g` gives the entry `(g, k)`. -/
theorem lift_axis1 {m n : Nat} (h : (⟨2, ![m, n]⟩ : Shape).Reduces [1] (⟨1, ![m]⟩ : Shape)) (g : Fin m)
    (k : Fin ((⟨2, ![m, n]⟩ : Shape).size 1)) : h.lift (ix1 g) k = ix2 g (⟨k.val, k.isLt⟩ : Fin n) := by
  funext c; apply Fin.ext
  fin_cases c <;> rfl

/-- A sum of 192 terms is the sum of its three consecutive runs of 64 terms. -/
theorem sum_192_split {M : Type*} [AddCommMonoid M] (f : Fin 192 → M) :
    ∑ k : Fin 192, f k
      = (∑ k : Fin 64, f ⟨k.val, by omega⟩) + (∑ k : Fin 64, f ⟨64 + k.val, by omega⟩)
        + ∑ k : Fin 64, f ⟨128 + k.val, by omega⟩ := by
  have e : ∑ k : Fin 192, f k = ∑ k : Fin (64 + 64 + 64), f (k.cast (by norm_num)) := by
    exact (Fin.castOrderIso (by norm_num : 64 + 64 + 64 = 192)).toEquiv.sum_comp f |>.symm
  rw [e, Fin.sum_univ_add, Fin.sum_univ_add]
  rfl

end Cert.LibRows

end
-- ==== Proof.KPayload.lean ====
/-
  The body's one stored value, read at a row: the block of rows goes through the three layers, and the entry for row p is
  the network's value on that row of the block — the first two products followed by the bias row and the exponential linear
  unit, the third by the output bias. A product into the zero accumulator is the plain sum over the contracted coordinate,
  narrowing to the shorter float format changes nothing at the exact values, and the bias, a vector laid out as one row and
  repeated down the block, reads at (p, j) its entry j.
-/
import proofs.«141062_j86612310491664_1_alg».proof.Proof.Gen.KernelIdeal.Skeleton
import proofs.«141062_j86612310491664_1_alg».proof.Proof.MlpSpec
import proofs.«141062_j86612310491664_1_alg».proof.Proof.LibMatmul
import proofs.«141062_j86612310491664_1_alg».proof.Proof.LibRows
import Idealize.ShloMosaic.Lib.ValueIdx
import Idealize.ShloMosaic.Lib.Pipeline.Value

noncomputable section

open scoped BigOperators

namespace Cert.KernelIdeal.Val

open Cert.KernelIdeal Cert.KernelIdeal.Gen
open Idealize.ShloMosaic Idealize.ShloMosaic.ValueIdx

theorem dotA : dot_S16384x7_S7x90_S16384x90_1_0_0_1_n_n = DotDims.plain 16384 7 90 := rfl
theorem dotB : dot_S16384x90_S90x90_S16384x90_1_0_0_1_n_n = DotDims.plain 16384 90 90 := rfl
theorem dotC : dot_S16384x90_S90x1_S16384x1_1_0_0_1_n_n = DotDims.plain 16384 90 1 := rfl

/-- The activation as the body spells it — compare with zero, keep the value or take `exp − 1`, narrow — is, entry by
    entry, the exponential linear unit. -/
theorem act_apply {s : Shape} (h : FVec Ideal s .f32) (hb : FTy.bits .bf16 < FTy.bits .f32) (i : s.Idx) :
    (truncf .bf16 (select (cmpf .ogt h (broadcast s (Scalar.ofBits (F := Ideal) .f32 0x00000000#32))) h
      (subf (exp h) (broadcast s (Scalar.ofBits (F := Ideal) .f32 0x3F800000#32)))) hb : FVec Ideal s .bf16) i
      = Cert.MlpSpec.elu (h i) := rfl

/-- One layer before its activation: the product into the zero accumulator plus the bias row, at entry `(a, c)`. -/
theorem affine_apply {M K N : Nat} {φ₁ φ₂ : FTy} (A : FVec Ideal ⟨2, ![M, K]⟩ φ₁) (B : FVec Ideal ⟨2, ![K, N]⟩ φ₂)
    (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (a : Fin M) (c : Fin N) :
    addf (matmul (DotDims.plain M K N) none A B (constant (F := Ideal) ⟨2, ![M, N]⟩ .f32 0x00000000#32))
        (broadcastTo ⟨2, ![M, N]⟩ (shapeCast ⟨2, ![1, N]⟩ b h1) h2) (ix2 a c)
      = (∑ k : Fin K, A (ix2 a k) * B (ix2 k c)) + b (ix1 c) := by
  show FloatOps.matmul (DotDims.plain M K N) none A B (constant (F := Ideal) ⟨2, ![M, N]⟩ .f32 0x00000000#32) (ix2 a c)
      + broadcastTo ⟨2, ![M, N]⟩ (shapeCast ⟨2, ![1, N]⟩ b h1) h2 (ix2 a c) = _
  rw [Cert.LibMatmul.matmul_plain_zero_apply, Cert.LibRows.rowBroadcastTo_apply]

/-- The body's stored value at row `p` of the block is the network's value on row `p` of the block of rows. -/
theorem pay_apply (v0 : FVec Ideal S16384x7 .bf16) (v2 : FVec Ideal S7x90 .bf16) (v5 : FVec Ideal S90 .f32)
    (v16 : FVec Ideal S90x90 .bf16) (v19 : FVec Ideal S90 .f32) (v30 : FVec Ideal S90x1 .bf16) (v33 : FVec Ideal S1 .f32)
    (p : Fin 16384) (q : Fin 1) :
    k0_pay1 (F := Ideal) v0 v2 v5 v16 v19 v30 v33 (ix2 p q)
      = Cert.MlpSpec.row (fun i => v0 (ix2 p i)) (fun i j => v2 (ix2 i j)) (fun j => v5 (ix1 j)) (fun j k => v16 (ix2 j k))
          (fun k => v19 (ix1 k)) (fun k => v30 (ix2 k 0)) (v33 (ix1 0)) := by
  obtain rfl : q = 0 := Subsingleton.elim _ _
  unfold k0_pay1
  simp only [shapeCast_self, dotA, dotB, dotC]
  rw [affine_apply]
  unfold Cert.MlpSpec.row Cert.MlpSpec.hid2 Cert.MlpSpec.hid1
  refine congrArg (· + _) (Finset.sum_congr rfl fun k _ => congrArg (· * _) ?_)
  rw [act_apply, affine_apply]
  refine congrArg Cert.MlpSpec.elu (congrArg (· + _) (Finset.sum_congr rfl fun j _ => congrArg (· * _) ?_))
  rw [act_apply, affine_apply]

end Cert.KernelIdeal.Val

end
-- ==== Proof.KEntry.lean ====
/-
  The arrays the call works on, as functions of the arguments. The table of rows is built by the host lines before the call:
  the input image is padded by one zero on each side of its last two axes, its nine shifted copies are stacked (the 3 × 3
  neighbourhood of every pixel), re-laid so that a row holds one neighbourhood split in three groups of three, repeated
  over the output channels, joined with the control voltages repeated over batch and pixels, and re-ordered along the
  last two axes by the index tables (negative indices wrapped once); the table's rows are then all (batch, output channel,
  input channel, pixel, device) tuples, seven entries each. The weights are the arguments narrowed to the short float
  format, which at the exact values is no change. After the call the outputs are re-laid, summed over the devices and over
  the input channels, and re-laid as an image.
-/
import proofs.«141062_j86612310491664_1_alg».proof.Proof.IdealFrame
import Idealize.ShloMosaic.Lib.StableHlo.Run
import Idealize.ShloMosaic.PureOps.Ideal

set_option maxRecDepth 16384

noncomputable section

namespace Cert.KernelIdeal.Val

open Cert.KernelIdeal Cert.KernelIdeal.Gen Cert.KernelIdeal.Hand
open Idealize.ShloMosaic Idealize.ShloMosaic.TcCoe
open Idealize.SL Idealize.SL.Sem

/-- The table of rows from the image, the control voltages and the two index tables: the host lines before the call, in
    order, each a function of the earlier ones. -/
noncomputable def rowsK (x : FVec Ideal S16x8x16x16 .f32) (ctl : FVec Ideal S16x8x3x4 .f32) (i8 : IVec S3x3 32) (i9 : IVec S3x4 32) :
    FVec Ideal S1572864x7 .f32 :=
  have z : IVec S_ 32 := constantI S_ 32 0#32
  have zf : FVec Ideal S_ .f32 := sitofp .f32 z
  have v0 : FVec Ideal S16x8x18x18 .f32 := pad S16x8x18x18 ![0, 0, 1, 1] ![0, 0, 1, 1] ![0, 0, 0, 0] x zf pads_S16x8x16x16_S16x8x18x18_000_000_110_110 h_S_
  have v1 : FVec Ideal S16x8x16x16 .f32 := extractStridedSlice S16x8x16x16 ![0, 0, 0, 0] v0 slices_S16x8x18x18_S16x8x16x16_0_0_0_0
  have v2 : FVec Ideal S16x8x16x16 .f32 := extractStridedSlice S16x8x16x16 ![0, 0, 0, 1] v0 slices_S16x8x18x18_S16x8x16x16_0_0_0_1
  have v3 : FVec Ideal S16x8x16x16 .f32 := extractStridedSlice S16x8x16x16 ![0, 0, 0, 2] v0 slices_S16x8x18x18_S16x8x16x16_0_0_0_2
  have v4 : FVec Ideal S16x8x16x16 .f32 := extractStridedSlice S16x8x16x16 ![0, 0, 1, 0] v0 slices_S16x8x18x18_S16x8x16x16_0_0_1_0
  have v5 : FVec Ideal S16x8x16x16 .f32 := extractStridedSlice S16x8x16x16 ![0, 0, 1, 1] v0 slices_S16x8x18x18_S16x8x16x16_0_0_1_1
  have v6 : FVec Ideal S16x8x16x16 .f32 := extractStridedSlice S16x8x16x16 ![0, 0, 1, 2] v0 slices_S16x8x18x18_S16x8x16x16_0_0_1_2
  have v7 : FVec Ideal S16x8x16x16 .f32 := extractStridedSlice S16x8x16x16 ![0, 0, 2, 0] v0 slices_S16x8x18x18_S16x8x16x16_0_0_2_0
  have v8 : FVec Ideal S16x8x16x16 .f32 := extractStridedSlice S16x8x16x16 ![0, 0, 2, 1] v0 slices_S16x8x18x18_S16x8x16x16_0_0_2_1
  have v9 : FVec Ideal S16x8x16x16 .f32 := extractStridedSlice S16x8x16x16 ![0, 0, 2, 2] v0 slices_S16x8x18x18_S16x8x16x16_0_0_2_2
  have v10 : FVec Ideal S16x8x1x16x16 .f32 := broadcastInDim S16x8x1x16x16 ![0, 1, 3, 4] bcast_S16x8x16x16_S16x8x1x16x16_0_1_3_4 v1
  have v11 : FVec Ideal S16x8x1x16x16 .f32 := broadcastInDim S16x8x1x16x16 ![0, 1, 3, 4] bcast_S16x8x16x16_S16x8x1x16x16_0_1_3_4 v2
  have v12 : FVec Ideal S16x8x1x16x16 .f32 := broadcastInDim S16x8x1x16x16 ![0, 1, 3, 4] bcast_S16x8x16x16_S16x8x1x16x16_0_1_3_4 v3
  have v13 : FVec Ideal S16x8x1x16x16 .f32 := broadcastInDim S16x8x1x16x16 ![0, 1, 3, 4] bcast_S16x8x16x16_S16x8x1x16x16_0_1_3_4 v4
  have v14 : FVec Ideal S16x8x1x16x16 .f32 := broadcastInDim S16x8x1x16x16 ![0, 1, 3, 4] bcast_S16x8x16x16_S16x8x1x16x16_0_1_3_4 v5
  have v15 : FVec Ideal S16x8x1x16x16 .f32 := broadcastInDim S16x8x1x16x16 ![0, 1, 3, 4] bcast_S16x8x16x16_S16x8x1x16x16_0_1_3_4 v6
  have v16 : FVec Ideal S16x8x1x16x16 .f32 := broadcastInDim S16x8x1x16x16 ![0, 1, 3, 4] bcast_S16x8x16x16_S16x8x1x16x16_0_1_3_4 v7
  have v17 : FVec Ideal S16x8x1x16x16 .f32 := broadcastInDim S16x8x1x16x16 ![0, 1, 3, 4] bcast_S16x8x16x16_S16x8x1x16x16_0_1_3_4 v8
  have v18 : FVec Ideal S16x8x1x16x16 .f32 := broadcastInDim S16x8x1x16x16 ![0, 1, 3, 4] bcast_S16x8x16x16_S16x8x1x16x16_0_1_3_4 v9
  have v19 : FVec Ideal S16x8x9x16x16 .f32 := concatenate S16x8x9x16x16 2 [⟨S16x8x1x16x16, v10⟩, ⟨S16x8x1x16x16, v11⟩, ⟨S16x8x1x16x16, v12⟩, ⟨S16x8x1x16x16, v13⟩, ⟨S16x8x1x16x16, v14⟩, ⟨S16x8x1x16x16, v15⟩, ⟨S16x8x1x16x16, v16⟩, ⟨S16x8x1x16x16, v17⟩, ⟨S16x8x1x16x16, v18⟩] concatenates_S16x8x1x16x16_S16x8x1x16x16_S16x8x1x16x16_S16x8x1x16x16_S16x8x1x16x16_S16x8x1x16x16_S16x8x1x16x16_S16x8x1x16x16_S16x8x1x16x16_S16x8x9x16x16_d2
  have v20 : FVec Ideal S16x72x256 .f32 := shapeCast S16x72x256 v19 shapeCasts_S16x8x9x16x16_S16x72x256
  have v21 : FVec Ideal S16x8x9x256 .f32 := shapeCast S16x8x9x256 v20 shapeCasts_S16x72x256_S16x8x9x256
  have v22 : FVec Ideal S16x8x256x9 .f32 := transpose S16x8x256x9 [0, 1, 3, 2] v21 transposes_S16x8x9x256_S16x8x256x9_0_1_3_2
  have v23 : FVec Ideal S16x8x256x3x3 .f32 := shapeCast S16x8x256x3x3 v22 shapeCasts_S16x8x256x9_S16x8x256x3x3
  have v24 : FVec Ideal S16x1x8x256x3x3 .f32 := broadcastInDim S16x1x8x256x3x3 ![0, 2, 3, 4, 5] bcast_S16x8x256x3x3_S16x1x8x256x3x3_0_2_3_4_5 v23
  have v25 : FVec Ideal S16x16x8x256x3x3 .f32 := broadcastInDim S16x16x8x256x3x3 ![0, 1, 2, 3, 4, 5] bcast_S16x1x8x256x3x3_S16x16x8x256x3x3_0_1_2_3_4_5 v24
  have v26 : FVec Ideal S1x16x8x1x3x4 .f32 := broadcastInDim S1x16x8x1x3x4 ![1, 2, 4, 5] bcast_S16x8x3x4_S1x16x8x1x3x4_1_2_4_5 ctl
  have v27 : FVec Ideal S16x16x8x256x3x4 .f32 := broadcastInDim S16x16x8x256x3x4 ![0, 1, 2, 3, 4, 5] bcast_S1x16x8x1x3x4_S16x16x8x256x3x4_0_1_2_3_4_5 v26
  have v28 : FVec Ideal S16x16x8x256x3x7 .f32 := concatenate S16x16x8x256x3x7 5 [⟨S16x16x8x256x3x3, v25⟩, ⟨S16x16x8x256x3x4, v27⟩] concatenates_S16x16x8x256x3x3_S16x16x8x256x3x4_S16x16x8x256x3x7_d5
  have v29 : IVec S3x7 32 := concatenate S3x7 1 [⟨S3x3, i8⟩, ⟨S3x4, i9⟩] concatenates_S3x3_S3x4_S3x7_d1
  have v30 : IVec S3 32 := iotaInDim S3 32 0
  have v31 : IVec S3x1 32 := broadcastInDim S3x1 ![0] bcast_S3_S3x1_0 v30
  have c0 : IVec S_ 32 := constantI S_ 32 0#32
  have v32 : IVec S3x1 32 := broadcastInDim S3x1 ![] bcast_S_S3x1 c0
  have v33 : IVec S3x1 1 := cmpi .slt v31 v32
  have c1 : IVec S_ 32 := constantI S_ 32 3#32
  have v34 : IVec S3x1 32 := broadcastInDim S3x1 ![] bcast_S_S3x1 c1
  have v35 : IVec S3x1 32 := addi v31 v34
  have v36 : IVec S3x1 32 := select v33 v35 v31
  have c2 : IVec S_ 32 := constantI S_ 32 0#32
  have v37 : IVec S3x7 32 := broadcastInDim S3x7 ![] bcast_S_S3x7 c2
  have v38 : IVec S3x7 1 := cmpi .slt v29 v37
  have c3 : IVec S_ 32 := constantI S_ 32 7#32
  have v39 : IVec S3x7 32 := broadcastInDim S3x7 ![] bcast_S_S3x7 c3
  have v40 : IVec S3x7 32 := addi v29 v39
  have v41 : IVec S3x7 32 := select v38 v40 v29
  have v42 : IVec S3x7 32 := broadcastInDim S3x7 ![0, 1] bcast_S3x1_S3x7_0_1 v36
  have v43 : IVec S3x7x1 32 := broadcastInDim S3x7x1 ![0, 1] bcast_S3x7_S3x7x1_0_1 v42
  have v44 : IVec S3x7x1 32 := broadcastInDim S3x7x1 ![0, 1] bcast_S3x7_S3x7x1_0_1 v41
  have v45 : IVec S3x7x2 32 := concatenate S3x7x2 2 [⟨S3x7x1, v43⟩, ⟨S3x7x1, v44⟩] concatenates_S3x7x1_S3x7x1_S3x7x2_d2
  have v46 : FVec Ideal S16x16x8x256x3x7 .f32 := Host.gather gather_S16x16x8x256x3x7_S3x7x2_S16x16x8x256x3x7_0123_45_n_n_45_2_1616825611 v28 v45
  shapeCast S1572864x7 v46 shapeCasts_S16x16x8x256x3x7_S1572864x7

/-- The two sums after the call: over the devices, then over the input channels, between two re-layouts. -/
noncomputable def sumsK (y : FVec Ideal S1572864x1 .f32) : FVec Ideal S16x16x16x16 .f32 :=
  have v53 : FVec Ideal S16x16x8x256x3 .f32 := shapeCast S16x16x8x256x3 y shapeCasts_S1572864x1_S16x16x8x256x3
  have cst : FVec Ideal S_ .f32 := constant (F := Ideal) S_ .f32 0x00000000#32
  have v54 : FVec Ideal S16x16x8x256 .f32 := Host.reduceAdd (F := Ideal) v53 cst reducesTo_S16x16x8x256x3_S16x16x8x256_d4 h_S_
  have cst4 : FVec Ideal S_ .f32 := constant (F := Ideal) S_ .f32 0x00000000#32
  have v55 : FVec Ideal S16x16x256 .f32 := Host.reduceAdd (F := Ideal) v54 cst4 reducesTo_S16x16x8x256_S16x16x256_d2 h_S_
  shapeCast S16x16x16x16 v55 shapeCasts_S16x16x256_S16x16x16x16

/-- Two arrays joined along an axis, as a function of the two arrays. -/
def cat2 {α : Type} (t : Shape) (a : Fin t.rank) (S1 S2 : Shape) (h : Shape.Concatenates [S1, S2] t a)
    (x : S1.Idx → α) (y : S2.Idx → α) : t.Idx → α := concatenate t a [⟨S1, x⟩, ⟨S2, y⟩] h
theorem cat2_eq {α : Type} (t : Shape) (a : Fin t.rank) (S1 S2 : Shape) (h : Shape.Concatenates [S1, S2] t a)
    (x : S1.Idx → α) (y : S2.Idx → α) : concatenate t a [⟨S1, x⟩, ⟨S2, y⟩] h = cat2 t a S1 S2 h x y := rfl

/-- The nine shifted copies of the padded image stacked along a new third axis, as a function of the nine. -/
def cat9 (a0 a1 a2 a3 a4 a5 a6 a7 a8 : FVec Ideal S16x8x1x16x16 .f32) : FVec Ideal S16x8x9x16x16 .f32 :=
  concatenate S16x8x9x16x16 2 [⟨S16x8x1x16x16, a0⟩, ⟨S16x8x1x16x16, a1⟩, ⟨S16x8x1x16x16, a2⟩, ⟨S16x8x1x16x16, a3⟩, ⟨S16x8x1x16x16, a4⟩, ⟨S16x8x1x16x16, a5⟩, ⟨S16x8x1x16x16, a6⟩, ⟨S16x8x1x16x16, a7⟩, ⟨S16x8x1x16x16, a8⟩] concatenates_S16x8x1x16x16_S16x8x1x16x16_S16x8x1x16x16_S16x8x1x16x16_S16x8x1x16x16_S16x8x1x16x16_S16x8x1x16x16_S16x8x1x16x16_S16x8x1x16x16_S16x8x9x16x16_d2

/-- The line that stacks the nine copies writes `cat9` of the nine buffers' contents, each read at its own reference. -/
theorem stack_result (hxs hy) (V : Valuation τ sig (Elt Ideal)) :
    (StableHlo.nary (τ := τ) ![main_v10, main_v11, main_v12, main_v13, main_v14, main_v15, main_v16, main_v17, main_v18] main_v19
      (fun u => concatenate S16x8x9x16x16 2 [⟨S16x8x1x16x16, u 0⟩, ⟨S16x8x1x16x16, u 1⟩, ⟨S16x8x1x16x16, u 2⟩, ⟨S16x8x1x16x16, u 3⟩, ⟨S16x8x1x16x16, u 4⟩, ⟨S16x8x1x16x16, u 5⟩, ⟨S16x8x1x16x16, u 6⟩, ⟨S16x8x1x16x16, u 7⟩, ⟨S16x8x1x16x16, u 8⟩] concatenates_S16x8x1x16x16_S16x8x1x16x16_S16x8x1x16x16_S16x8x1x16x16_S16x8x1x16x16_S16x8x1x16x16_S16x8x1x16x16_S16x8x1x16x16_S16x8x1x16x16_S16x8x9x16x16_d2)
      hxs hy).result V (no_index (Proc.devRef .tc main_v19))
      = cat9 (V (Proc.devRef .tc main_v10)) (V (Proc.devRef .tc main_v11)) (V (Proc.devRef .tc main_v12)) (V (Proc.devRef .tc main_v13))
          (V (Proc.devRef .tc main_v14)) (V (Proc.devRef .tc main_v15)) (V (Proc.devRef .tc main_v16)) (V (Proc.devRef .tc main_v17))
          (V (Proc.devRef .tc main_v18)) :=
  (StableHlo.nary_result _ _ _ hxs hy V).trans rfl

variable (m : (ℓ : Loc nD τ sig) → Buf (Elt Ideal) ℓ)

open StableHlo in
/-- The call finds the table of rows, narrowed, in its first window's array. -/
theorem rows_entry (c : Dev nD) : (entryAt m c main_v48 : FVec Ideal S1572864x7 .bf16)
    = truncf .bf16 (rowsK (m ((c : Thread nD τ).loc main_arg0)) (m ((c : Thread nD τ).loc main_arg1))
        (m ((c : Thread nD τ).loc main_arg8)) (m ((c : Thread nD τ).loc main_arg9))) bitsLt_bf16_f32 := by
  dsimp only [entryAt, entry]
  simp only [hostOps0, hostOps0_1, hostOps0_2, List.flatten_cons, List.flatten_nil, List.append_nil, List.cons_append, List.nil_append]
  simp (disch := decide) only [after_cons, after_nil,
      nullary_result', unary_result', binary_result', ternary_result', reshape_result', stack_result, cat2_eq,
      nullary_result_ne', unary_result_ne', binary_result_ne', ternary_result_ne', reshape_result_ne', nary_result_ne']
  rfl

open StableHlo in
/-- The first layer's weights reach the call narrowed. -/
theorem w1_entry (c : Dev nD) : (entryAt m c main_v49 : FVec Ideal S7x90 .bf16)
    = (truncf .bf16 (m ((c : Thread nD τ).loc main_arg2) : FVec Ideal S7x90 .f32) bitsLt_bf16_f32 : FVec Ideal S7x90 .bf16) := by
  dsimp only [entryAt, entry]
  simp only [hostOps0, hostOps0_1, hostOps0_2, List.flatten_cons, List.flatten_nil, List.append_nil, List.cons_append, List.nil_append]
  simp (disch := decide) only [after_cons, after_nil,
      nullary_result', unary_result', binary_result', ternary_result', reshape_result', stack_result, cat2_eq,
      nullary_result_ne', unary_result_ne', binary_result_ne', ternary_result_ne', reshape_result_ne', nary_result_ne']

open StableHlo in
/-- The second layer's weights reach the call narrowed. -/
theorem w2_entry (c : Dev nD) : (entryAt m c main_v50 : FVec Ideal S90x90 .bf16)
    = (truncf .bf16 (m ((c : Thread nD τ).loc main_arg4) : FVec Ideal S90x90 .f32) bitsLt_bf16_f32 : FVec Ideal S90x90 .bf16) := by
  dsimp only [entryAt, entry]
  simp only [hostOps0, hostOps0_1, hostOps0_2, List.flatten_cons, List.flatten_nil, List.append_nil, List.cons_append, List.nil_append]
  simp (disch := decide) only [after_cons, after_nil,
      nullary_result', unary_result', binary_result', ternary_result', reshape_result', stack_result, cat2_eq,
      nullary_result_ne', unary_result_ne', binary_result_ne', ternary_result_ne', reshape_result_ne', nary_result_ne']

open StableHlo in
/-- The output layer's weights reach the call narrowed. -/
theorem w3_entry (c : Dev nD) : (entryAt m c main_v51 : FVec Ideal S90x1 .bf16)
    = (truncf .bf16 (m ((c : Thread nD τ).loc main_arg6) : FVec Ideal S90x1 .f32) bitsLt_bf16_f32 : FVec Ideal S90x1 .bf16) := by
  dsimp only [entryAt, entry]
  simp only [hostOps0, hostOps0_1, hostOps0_2, List.flatten_cons, List.flatten_nil, List.append_nil, List.cons_append, List.nil_append]
  simp (disch := decide) only [after_cons, after_nil,
      nullary_result', unary_result', binary_result', ternary_result', reshape_result', stack_result, cat2_eq,
      nullary_result_ne', unary_result_ne', binary_result_ne', ternary_result_ne', reshape_result_ne', nary_result_ne']

end Cert.KernelIdeal.Val

end
-- ==== Proof.KValue.lean ====
/-
  What the kernel's program computes. At grid point t the body stores, for each of the 16384 rows of its block, the network's
  value on that row; the block is rows 16384·t … 16384·t + 16383 of the table, the weights and biases are whole at every
  point, and the 96 output blocks tile the output array. So the array the call leaves is, row by row, the network applied to
  the table's rows — one function of the arrays the call was entered with — and the program's result is the two sums of it.
-/
import proofs.«141062_j86612310491664_1_alg».proof.Proof.IdealFrame
import proofs.«141062_j86612310491664_1_alg».proof.Proof.KPayload
import proofs.«141062_j86612310491664_1_alg».proof.Proof.KEntry
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The output array the call leaves: row `r` holds the network's value on row `r` of the table of rows, with the weights and
    biases as the call finds them. -/
def outArr (c : Dev nD) : S1572864x1.Idx → EReal := fun i =>
  Cert.MlpSpec.row (fun k => entryAt m c main_v48 (ix2 (i 0 : Fin 1572864) k)) (fun a b => entryAt m c main_v49 (ix2 a b))
    (fun j => entryAt m c main_arg3 (ix1 j)) (fun a b => entryAt m c main_v50 (ix2 a b)) (fun j => entryAt m c main_arg5 (ix1 j))
    (fun a => entryAt m c main_v51 (ix2 a 0)) (entryAt m c main_arg7 (ix1 0))

/-- The index maps over the grid: the rows' window and the output window sit at block `t` of their first axis at point `t`;
    every other window stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

set_option maxHeartbeats 4000000 in
/-- What point `t` writes back is block `t` of `outArr`: the stored value at row `p` of the block is the network on row `p`
    of the block of rows, which is row `16384·t + p` of the table, and the six other windows' blocks are their whole arrays. -/
theorem flushed_eq (c : Dev nD) (t : Fin cfg0.N) :
    (dats (F := Ideal) m 0 c).flushed 7 t = ((cfg0.win 7).blk t).view.read (Elt Ideal) (outArr m c) := by
  show (cfg0.win 7).cut (grid0.coords t) ((dats m 0 c).after 7 t) = _
  rw [after7]
  unfold left
  rw [View.canon_unit_zero zero2]
  simp only [View.ld_unit_zero (S := S16384x7) zero2, View.ld_unit_zero (S := S7x90) zero2, View.ld_unit_zero (S := S90) zero1,
    View.ld_unit_zero (S := S90x90) zero2, View.ld_unit_zero (S := S90x1) zero2, View.ld_unit_zero (S := S1) zero1]
  obtain ⟨e00, e01, e10, e11, e20, e30, e31, e40, e50, e51, e60, e70, e71⟩ := idx_facts t
  funext j
  obtain ⟨p, q, rfl⟩ : ∃ (p : Fin 16384) (q : Fin 1), j = ix2 p q := ⟨j 0, j 1, eq_ix2 j⟩
  show k0_pay1 (F := Ideal) (blockAt m c 0 t) (blockAt m c 1 t) (blockAt m c 2 t) (blockAt m c 3 t) (blockAt m c 4 t)
      (blockAt m c 5 t) (blockAt m c 6 t) (ix2 p q) = outArr m c (((cfg0.win 7).blk t).view.emb (ix2 p q))
  refine (pay_apply _ _ _ _ _ _ _ p q).trans ?_
  unfold outArr
  refine congr (congr (congr (congr (congr (congr (congrArg Cert.MlpSpec.row ?_) ?_) ?_) ?_) ?_) ?_) ?_
  · funext k
    show entryAt m c main_v48 (((cfg0.win 0).blk t).view.emb (ix2 p k)) = _
    refine congrArg (entryAt m c main_v48) ?_
    funext a; apply Fin.ext
    match a with
    | ⟨0, _⟩ => show win0_0.index t (0 : Fin 2) * 16384 + 1 * p.val = win0_7.index t (0 : Fin 2) * 16384 + 1 * p.val; omega
    | ⟨1, _⟩ => show win0_0.index t (1 : Fin 2) * 7 + 1 * k.val = k.val; omega
  · funext a b
    show entryAt m c main_v49 (((cfg0.win 1).blk t).view.emb (ix2 a b)) = _
    refine congrArg (entryAt m c main_v49) ?_
    funext x; apply Fin.ext
    match x with
    | ⟨0, _⟩ => show win0_1.index t (0 : Fin 2) * 7 + 1 * a.val = a.val; omega
    | ⟨1, _⟩ => show win0_1.index t (1 : Fin 2) * 90 + 1 * b.val = b.val; omega
  · funext b
    show entryAt m c main_arg3 (((cfg0.win 2).blk t).view.emb (ix1 b)) = _
    refine congrArg (entryAt m c main_arg3) ?_
    funext x; apply Fin.ext
    match x with
    | ⟨0, _⟩ => show win0_2.index t (0 : Fin 1) * 90 + 1 * b.val = b.val; omega
  · funext a b
    show entryAt m c main_v50 (((cfg0.win 3).blk t).view.emb (ix2 a b)) = _
    refine congrArg (entryAt m c main_v50) ?_
    funext x; apply Fin.ext
    match x with
    | ⟨0, _⟩ => show win0_3.index t (0 : Fin 2) * 90 + 1 * a.val = a.val; omega
    | ⟨1, _⟩ => show win0_3.index t (1 : Fin 2) * 90 + 1 * b.val = b.val; omega
  · funext b
    show entryAt m c main_arg5 (((cfg0.win 4).blk t).view.emb (ix1 b)) = _
    refine congrArg (entryAt m c main_arg5) ?_
    funext x; apply Fin.ext
    match x with
    | ⟨0, _⟩ => show win0_4.index t (0 : Fin 1) * 90 + 1 * b.val = b.val; omega
  · funext a
    show entryAt m c main_v51 (((cfg0.win 5).blk t).view.emb (ix2 a 0)) = _
    refine congrArg (entryAt m c main_v51) ?_
    funext x; apply Fin.ext
    match x with
    | ⟨0, _⟩ => show win0_5.index t (0 : Fin 2) * 90 + 1 * a.val = a.val; omega
    | ⟨1, _⟩ => show win0_5.index t (1 : Fin 2) * 1 + 1 * 0 = 0; omega
  · show entryAt m c main_arg7 (((cfg0.win 6).blk t).view.emb (ix1 0)) = _
    refine congrArg (entryAt m c main_arg7) ?_
    funext x; apply Fin.ext
    match x with
    | ⟨0, _⟩ => show win0_6.index t (0 : Fin 1) * 1 + 1 * 0 = 0; omega

/-- An index of the output array is in point `t`'s block iff each coordinate is in the block's range on its axis. -/
theorem mem_blk (t : Fin cfg0.N) (i : S1572864x1.Idx) :
    i ∈ ((cfg0.win 7).blk t).view.set ↔ ∀ a : Fin 2, win0_7.index t a * S16384x1.size a ≤ (i a).val ∧ (i a).val < win0_7.index t a * S16384x1.size a + S16384x1.size a := by
  show i ∈ ((View.whole main_v52).slice (win0_7.rect t)).set ↔ _
  rw [View.set_slice_whole, Rect.mem_set_unit]
  exact Iff.rfl

/-- Every row of the output array is in some point's block: row `r` in block `r / 16384`. -/
theorem covered (i : S1572864x1.Idx) : ∃ t : Fin cfg0.N, (cfg0.win 7).flush t = true ∧ i ∈ ((cfg0.win 7).blk t).view.set := by
  have hi0 : (i 0).val < 1572864 := (i 0).isLt
  have hi1 : (i 1).val < 1 := (i 1).isLt
  have hq : (i 0).val / 16384 < grid0.N := by rw [N_0]; omega
  obtain ⟨-, -, -, -, -, -, -, -, -, -, -, e70, e71⟩ := idx_facts ⟨(i 0).val / 16384, hq⟩
  have e70' : win0_7.index ⟨(i 0).val / 16384, hq⟩ (0 : Fin 2) = (i 0).val / 16384 := e70
  refine ⟨⟨(i 0).val / 16384, hq⟩, flush0_7 _, ?_⟩
  rw [mem_blk]
  intro a
  match a with
  | ⟨0, _⟩ =>
    show win0_7.index ⟨(i 0).val / 16384, hq⟩ (0 : Fin 2) * 16384 ≤ (i 0).val
      ∧ (i 0).val < win0_7.index ⟨(i 0).val / 16384, hq⟩ (0 : Fin 2) * 16384 + 16384
    omega
  | ⟨1, _⟩ =>
    show win0_7.index ⟨(i 0).val / 16384, hq⟩ (1 : Fin 2) * 1 ≤ (i 1).val
      ∧ (i 1).val < win0_7.index ⟨(i 0).val / 16384, hq⟩ (1 : Fin 2) * 1 + 1
    omega

/-- The output array after the run. -/
theorem final7 (c : Dev nD) : (dats (F := Ideal) m 0 c).arrAt 7 cfg0.N = outArr m c :=
  (dats m 0 c).arrAt_eq_of_cover 7 (outArr m c) (fun t _ => flushed_eq m c t) (covered)

open StableHlo in
/-- The program's result buffer after the lines that follow the call: the two sums of the output array. -/
theorem result_eq (c : Dev nD) :
    Pipeline.afterTail₀ cfgs (dats (F := Ideal) m) 0 (entry m) [hostOps1] c main_v56 = sumsK (outArr m c) := by
  have h52 : Pipeline.withArrays spec0 c (entry m c) (fun w => (dats (F := Ideal) m 0 c).arrAt w cfg0.N) (Proc.devRef .tc main_v52)
      = outArr m c := (Pipeline.withArrays_arr spec0 launch0.win.arr_inj c _ _ 7).trans (final7 m c)
  unfold Pipeline.afterTail₀
  show StableHlo.after hostOps1 _ (Proc.devRef .tc main_v56) = _
  after_results
  rw [h52]
  rfl

/-- The kernel's program runs to its end with its result at the two sums of `outArr` and its ten arguments as launched. -/
theorem run : θ_run (defs (F := Ideal)) (onTc (τ := τ) (main (F := Ideal))) ⟨m, fun _ => 0, ρ⟩ (fun r => ∀ c : Dev nD,
      r.2.mem ((c.tc : Thread nD τ).loc main_v56) = sumsK (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c).2 main_v56 (Pipeline.mem_restRefs_of main_v56 (by decide) (by decide))).trans (result_eq m c),
      args_at m (dats m) (arrays_eq m) r h c⟩) (run_main m ρ)

/-- The output array in terms of the arguments: the network on the rows of the table built from the image, the controls and
    the index tables, with the argument weights and biases (narrowing them changes nothing at the exact values). -/
theorem outArr_eq (c : Dev nD) : outArr m c = fun i =>
    Cert.MlpSpec.row
      (fun k => rowsK (m ((c : Thread nD τ).loc main_arg0)) (m ((c : Thread nD τ).loc main_arg1)) (m ((c : Thread nD τ).loc main_arg8))
        (m ((c : Thread nD τ).loc main_arg9)) (ix2 (i 0 : Fin 1572864) k))
      (fun a b => (m ((c : Thread nD τ).loc main_arg2) : FVec Ideal S7x90 .f32) (ix2 a b))
      (fun j => (m ((c : Thread nD τ).loc main_arg3) : FVec Ideal S90 .f32) (ix1 j))
      (fun a b => (m ((c : Thread nD τ).loc main_arg4) : FVec Ideal S90x90 .f32) (ix2 a b))
      (fun j => (m ((c : Thread nD τ).loc main_arg5) : FVec Ideal S90 .f32) (ix1 j))
      (fun a => (m ((c : Thread nD τ).loc main_arg6) : FVec Ideal S90x1 .f32) (ix2 a 0))
      ((m ((c : Thread nD τ).loc main_arg7) : FVec Ideal S1 .f32) (ix1 0)) := by
  unfold outArr
  rw [rows_entry, w1_entry, w2_entry, w3_entry, entry_kept m c main_arg3 (by decide), entry_kept m c main_arg5 (by decide),
    entry_kept m c main_arg7 (by decide)]
  simp only [truncf_apply]

end Cert.KernelIdeal.Val

end
-- ==== Proof.LibHostCalls.lean ====
/-
  Two general facts for reading back, by hand, the run of a host program that calls module-local functions.

  The operations of an inlined callee are built over typed references, which carry contents to the buffer's own type and
  back; after the run's fold is unfolded every intermediate value sits inside such a round trip. The round trip is the
  identity, for ANY typed reference (no computation on the reference is needed), so one rewriting pass removes them all;
  leaving them to a single definitional check costs time and memory that grow with the nesting (at shapes of a hundred
  million elements, gigabytes). And the contents after two lines of operations run in a row are the second line's from
  the first's, which lets a long line be read in pieces.
-/
import Idealize.ShloMosaic.Lib.StableHlo.Run

noncomputable section

namespace Cert.LibHostCalls

open Idealize.ShloMosaic Idealize.ShloMosaic.StableHlo

variable {τ : Topo} {sig : RefSig} {Val : EltTy → Type}

/-- Contents carried to a typed reference's buffer and back are the contents. -/
theorem ofBuf_toBuf {T : BufTy} (x : TRef sig T) (v : T.Contents Val) : x.ofBuf (x.toBuf v) = v := by
  obtain ⟨r, h, h1, h2⟩ := x
  subst h
  rfl

/-- The contents after two lines of operations in a row are the second line's from the first's. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibHostCalls

end
-- ==== Proof.RefOps.lean ====
/-
  The reference program's @main as a list of its host operations, in program order, the three called functions'
  operations standing at their call sites over each call's own buffers. The list is cut where the computation has its
  three stages: the table of rows (the padded input unfolded into 3 × 3 neighbourhoods, joined with the control values
  and gathered), the three-layer network applied to every row, and the two sums. The nine-operand concatenation stands
  alone between two pieces of the first stage. @main is the straight line of these operations.
-/
import proofs.«141062_j86612310491664_1_alg».proof.Proof.Gen.ReferenceIdeal
import proofs.«141062_j86612310491664_1_alg».proof.Proof.LibHostCalls
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-- The rows, first piece: the integer zero made a float, the padding of the input by one cell on each side of its two
    last axes, the nine shifted 16 × 16 windows of the padded array, and each window given a unit axis. -/
abbrev opsA1 : List (HloOp τ sig (Elt F)) :=
  [ StableHlo.nullary main_c (constantI S_ 32 0#32),
    StableHlo.TRef.unary (TRef.of main_c : TRef sig ⟨S_, .i32⟩) main_call0.v0 (sitofp .f32),
    StableHlo.TRef.binary (TRef.of main_arg0 : TRef sig ⟨S16x8x16x16, .f32⟩) main_call0.v0 main_call0.v1 (fun x v => pad S16x8x18x18 ![0, 0, 1, 1] ![0, 0, 1, 1] ![0, 0, 0, 0] x v pads_S16x8x16x16_S16x8x18x18_000_000_110_110 h_S_),
    StableHlo.unary main_v0 main_v1 ((extractStridedSlice S16x8x16x16 ![0, 0, 0, 0] · slices_S16x8x18x18_S16x8x16x16_0_0_0_0) : (⟨S16x8x18x18, .f32⟩ : BufTy).Contents (Elt F) → (⟨S16x8x16x16, .f32⟩ : BufTy).Contents (Elt F)),
    StableHlo.unary main_v0 main_v2 ((extractStridedSlice S16x8x16x16 ![0, 0, 0, 1] · slices_S16x8x18x18_S16x8x16x16_0_0_0_1) : (⟨S16x8x18x18, .f32⟩ : BufTy).Contents (Elt F) → (⟨S16x8x16x16, .f32⟩ : BufTy).Contents (Elt F)),
    StableHlo.unary main_v0 main_v3 ((extractStridedSlice S16x8x16x16 ![0, 0, 0, 2] · slices_S16x8x18x18_S16x8x16x16_0_0_0_2) : (⟨S16x8x18x18, .f32⟩ : BufTy).Contents (Elt F) → (⟨S16x8x16x16, .f32⟩ : BufTy).Contents (Elt F)),
    StableHlo.unary main_v0 main_v4 ((extractStridedSlice S16x8x16x16 ![0, 0, 1, 0] · slices_S16x8x18x18_S16x8x16x16_0_0_1_0) : (⟨S16x8x18x18, .f32⟩ : BufTy).Contents (Elt F) → (⟨S16x8x16x16, .f32⟩ : BufTy).Contents (Elt F)),
    StableHlo.unary main_v0 main_v5 ((extractStridedSlice S16x8x16x16 ![0, 0, 1, 1] · slices_S16x8x18x18_S16x8x16x16_0_0_1_1) : (⟨S16x8x18x18, .f32⟩ : BufTy).Contents (Elt F) → (⟨S16x8x16x16, .f32⟩ : BufTy).Contents (Elt F)),
    StableHlo.unary main_v0 main_v6 ((extractStridedSlice S16x8x16x16 ![0, 0, 1, 2] · slices_S16x8x18x18_S16x8x16x16_0_0_1_2) : (⟨S16x8x18x18, .f32⟩ : BufTy).Contents (Elt F) → (⟨S16x8x16x16, .f32⟩ : BufTy).Contents (Elt F)),
    StableHlo.unary main_v0 main_v7 ((extractStridedSlice S16x8x16x16 ![0, 0, 2, 0] · slices_S16x8x18x18_S16x8x16x16_0_0_2_0) : (⟨S16x8x18x18, .f32⟩ : BufTy).Contents (Elt F) → (⟨S16x8x16x16, .f32⟩ : BufTy).Contents (Elt F)),
    StableHlo.unary main_v0 main_v8 ((extractStridedSlice S16x8x16x16 ![0, 0, 2, 1] · slices_S16x8x18x18_S16x8x16x16_0_0_2_1) : (⟨S16x8x18x18, .f32⟩ : BufTy).Contents (Elt F) → (⟨S16x8x16x16, .f32⟩ : BufTy).Contents (Elt F)),
    StableHlo.unary main_v0 main_v9 ((extractStridedSlice S16x8x16x16 ![0, 0, 2, 2] · slices_S16x8x18x18_S16x8x16x16_0_0_2_2) : (⟨S16x8x18x18, .f32⟩ : BufTy).Contents (Elt F) → (⟨S16x8x16x16, .f32⟩ : BufTy).Contents (Elt F)),
    StableHlo.unary main_v1 main_v10 (broadcastInDim S16x8x1x16x16 ![0, 1, 3, 4] bcast_S16x8x16x16_S16x8x1x16x16_0_1_3_4 : (⟨S16x8x16x16, .f32⟩ : BufTy).Contents (Elt F) → (⟨S16x8x1x16x16, .f32⟩ : BufTy).Contents (Elt F)),
    StableHlo.unary main_v2 main_v11 (broadcastInDim S16x8x1x16x16 ![0, 1, 3, 4] bcast_S16x8x16x16_S16x8x1x16x16_0_1_3_4 : (⟨S16x8x16x16, .f32⟩ : BufTy).Contents (Elt F) → (⟨S16x8x1x16x16, .f32⟩ : BufTy).Contents (Elt F)),
    StableHlo.unary main_v3 main_v12 (broadcastInDim S16x8x1x16x16 ![0, 1, 3, 4] bcast_S16x8x16x16_S16x8x1x16x16_0_1_3_4 : (⟨S16x8x16x16, .f32⟩ : BufTy).Contents (Elt F) → (⟨S16x8x1x16x16, .f32⟩ : BufTy).Contents (Elt F)),
    StableHlo.unary main_v4 main_v13 (broadcastInDim S16x8x1x16x16 ![0, 1, 3, 4] bcast_S16x8x16x16_S16x8x1x16x16_0_1_3_4 : (⟨S16x8x16x16, .f32⟩ : BufTy).Contents (Elt F) → (⟨S16x8x1x16x16, .f32⟩ : BufTy).Contents (Elt F)),
    StableHlo.unary main_v5 main_v14 (broadcastInDim S16x8x1x16x16 ![0, 1, 3, 4] bcast_S16x8x16x16_S16x8x1x16x16_0_1_3_4 : (⟨S16x8x16x16, .f32⟩ : BufTy).Contents (Elt F) → (⟨S16x8x1x16x16, .f32⟩ : BufTy).Contents (Elt F)),
    StableHlo.unary main_v6 main_v15 (broadcastInDim S16x8x1x16x16 ![0, 1, 3, 4] bcast_S16x8x16x16_S16x8x1x16x16_0_1_3_4 : (⟨S16x8x16x16, .f32⟩ : BufTy).Contents (Elt F) → (⟨S16x8x1x16x16, .f32⟩ : BufTy).Contents (Elt F)),
    StableHlo.unary main_v7 main_v16 (broadcastInDim S16x8x1x16x16 ![0, 1, 3, 4] bcast_S16x8x16x16_S16x8x1x16x16_0_1_3_4 : (⟨S16x8x16x16, .f32⟩ : BufTy).Contents (Elt F) → (⟨S16x8x1x16x16, .f32⟩ : BufTy).Contents (Elt F)),
    StableHlo.unary main_v8 main_v17 (broadcastInDim S16x8x1x16x16 ![0, 1, 3, 4] bcast_S16x8x16x16_S16x8x1x16x16_0_1_3_4 : (⟨S16x8x16x16, .f32⟩ : BufTy).Contents (Elt F) → (⟨S16x8x1x16x16, .f32⟩ : BufTy).Contents (Elt F)),
    StableHlo.unary main_v9 main_v18 (broadcastInDim S16x8x1x16x16 ![0, 1, 3, 4] bcast_S16x8x16x16_S16x8x1x16x16_0_1_3_4 : (⟨S16x8x16x16, .f32⟩ : BufTy).Contents (Elt F) → (⟨S16x8x1x16x16, .f32⟩ : BufTy).Contents (Elt F)) ]

/-- The rows, second piece: the nine windows joined along the new axis. -/
abbrev opsA2 : List (HloOp τ sig (Elt F)) :=
  [ StableHlo.nary ![main_v10, main_v11, main_v12, main_v13, main_v14, main_v15, main_v16, main_v17, main_v18] main_v19 (fun u => concatenate S16x8x9x16x16 2 [⟨S16x8x1x16x16, u 0⟩, ⟨S16x8x1x16x16, u 1⟩, ⟨S16x8x1x16x16, u 2⟩, ⟨S16x8x1x16x16, u 3⟩, ⟨S16x8x1x16x16, u 4⟩, ⟨S16x8x1x16x16, u 5⟩, ⟨S16x8x1x16x16, u 6⟩, ⟨S16x8x1x16x16, u 7⟩, ⟨S16x8x1x16x16, u 8⟩] concatenates_S16x8x1x16x16_S16x8x1x16x16_S16x8x1x16x16_S16x8x1x16x16_S16x8x1x16x16_S16x8x1x16x16_S16x8x1x16x16_S16x8x1x16x16_S16x8x1x16x16_S16x8x9x16x16_d2) ]

/-- The rows, third piece: the joined windows reshaped and transposed into 3 × 3 neighbourhoods per cell, broadcast over
    the second batch axis and joined with the broadcast control values; the index table built from the two index
    arguments (negative entries wrapped); the gather by that table; the reshape into a table of rows of seven. -/
abbrev opsA3 : List (HloOp τ sig (Elt F)) :=
  [ StableHlo.reshape main_v19 main_v20 rfl shapeCasts_S16x8x9x16x16_S16x72x256,
    StableHlo.reshape main_v20 main_v21 rfl shapeCasts_S16x72x256_S16x8x9x256,
    StableHlo.unary main_v21 main_v22 ((transpose S16x8x256x9 [0, 1, 3, 2] · transposes_S16x8x9x256_S16x8x256x9_0_1_3_2) : (⟨S16x8x9x256, .f32⟩ : BufTy).Contents (Elt F) → (⟨S16x8x256x9, .f32⟩ : BufTy).Contents (Elt F)),
    StableHlo.reshape main_v22 main_v23 rfl shapeCasts_S16x8x256x9_S16x8x256x3x3,
    StableHlo.unary main_v23 main_v24 (broadcastInDim S16x1x8x256x3x3 ![0, 2, 3, 4, 5] bcast_S16x8x256x3x3_S16x1x8x256x3x3_0_2_3_4_5 : (⟨S16x8x256x3x3, .f32⟩ : BufTy).Contents (Elt F) → (⟨S16x1x8x256x3x3, .f32⟩ : BufTy).Contents (Elt F)),
    StableHlo.unary main_v24 main_v25 (broadcastInDim S16x16x8x256x3x3 ![0, 1, 2, 3, 4, 5] bcast_S16x1x8x256x3x3_S16x16x8x256x3x3_0_1_2_3_4_5 : (⟨S16x1x8x256x3x3, .f32⟩ : BufTy).Contents (Elt F) → (⟨S16x16x8x256x3x3, .f32⟩ : BufTy).Contents (Elt F)),
    StableHlo.unary main_arg1 main_v26 (broadcastInDim S1x16x8x1x3x4 ![1, 2, 4, 5] bcast_S16x8x3x4_S1x16x8x1x3x4_1_2_4_5 : (⟨S16x8x3x4, .f32⟩ : BufTy).Contents (Elt F) → (⟨S1x16x8x1x3x4, .f32⟩ : BufTy).Contents (Elt F)),
    StableHlo.unary main_v26 main_v27 (broadcastInDim S16x16x8x256x3x4 ![0, 1, 2, 3, 4, 5] bcast_S1x16x8x1x3x4_S16x16x8x256x3x4_0_1_2_3_4_5 : (⟨S1x16x8x1x3x4, .f32⟩ : BufTy).Contents (Elt F) → (⟨S16x16x8x256x3x4, .f32⟩ : BufTy).Contents (Elt F)),
    StableHlo.binary main_v25 main_v27 main_v28 ((fun a b => concatenate S16x16x8x256x3x7 5 [⟨S16x16x8x256x3x3, a⟩, ⟨S16x16x8x256x3x4, b⟩] concatenates_S16x16x8x256x3x3_S16x16x8x256x3x4_S16x16x8x256x3x7_d5) : (⟨S16x16x8x256x3x3, .f32⟩ : BufTy).Contents (Elt F) → (⟨S16x16x8x256x3x4, .f32⟩ : BufTy).Contents (Elt F) → (⟨S16x16x8x256x3x7, .f32⟩ : BufTy).Contents (Elt F)),
    StableHlo.binary main_arg8 main_arg9 main_v29 ((fun a b => concatenate S3x7 1 [⟨S3x3, a⟩, ⟨S3x4, b⟩] concatenates_S3x3_S3x4_S3x7_d1) : (⟨S3x3, .i32⟩ : BufTy).Contents (Elt F) → (⟨S3x4, .i32⟩ : BufTy).Contents (Elt F) → (⟨S3x7, .i32⟩ : BufTy).Contents (Elt F)),
    StableHlo.nullary main_v30 (iotaInDim S3 32 0),
    StableHlo.unary main_v30 main_v31 (broadcastInDim S3x1 ![0] bcast_S3_S3x1_0 : (⟨S3, .i32⟩ : BufTy).Contents (Elt F) → (⟨S3x1, .i32⟩ : BufTy).Contents (Elt F)),
    StableHlo.nullary main_c_0 (constantI S_ 32 0#32),
    StableHlo.unary main_c_0 main_v32 (broadcastInDim S3x1 ![] bcast_S_S3x1 : (⟨S_, .i32⟩ : BufTy).Contents (Elt F) → (⟨S3x1, .i32⟩ : BufTy).Contents (Elt F)),
    StableHlo.binary main_v31 main_v32 main_v33 (cmpi .slt : (⟨S3x1, .i32⟩ : BufTy).Contents (Elt F) → (⟨S3x1, .i32⟩ : BufTy).Contents (Elt F) → (⟨S3x1, .i1⟩ : BufTy).Contents (Elt F)),
    StableHlo.nullary main_c_1 (constantI S_ 32 3#32),
    StableHlo.unary main_c_1 main_v34 (broadcastInDim S3x1 ![] bcast_S_S3x1 : (⟨S_, .i32⟩ : BufTy).Contents (Elt F) → (⟨S3x1, .i32⟩ : BufTy).Contents (Elt F)),
    StableHlo.binary main_v31 main_v34 main_v35 (addi : (⟨S3x1, .i32⟩ : BufTy).Contents (Elt F) → (⟨S3x1, .i32⟩ : BufTy).Contents (Elt F) → (⟨S3x1, .i32⟩ : BufTy).Contents (Elt F)),
    StableHlo.ternary main_v33 main_v35 main_v31 main_v36 (select : (⟨S3x1, .i1⟩ : BufTy).Contents (Elt F) → (⟨S3x1, .i32⟩ : BufTy).Contents (Elt F) → (⟨S3x1, .i32⟩ : BufTy).Contents (Elt F) → (⟨S3x1, .i32⟩ : BufTy).Contents (Elt F)),
    StableHlo.nullary main_c_2 (constantI S_ 32 0#32),
    StableHlo.unary main_c_2 main_v37 (broadcastInDim S3x7 ![] bcast_S_S3x7 : (⟨S_, .i32⟩ : BufTy).Contents (Elt F) → (⟨S3x7, .i32⟩ : BufTy).Contents (Elt F)),
    StableHlo.binary main_v29 main_v37 main_v38 (cmpi .slt : (⟨S3x7, .i32⟩ : BufTy).Contents (Elt F) → (⟨S3x7, .i32⟩ : BufTy).Contents (Elt F) → (⟨S3x7, .i1⟩ : BufTy).Contents (Elt F)),
    StableHlo.nullary main_c_3 (constantI S_ 32 7#32),
    StableHlo.unary main_c_3 main_v39 (broadcastInDim S3x7 ![] bcast_S_S3x7 : (⟨S_, .i32⟩ : BufTy).Contents (Elt F) → (⟨S3x7, .i32⟩ : BufTy).Contents (Elt F)),
    StableHlo.binary main_v29 main_v39 main_v40 (addi : (⟨S3x7, .i32⟩ : BufTy).Contents (Elt F) → (⟨S3x7, .i32⟩ : BufTy).Contents (Elt F) → (⟨S3x7, .i32⟩ : BufTy).Contents (Elt F)),
    StableHlo.ternary main_v38 main_v40 main_v29 main_v41 (select : (⟨S3x7, .i1⟩ : BufTy).Contents (Elt F) → (⟨S3x7, .i32⟩ : BufTy).Contents (Elt F) → (⟨S3x7, .i32⟩ : BufTy).Contents (Elt F) → (⟨S3x7, .i32⟩ : BufTy).Contents (Elt F)),
    StableHlo.unary main_v36 main_v42 (broadcastInDim S3x7 ![0, 1] bcast_S3x1_S3x7_0_1 : (⟨S3x1, .i32⟩ : BufTy).Contents (Elt F) → (⟨S3x7, .i32⟩ : BufTy).Contents (Elt F)),
    StableHlo.unary main_v42 main_v43 (broadcastInDim S3x7x1 ![0, 1] bcast_S3x7_S3x7x1_0_1 : (⟨S3x7, .i32⟩ : BufTy).Contents (Elt F) → (⟨S3x7x1, .i32⟩ : BufTy).Contents (Elt F)),
    StableHlo.unary main_v41 main_v44 (broadcastInDim S3x7x1 ![0, 1] bcast_S3x7_S3x7x1_0_1 : (⟨S3x7, .i32⟩ : BufTy).Contents (Elt F) → (⟨S3x7x1, .i32⟩ : BufTy).Contents (Elt F)),
    StableHlo.binary main_v43 main_v44 main_v45 ((fun a b => concatenate S3x7x2 2 [⟨S3x7x1, a⟩, ⟨S3x7x1, b⟩] concatenates_S3x7x1_S3x7x1_S3x7x2_d2) : (⟨S3x7x1, .i32⟩ : BufTy).Contents (Elt F) → (⟨S3x7x1, .i32⟩ : BufTy).Contents (Elt F) → (⟨S3x7x2, .i32⟩ : BufTy).Contents (Elt F)),
    StableHlo.binary main_v28 main_v45 main_v46 ((fun x i => Host.gather gather_S16x16x8x256x3x7_S3x7x2_S16x16x8x256x3x7_0123_45_n_n_45_2_1616825611 x i) : (⟨S16x16x8x256x3x7, .f32⟩ : BufTy).Contents (Elt F) → (⟨S3x7x2, .i32⟩ : BufTy).Contents (Elt F) → (⟨S16x16x8x256x3x7, .f32⟩ : BufTy).Contents (Elt F)),
    StableHlo.reshape main_v46 main_v47 rfl shapeCasts_S16x16x8x256x3x7_S1572864x7 ]

/-- The network, up to the window's end: the first layer (product, bias, the exponential linear unit through its called
    function), the second layer's product, and the second bias given a unit axis. -/
abbrev opsB0 : List (HloOp τ sig (Elt F)) :=
  [ StableHlo.binary main_v47 main_arg2 main_v48 ((fun l r => Host.dotGeneral dot_S1572864x7_S7x90_S1572864x90_1_0_0_1_n_n none l r) : (⟨S1572864x7, .f32⟩ : BufTy).Contents (Elt F) → (⟨S7x90, .f32⟩ : BufTy).Contents (Elt F) → (⟨S1572864x90, .f32⟩ : BufTy).Contents (Elt F)),
    StableHlo.unary main_arg3 main_v49 (broadcastInDim S1x90 ![1] bcast_S90_S1x90_1 : (⟨S90, .f32⟩ : BufTy).Contents (Elt F) → (⟨S1x90, .f32⟩ : BufTy).Contents (Elt F)),
    StableHlo.unary main_v49 main_v50 (broadcastInDim S1572864x90 ![0, 1] bcast_S1x90_S1572864x90_0_1 : (⟨S1x90, .f32⟩ : BufTy).Contents (Elt F) → (⟨S1572864x90, .f32⟩ : BufTy).Contents (Elt F)),
    StableHlo.binary main_v48 main_v50 main_v51 (addf : (⟨S1572864x90, .f32⟩ : BufTy).Contents (Elt F) → (⟨S1572864x90, .f32⟩ : BufTy).Contents (Elt F) → (⟨S1572864x90, .f32⟩ : BufTy).Contents (Elt F)),
    StableHlo.TRef.nullary main_call1.cst (constant S_ .f32 0x00000000#32),
    StableHlo.TRef.unary main_call1.cst main_call1.v0 (broadcastInDim S1572864x90 ![] bcast_S_S1572864x90),
    StableHlo.TRef.binary (TRef.of main_v51 : TRef sig ⟨S1572864x90, .f32⟩) main_call1.v0 main_call1.v1 (cmpf .ogt),
    StableHlo.TRef.nullary main_call1.cst_0 (constant S_ .f32 0x00000000#32),
    StableHlo.TRef.unary main_call1.cst_0 main_call1.v2 (broadcastInDim S1572864x90 ![] bcast_S_S1572864x90),
    StableHlo.TRef.binary (TRef.of main_v51 : TRef sig ⟨S1572864x90, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S1572864x90 ![] bcast_S_S1572864x90),
    StableHlo.TRef.ternary main_call1.v3 main_call1.call0.v1 (TRef.of main_v51 : TRef sig ⟨S1572864x90, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S1572864x90 ![] bcast_S_S1572864x90),
    StableHlo.TRef.binary main_call1.v6 main_call1.v5 main_call1.v7 mulf,
    StableHlo.TRef.ternary main_call1.v1 (TRef.of main_v51 : TRef sig ⟨S1572864x90, .f32⟩) main_call1.v7 main_call1.call1.v0 select,
    StableHlo.binary main_v52 main_arg4 main_v53 ((fun l r => Host.dotGeneral dot_S1572864x90_S90x90_S1572864x90_1_0_0_1_n_n none l r) : (⟨S1572864x90, .f32⟩ : BufTy).Contents (Elt F) → (⟨S90x90, .f32⟩ : BufTy).Contents (Elt F) → (⟨S1572864x90, .f32⟩ : BufTy).Contents (Elt F)),
    StableHlo.unary main_arg5 main_v54 (broadcastInDim S1x90 ![1] bcast_S90_S1x90_1 : (⟨S90, .f32⟩ : BufTy).Contents (Elt F) → (⟨S1x90, .f32⟩ : BufTy).Contents (Elt F)) ]

/-- The network, the rest: the second bias added, the exponential linear unit again, the third layer's product and bias. -/
abbrev opsB1 : List (HloOp τ sig (Elt F)) :=
  [ StableHlo.unary main_v54 main_v55 (broadcastInDim S1572864x90 ![0, 1] bcast_S1x90_S1572864x90_0_1 : (⟨S1x90, .f32⟩ : BufTy).Contents (Elt F) → (⟨S1572864x90, .f32⟩ : BufTy).Contents (Elt F)),
    StableHlo.binary main_v53 main_v55 main_v56 (addf : (⟨S1572864x90, .f32⟩ : BufTy).Contents (Elt F) → (⟨S1572864x90, .f32⟩ : BufTy).Contents (Elt F) → (⟨S1572864x90, .f32⟩ : BufTy).Contents (Elt F)),
    StableHlo.TRef.nullary main_call2.cst (constant S_ .f32 0x00000000#32),
    StableHlo.TRef.unary main_call2.cst main_call2.v0 (broadcastInDim S1572864x90 ![] bcast_S_S1572864x90),
    StableHlo.TRef.binary (TRef.of main_v56 : TRef sig ⟨S1572864x90, .f32⟩) main_call2.v0 main_call2.v1 (cmpf .ogt),
    StableHlo.TRef.nullary main_call2.cst_0 (constant S_ .f32 0x00000000#32),
    StableHlo.TRef.unary main_call2.cst_0 main_call2.v2 (broadcastInDim S1572864x90 ![] bcast_S_S1572864x90),
    StableHlo.TRef.binary (TRef.of main_v56 : TRef sig ⟨S1572864x90, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S1572864x90 ![] bcast_S_S1572864x90),
    StableHlo.TRef.ternary main_call2.v3 main_call2.call0.v1 (TRef.of main_v56 : TRef sig ⟨S1572864x90, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S1572864x90 ![] bcast_S_S1572864x90),
    StableHlo.TRef.binary main_call2.v6 main_call2.v5 main_call2.v7 mulf,
    StableHlo.TRef.ternary main_call2.v1 (TRef.of main_v56 : TRef sig ⟨S1572864x90, .f32⟩) main_call2.v7 main_call2.call1.v0 select,
    StableHlo.binary main_v57 main_arg6 main_v58 ((fun l r => Host.dotGeneral dot_S1572864x90_S90x1_S1572864x1_1_0_0_1_n_n none l r) : (⟨S1572864x90, .f32⟩ : BufTy).Contents (Elt F) → (⟨S90x1, .f32⟩ : BufTy).Contents (Elt F) → (⟨S1572864x1, .f32⟩ : BufTy).Contents (Elt F)),
    StableHlo.unary main_arg7 main_v59 (broadcastInDim S1x1 ![1] bcast_S1_S1x1_1 : (⟨S1, .f32⟩ : BufTy).Contents (Elt F) → (⟨S1x1, .f32⟩ : BufTy).Contents (Elt F)),
    StableHlo.unary main_v59 main_v60 (broadcastInDim S1572864x1 ![0, 1] bcast_S1x1_S1572864x1_0_1 : (⟨S1x1, .f32⟩ : BufTy).Contents (Elt F) → (⟨S1572864x1, .f32⟩ : BufTy).Contents (Elt F)),
    StableHlo.binary main_v58 main_v60 main_v61 (addf : (⟨S1572864x1, .f32⟩ : BufTy).Contents (Elt F) → (⟨S1572864x1, .f32⟩ : BufTy).Contents (Elt F) → (⟨S1572864x1, .f32⟩ : BufTy).Contents (Elt F)) ]

/-- The sums: the reshape to five axes, the sum over the last axis and then over the third, the reshape to the result. -/
abbrev opsC : List (HloOp τ sig (Elt F)) :=
  [ StableHlo.reshape main_v61 main_v62 rfl shapeCasts_S1572864x1_S16x16x8x256x3,
    StableHlo.nullary main_cst (constant S_ .f32 0x00000000#32),
    StableHlo.binary main_v62 main_cst main_v63 ((fun x v => Host.reduceAdd x v reducesTo_S16x16x8x256x3_S16x16x8x256_d4 h_S_) : (⟨S16x16x8x256x3, .f32⟩ : BufTy).Contents (Elt F) → (⟨S_, .f32⟩ : BufTy).Contents (Elt F) → (⟨S16x16x8x256, .f32⟩ : BufTy).Contents (Elt F)),
    StableHlo.nullary main_cst_4 (constant S_ .f32 0x00000000#32),
    StableHlo.binary main_v63 main_cst_4 main_v64 ((fun x v => Host.reduceAdd x v reducesTo_S16x16x8x256_S16x16x256_d2 h_S_) : (⟨S16x16x8x256, .f32⟩ : BufTy).Contents (Elt F) → (⟨S_, .f32⟩ : BufTy).Contents (Elt F) → (⟨S16x16x256, .f32⟩ : BufTy).Contents (Elt F)),
    StableHlo.reshape main_v64 main_v65 rfl shapeCasts_S16x16x256_S16x16x16x16 ]

/-- The first window's operations, and the second's. -/
abbrev ops0 : List (HloOp τ sig (Elt F)) := opsA1 ++ (opsA2 ++ (opsA3 ++ opsB0))
abbrev ops1 : List (HloOp τ sig (Elt F)) := opsB1 ++ opsC
/-- @main's operations, in order. -/
abbrev ops : List (HloOp τ sig (Elt F)) := ops0 ++ ops1

set_option maxRecDepth 8192 in
set_option maxHeartbeats 4000000 in
theorem part0_eq (c : Dev nD) : main_part0 (F := F) c = seq ops0 := rfl

set_option maxRecDepth 8192 in
set_option maxHeartbeats 4000000 in
theorem part1_eq (c : Dev nD) : main_part1 (F := F) c = seq ops1 := rfl

/-- @main is the straight line of its operations: its two windows one after the other. -/
theorem main_eq (c : Dev nD) : main (F := F) c = seq ops := by
  show (main_part0 (F := F) c >>= fun _ => main_part1 (F := F) c) = seq (ops0 ++ ops1)
  rw [seq_append, part0_eq, part1_eq]

theorem scopedRefs_eq : (Finset.univ.filter fun b : Ref sig .tc => b.isScoped) = ∅ := by decide
theorem scopedSems_eq : (Finset.univ.filter fun sm : SemLoc sig => sm.isScoped .tc) = ∅ := by decide

theorem opsA1_sub : (opsA1 : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

theorem opsA2_sub : (opsA2 : List (HloOp τ sig (Elt F))).Forall fun op => op.bufs ⊆ tcRefs τ sig :=
  nary_bufs_sub ..

theorem opsA3_sub : (opsA3 : List (HloOp τ sig (Elt F))).Forall fun op => op.bufs ⊆ tcRefs τ sig :=
  ⟨reshape_bufs_sub .., reshape_bufs_sub .., unary_bufs_sub .., reshape_bufs_sub .., unary_bufs_sub .., unary_bufs_sub .., unary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., reshape_bufs_sub ..⟩

theorem opsB0_sub : (opsB0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub ..⟩

theorem opsB1_sub : (opsB1 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub ..⟩

theorem opsC_sub : (opsC : List (HloOp τ sig (Elt F))).Forall fun op => op.bufs ⊆ tcRefs τ sig :=
  ⟨reshape_bufs_sub .., nullary_bufs_sub .., binary_bufs_sub .., nullary_bufs_sub .., binary_bufs_sub .., reshape_bufs_sub ..⟩

/-- Every operation touches TensorCore references only. -/
theorem ops_sub : (ops : List (HloOp τ sig (Elt F))).Forall fun op => op.bufs ⊆ tcRefs τ sig :=
  List.forall_append.mpr ⟨List.forall_append.mpr ⟨opsA1_sub, List.forall_append.mpr ⟨opsA2_sub,
    List.forall_append.mpr ⟨opsA3_sub, opsB0_sub⟩⟩⟩, List.forall_append.mpr ⟨opsB1_sub, opsC_sub⟩⟩

theorem opsA1_fresh : ∀ op ∈ (opsA1 : List (HloOp τ sig (Elt F))), op.fresh = ∅ := by
  intro _ h; (repeat (cases h with | head => rfl | tail _ h => ?_)); exact nomatch h

theorem opsA2_fresh : ∀ op ∈ (opsA2 : List (HloOp τ sig (Elt F))), op.fresh = ∅ := by
  intro _ h; (repeat (cases h with | head => rfl | tail _ h => ?_)); exact nomatch h

theorem opsA3_fresh : ∀ op ∈ (opsA3 : List (HloOp τ sig (Elt F))), op.fresh = ∅ := by
  intro _ h; (repeat (cases h with | head => rfl | tail _ h => ?_)); exact nomatch h

theorem opsB0_fresh : ∀ op ∈ (opsB0 : List (HloOp τ sig (Elt F))), op.fresh = ∅ := by
  intro _ h; (repeat (cases h with | head => rfl | tail _ h => ?_)); exact nomatch h

theorem opsB1_fresh : ∀ op ∈ (opsB1 : List (HloOp τ sig (Elt F))), op.fresh = ∅ := by
  intro _ h; (repeat (cases h with | head => rfl | tail _ h => ?_)); exact nomatch h

theorem opsC_fresh : ∀ op ∈ (opsC : List (HloOp τ sig (Elt F))), op.fresh = ∅ := by
  intro _ h; (repeat (cases h with | head => rfl | tail _ h => ?_)); exact nomatch h

/-- Every operation determines its results. -/
theorem ops_fresh : ∀ op ∈ (ops : List (HloOp τ sig (Elt F))), op.fresh = ∅ := by
  intro op h
  simp only [ops, ops0, ops1, List.mem_append] at h
  rcases h with (h | h | h | h) | h | h
  exacts [opsA1_fresh op h, opsA2_fresh op h, opsA3_fresh op h, opsB0_fresh op h, opsB1_fresh op h, opsC_fresh op h]

/-- The contents after @main's operations are the six pieces' in turn. -/
theorem after_ops (V : Valuation τ sig (Elt F)) :
    after ops V = after opsC (after opsB1 (after opsB0 (after opsA3 (after opsA2 (after opsA1 V))))) := by
  simp only [ops, ops0, ops1, Cert.LibHostCalls.after_append]

end Cert.ReferenceIdeal.Hand

end
-- ==== Proof.RefDefs.lean ====
/-
  The reference's result as three functions of its arguments, each the nesting of the program's own operations in
  program order: the table of rows (one row of seven features for each of the 16 · 16 · 8 · 256 · 3 places: three values
  gathered from the 3 × 3 neighbourhood of a cell of the padded input, and four control values), the three-layer
  network applied to every row, and the two sums that fold the places' outputs into the 16 × 16 × 16 × 16 result. The
  exponential linear unit, a called function the network applies twice, is the function `eluV`.
-/
import proofs.«141062_j86612310491664_1_alg».proof.Proof.Gen.ReferenceIdeal
import Idealize.ShloMosaic.PureOps.Ideal

noncomputable section

namespace Cert.ReferenceIdeal.Hand

open Cert.ReferenceIdeal Cert.ReferenceIdeal.Facts₀ Idealize.ShloMosaic

/-- The table of rows, from the input `x`, the control values `ctl` and the two index arguments: the operations from
    the padding of `x` (by the float of the integer zero) through the reshape of the gather. -/
noncomputable def rows (x : FVec Ideal S16x8x16x16 .f32) (ctl : FVec Ideal S16x8x3x4 .f32) (i8 : IVec S3x3 32) (i9 : IVec S3x4 32) :
    FVec Ideal S1572864x7 .f32 :=
  shapeCast S1572864x7 (Host.gather gather_S16x16x8x256x3x7_S3x7x2_S16x16x8x256x3x7_0123_45_n_n_45_2_1616825611 (concatenate S16x16x8x256x3x7 5 [⟨S16x16x8x256x3x3, (broadcastInDim S16x16x8x256x3x3 ![0, 1, 2, 3, 4, 5] bcast_S16x1x8x256x3x3_S16x16x8x256x3x3_0_1_2_3_4_5 (broadcastInDim S16x1x8x256x3x3 ![0, 2, 3, 4, 5] bcast_S16x8x256x3x3_S16x1x8x256x3x3_0_2_3_4_5 (shapeCast S16x8x256x3x3 (transpose S16x8x256x9 [0, 1, 3, 2] (shapeCast S16x8x9x256 (shapeCast S16x72x256 (concatenate S16x8x9x16x16 2 [⟨S16x8x1x16x16, (broadcastInDim S16x8x1x16x16 ![0, 1, 3, 4] bcast_S16x8x16x16_S16x8x1x16x16_0_1_3_4 (extractStridedSlice S16x8x16x16 ![0, 0, 0, 0] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_0_0))⟩, ⟨S16x8x1x16x16, (broadcastInDim S16x8x1x16x16 ![0, 1, 3, 4] bcast_S16x8x16x16_S16x8x1x16x16_0_1_3_4 (extractStridedSlice S16x8x16x16 ![0, 0, 0, 1] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_0_1))⟩, ⟨S16x8x1x16x16, (broadcastInDim S16x8x1x16x16 ![0, 1, 3, 4] bcast_S16x8x16x16_S16x8x1x16x16_0_1_3_4 (extractStridedSlice S16x8x16x16 ![0, 0, 0, 2] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_0_2))⟩, ⟨S16x8x1x16x16, (broadcastInDim S16x8x1x16x16 ![0, 1, 3, 4] bcast_S16x8x16x16_S16x8x1x16x16_0_1_3_4 (extractStridedSlice S16x8x16x16 ![0, 0, 1, 0] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_1_0))⟩, ⟨S16x8x1x16x16, (broadcastInDim S16x8x1x16x16 ![0, 1, 3, 4] bcast_S16x8x16x16_S16x8x1x16x16_0_1_3_4 (extractStridedSlice S16x8x16x16 ![0, 0, 1, 1] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_1_1))⟩, ⟨S16x8x1x16x16, (broadcastInDim S16x8x1x16x16 ![0, 1, 3, 4] bcast_S16x8x16x16_S16x8x1x16x16_0_1_3_4 (extractStridedSlice S16x8x16x16 ![0, 0, 1, 2] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_1_2))⟩, ⟨S16x8x1x16x16, (broadcastInDim S16x8x1x16x16 ![0, 1, 3, 4] bcast_S16x8x16x16_S16x8x1x16x16_0_1_3_4 (extractStridedSlice S16x8x16x16 ![0, 0, 2, 0] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_2_0))⟩, ⟨S16x8x1x16x16, (broadcastInDim S16x8x1x16x16 ![0, 1, 3, 4] bcast_S16x8x16x16_S16x8x1x16x16_0_1_3_4 (extractStridedSlice S16x8x16x16 ![0, 0, 2, 1] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_2_1))⟩, ⟨S16x8x1x16x16, (broadcastInDim S16x8x1x16x16 ![0, 1, 3, 4] bcast_S16x8x16x16_S16x8x1x16x16_0_1_3_4 (extractStridedSlice S16x8x16x16 ![0, 0, 2, 2] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_2_2))⟩] concatenates_S16x8x1x16x16_S16x8x1x16x16_S16x8x1x16x16_S16x8x1x16x16_S16x8x1x16x16_S16x8x1x16x16_S16x8x1x16x16_S16x8x1x16x16_S16x8x1x16x16_S16x8x9x16x16_d2) shapeCasts_S16x8x9x16x16_S16x72x256) shapeCasts_S16x72x256_S16x8x9x256) transposes_S16x8x9x256_S16x8x256x9_0_1_3_2) shapeCasts_S16x8x256x9_S16x8x256x3x3)))⟩, ⟨S16x16x8x256x3x4, (broadcastInDim S16x16x8x256x3x4 ![0, 1, 2, 3, 4, 5] bcast_S1x16x8x1x3x4_S16x16x8x256x3x4_0_1_2_3_4_5 (broadcastInDim S1x16x8x1x3x4 ![1, 2, 4, 5] bcast_S16x8x3x4_S1x16x8x1x3x4_1_2_4_5 ctl))⟩] concatenates_S16x16x8x256x3x3_S16x16x8x256x3x4_S16x16x8x256x3x7_d5) (concatenate S3x7x2 2 [⟨S3x7x1, (broadcastInDim S3x7x1 ![0, 1] bcast_S3x7_S3x7x1_0_1 (broadcastInDim S3x7 ![0, 1] bcast_S3x1_S3x7_0_1 (select (cmpi .slt (broadcastInDim S3x1 ![0] bcast_S3_S3x1_0 (iotaInDim S3 32 0)) (broadcastInDim S3x1 ![] bcast_S_S3x1 (constantI S_ 32 0#32))) (addi (broadcastInDim S3x1 ![0] bcast_S3_S3x1_0 (iotaInDim S3 32 0)) (broadcastInDim S3x1 ![] bcast_S_S3x1 (constantI S_ 32 3#32))) (broadcastInDim S3x1 ![0] bcast_S3_S3x1_0 (iotaInDim S3 32 0)))))⟩, ⟨S3x7x1, (broadcastInDim S3x7x1 ![0, 1] bcast_S3x7_S3x7x1_0_1 (select (cmpi .slt (concatenate S3x7 1 [⟨S3x3, i8⟩, ⟨S3x4, i9⟩] concatenates_S3x3_S3x4_S3x7_d1) (broadcastInDim S3x7 ![] bcast_S_S3x7 (constantI S_ 32 0#32))) (addi (concatenate S3x7 1 [⟨S3x3, i8⟩, ⟨S3x4, i9⟩] concatenates_S3x3_S3x4_S3x7_d1) (broadcastInDim S3x7 ![] bcast_S_S3x7 (constantI S_ 32 7#32))) (concatenate S3x7 1 [⟨S3x3, i8⟩, ⟨S3x4, i9⟩] concatenates_S3x3_S3x4_S3x7_d1)))⟩] concatenates_S3x7x1_S3x7x1_S3x7x2_d2)) shapeCasts_S16x16x8x256x3x7_S1572864x7

/-- The exponential linear unit on a table, as the called function computes it: `y` where `y > 0`, and elsewhere one times
    `expm1` of `y` (of zero where `y > 0`). -/
noncomputable def eluV (y : FVec Ideal S1572864x90 .f32) : FVec Ideal S1572864x90 .f32 :=
  select (cmpf (F := Ideal) .ogt y (broadcastInDim S1572864x90 ![] bcast_S_S1572864x90 (constant (F := Ideal) S_ .f32 0x00000000#32))) y (mulf (F := Ideal) (broadcastInDim S1572864x90 ![] bcast_S_S1572864x90 (constant (F := Ideal) S_ .f32 0x3F800000#32)) (Host.expm1 (F := Ideal) (select (cmpf (F := Ideal) .ogt y (broadcastInDim S1572864x90 ![] bcast_S_S1572864x90 (constant (F := Ideal) S_ .f32 0x00000000#32))) (broadcastInDim S1572864x90 ![] bcast_S_S1572864x90 (constant (F := Ideal) S_ .f32 0x00000000#32)) y)))

/-- The network on the table of rows `X`: product with `W1`, bias, unit; product with `W2`, bias, unit; product with
    `W3`, bias. -/
noncomputable def net (X : FVec Ideal S1572864x7 .f32) (W1 : FVec Ideal S7x90 .f32) (b1 : FVec Ideal S90 .f32)
    (W2 : FVec Ideal S90x90 .f32) (b2 : FVec Ideal S90 .f32) (W3 : FVec Ideal S90x1 .f32) (b3 : FVec Ideal S1 .f32) :
    FVec Ideal S1572864x1 .f32 :=
  addf (F := Ideal) (Host.dotGeneral (F := Ideal) dot_S1572864x90_S90x1_S1572864x1_1_0_0_1_n_n none (eluV (addf (F := Ideal) (Host.dotGeneral (F := Ideal) dot_S1572864x90_S90x90_S1572864x90_1_0_0_1_n_n none (eluV (addf (F := Ideal) (Host.dotGeneral (F := Ideal) dot_S1572864x7_S7x90_S1572864x90_1_0_0_1_n_n none X W1) (broadcastInDim S1572864x90 ![0, 1] bcast_S1x90_S1572864x90_0_1 (broadcastInDim S1x90 ![1] bcast_S90_S1x90_1 b1)))) W2) (broadcastInDim S1572864x90 ![0, 1] bcast_S1x90_S1572864x90_0_1 (broadcastInDim S1x90 ![1] bcast_S90_S1x90_1 b2)))) W3) (broadcastInDim S1572864x1 ![0, 1] bcast_S1x1_S1572864x1_0_1 (broadcastInDim S1x1 ![1] bcast_S1_S1x1_1 b3))

/-- The sums: the outputs reshaped to 16 × 16 × 8 × 256 × 3, summed over the last axis and then over the third, and
    reshaped to 16 × 16 × 16 × 16. -/
noncomputable def sums (y : FVec Ideal S1572864x1 .f32) : FVec Ideal S16x16x16x16 .f32 :=
  shapeCast S16x16x16x16 (Host.reduceAdd (F := Ideal) (Host.reduceAdd (F := Ideal) (shapeCast S16x16x8x256x3 y shapeCasts_S1572864x1_S16x16x8x256x3) (constant (F := Ideal) S_ .f32 0x00000000#32) reducesTo_S16x16x8x256x3_S16x16x8x256_d4 h_S_) (constant (F := Ideal) S_ .f32 0x00000000#32) reducesTo_S16x16x8x256_S16x16x256_d2 h_S_) shapeCasts_S16x16x256_S16x16x16x16

end Cert.ReferenceIdeal.Hand

end
-- ==== Proof.RefKeep.lean ====
/-
  No operation of the program writes an argument's buffer: through each of the six pieces of the operation list, and so
  through the whole list, each of the ten arguments keeps its contents.
-/
import proofs.«141062_j86612310491664_1_alg».proof.Proof.RefOps

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

theorem keep_A1_arg0 (V : Valuation τ sig (Elt F)) : after opsA1 V (main_arg0 : DevRef τ sig) = V (main_arg0 : DevRef τ sig) := by
  simp only [opsA1]
  after_results_simp
theorem keep_A1_arg1 (V : Valuation τ sig (Elt F)) : after opsA1 V (main_arg1 : DevRef τ sig) = V (main_arg1 : DevRef τ sig) := by
  simp only [opsA1]
  after_results_simp
theorem keep_A1_arg2 (V : Valuation τ sig (Elt F)) : after opsA1 V (main_arg2 : DevRef τ sig) = V (main_arg2 : DevRef τ sig) := by
  simp only [opsA1]
  after_results_simp
theorem keep_A1_arg3 (V : Valuation τ sig (Elt F)) : after opsA1 V (main_arg3 : DevRef τ sig) = V (main_arg3 : DevRef τ sig) := by
  simp only [opsA1]
  after_results_simp
theorem keep_A1_arg4 (V : Valuation τ sig (Elt F)) : after opsA1 V (main_arg4 : DevRef τ sig) = V (main_arg4 : DevRef τ sig) := by
  simp only [opsA1]
  after_results_simp
theorem keep_A1_arg5 (V : Valuation τ sig (Elt F)) : after opsA1 V (main_arg5 : DevRef τ sig) = V (main_arg5 : DevRef τ sig) := by
  simp only [opsA1]
  after_results_simp
theorem keep_A1_arg6 (V : Valuation τ sig (Elt F)) : after opsA1 V (main_arg6 : DevRef τ sig) = V (main_arg6 : DevRef τ sig) := by
  simp only [opsA1]
  after_results_simp
theorem keep_A1_arg7 (V : Valuation τ sig (Elt F)) : after opsA1 V (main_arg7 : DevRef τ sig) = V (main_arg7 : DevRef τ sig) := by
  simp only [opsA1]
  after_results_simp
theorem keep_A1_arg8 (V : Valuation τ sig (Elt F)) : after opsA1 V (main_arg8 : DevRef τ sig) = V (main_arg8 : DevRef τ sig) := by
  simp only [opsA1]
  after_results_simp
theorem keep_A1_arg9 (V : Valuation τ sig (Elt F)) : after opsA1 V (main_arg9 : DevRef τ sig) = V (main_arg9 : DevRef τ sig) := by
  simp only [opsA1]
  after_results_simp
theorem keep_A2_arg0 (V : Valuation τ sig (Elt F)) : after opsA2 V (main_arg0 : DevRef τ sig) = V (main_arg0 : DevRef τ sig) := by
  simp only [opsA2]
  after_results_simp
theorem keep_A2_arg1 (V : Valuation τ sig (Elt F)) : after opsA2 V (main_arg1 : DevRef τ sig) = V (main_arg1 : DevRef τ sig) := by
  simp only [opsA2]
  after_results_simp
theorem keep_A2_arg2 (V : Valuation τ sig (Elt F)) : after opsA2 V (main_arg2 : DevRef τ sig) = V (main_arg2 : DevRef τ sig) := by
  simp only [opsA2]
  after_results_simp
theorem keep_A2_arg3 (V : Valuation τ sig (Elt F)) : after opsA2 V (main_arg3 : DevRef τ sig) = V (main_arg3 : DevRef τ sig) := by
  simp only [opsA2]
  after_results_simp
theorem keep_A2_arg4 (V : Valuation τ sig (Elt F)) : after opsA2 V (main_arg4 : DevRef τ sig) = V (main_arg4 : DevRef τ sig) := by
  simp only [opsA2]
  after_results_simp
theorem keep_A2_arg5 (V : Valuation τ sig (Elt F)) : after opsA2 V (main_arg5 : DevRef τ sig) = V (main_arg5 : DevRef τ sig) := by
  simp only [opsA2]
  after_results_simp
theorem keep_A2_arg6 (V : Valuation τ sig (Elt F)) : after opsA2 V (main_arg6 : DevRef τ sig) = V (main_arg6 : DevRef τ sig) := by
  simp only [opsA2]
  after_results_simp
theorem keep_A2_arg7 (V : Valuation τ sig (Elt F)) : after opsA2 V (main_arg7 : DevRef τ sig) = V (main_arg7 : DevRef τ sig) := by
  simp only [opsA2]
  after_results_simp
theorem keep_A2_arg8 (V : Valuation τ sig (Elt F)) : after opsA2 V (main_arg8 : DevRef τ sig) = V (main_arg8 : DevRef τ sig) := by
  simp only [opsA2]
  after_results_simp
theorem keep_A2_arg9 (V : Valuation τ sig (Elt F)) : after opsA2 V (main_arg9 : DevRef τ sig) = V (main_arg9 : DevRef τ sig) := by
  simp only [opsA2]
  after_results_simp
theorem keep_A3_arg0 (V : Valuation τ sig (Elt F)) : after opsA3 V (main_arg0 : DevRef τ sig) = V (main_arg0 : DevRef τ sig) := by
  simp only [opsA3]
  after_results_simp
theorem keep_A3_arg1 (V : Valuation τ sig (Elt F)) : after opsA3 V (main_arg1 : DevRef τ sig) = V (main_arg1 : DevRef τ sig) := by
  simp only [opsA3]
  after_results_simp
theorem keep_A3_arg2 (V : Valuation τ sig (Elt F)) : after opsA3 V (main_arg2 : DevRef τ sig) = V (main_arg2 : DevRef τ sig) := by
  simp only [opsA3]
  after_results_simp
theorem keep_A3_arg3 (V : Valuation τ sig (Elt F)) : after opsA3 V (main_arg3 : DevRef τ sig) = V (main_arg3 : DevRef τ sig) := by
  simp only [opsA3]
  after_results_simp
theorem keep_A3_arg4 (V : Valuation τ sig (Elt F)) : after opsA3 V (main_arg4 : DevRef τ sig) = V (main_arg4 : DevRef τ sig) := by
  simp only [opsA3]
  after_results_simp
theorem keep_A3_arg5 (V : Valuation τ sig (Elt F)) : after opsA3 V (main_arg5 : DevRef τ sig) = V (main_arg5 : DevRef τ sig) := by
  simp only [opsA3]
  after_results_simp
theorem keep_A3_arg6 (V : Valuation τ sig (Elt F)) : after opsA3 V (main_arg6 : DevRef τ sig) = V (main_arg6 : DevRef τ sig) := by
  simp only [opsA3]
  after_results_simp
theorem keep_A3_arg7 (V : Valuation τ sig (Elt F)) : after opsA3 V (main_arg7 : DevRef τ sig) = V (main_arg7 : DevRef τ sig) := by
  simp only [opsA3]
  after_results_simp
theorem keep_A3_arg8 (V : Valuation τ sig (Elt F)) : after opsA3 V (main_arg8 : DevRef τ sig) = V (main_arg8 : DevRef τ sig) := by
  simp only [opsA3]
  after_results_simp
theorem keep_A3_arg9 (V : Valuation τ sig (Elt F)) : after opsA3 V (main_arg9 : DevRef τ sig) = V (main_arg9 : DevRef τ sig) := by
  simp only [opsA3]
  after_results_simp
theorem keep_B0_arg0 (V : Valuation τ sig (Elt F)) : after opsB0 V (main_arg0 : DevRef τ sig) = V (main_arg0 : DevRef τ sig) := by
  simp only [opsB0]
  after_results_simp
theorem keep_B0_arg1 (V : Valuation τ sig (Elt F)) : after opsB0 V (main_arg1 : DevRef τ sig) = V (main_arg1 : DevRef τ sig) := by
  simp only [opsB0]
  after_results_simp
theorem keep_B0_arg2 (V : Valuation τ sig (Elt F)) : after opsB0 V (main_arg2 : DevRef τ sig) = V (main_arg2 : DevRef τ sig) := by
  simp only [opsB0]
  after_results_simp
theorem keep_B0_arg3 (V : Valuation τ sig (Elt F)) : after opsB0 V (main_arg3 : DevRef τ sig) = V (main_arg3 : DevRef τ sig) := by
  simp only [opsB0]
  after_results_simp
theorem keep_B0_arg4 (V : Valuation τ sig (Elt F)) : after opsB0 V (main_arg4 : DevRef τ sig) = V (main_arg4 : DevRef τ sig) := by
  simp only [opsB0]
  after_results_simp
theorem keep_B0_arg5 (V : Valuation τ sig (Elt F)) : after opsB0 V (main_arg5 : DevRef τ sig) = V (main_arg5 : DevRef τ sig) := by
  simp only [opsB0]
  after_results_simp
theorem keep_B0_arg6 (V : Valuation τ sig (Elt F)) : after opsB0 V (main_arg6 : DevRef τ sig) = V (main_arg6 : DevRef τ sig) := by
  simp only [opsB0]
  after_results_simp
theorem keep_B0_arg7 (V : Valuation τ sig (Elt F)) : after opsB0 V (main_arg7 : DevRef τ sig) = V (main_arg7 : DevRef τ sig) := by
  simp only [opsB0]
  after_results_simp
theorem keep_B0_arg8 (V : Valuation τ sig (Elt F)) : after opsB0 V (main_arg8 : DevRef τ sig) = V (main_arg8 : DevRef τ sig) := by
  simp only [opsB0]
  after_results_simp
theorem keep_B0_arg9 (V : Valuation τ sig (Elt F)) : after opsB0 V (main_arg9 : DevRef τ sig) = V (main_arg9 : DevRef τ sig) := by
  simp only [opsB0]
  after_results_simp
theorem keep_B1_arg0 (V : Valuation τ sig (Elt F)) : after opsB1 V (main_arg0 : DevRef τ sig) = V (main_arg0 : DevRef τ sig) := by
  simp only [opsB1]
  after_results_simp
theorem keep_B1_arg1 (V : Valuation τ sig (Elt F)) : after opsB1 V (main_arg1 : DevRef τ sig) = V (main_arg1 : DevRef τ sig) := by
  simp only [opsB1]
  after_results_simp
theorem keep_B1_arg2 (V : Valuation τ sig (Elt F)) : after opsB1 V (main_arg2 : DevRef τ sig) = V (main_arg2 : DevRef τ sig) := by
  simp only [opsB1]
  after_results_simp
theorem keep_B1_arg3 (V : Valuation τ sig (Elt F)) : after opsB1 V (main_arg3 : DevRef τ sig) = V (main_arg3 : DevRef τ sig) := by
  simp only [opsB1]
  after_results_simp
theorem keep_B1_arg4 (V : Valuation τ sig (Elt F)) : after opsB1 V (main_arg4 : DevRef τ sig) = V (main_arg4 : DevRef τ sig) := by
  simp only [opsB1]
  after_results_simp
theorem keep_B1_arg5 (V : Valuation τ sig (Elt F)) : after opsB1 V (main_arg5 : DevRef τ sig) = V (main_arg5 : DevRef τ sig) := by
  simp only [opsB1]
  after_results_simp
theorem keep_B1_arg6 (V : Valuation τ sig (Elt F)) : after opsB1 V (main_arg6 : DevRef τ sig) = V (main_arg6 : DevRef τ sig) := by
  simp only [opsB1]
  after_results_simp
theorem keep_B1_arg7 (V : Valuation τ sig (Elt F)) : after opsB1 V (main_arg7 : DevRef τ sig) = V (main_arg7 : DevRef τ sig) := by
  simp only [opsB1]
  after_results_simp
theorem keep_B1_arg8 (V : Valuation τ sig (Elt F)) : after opsB1 V (main_arg8 : DevRef τ sig) = V (main_arg8 : DevRef τ sig) := by
  simp only [opsB1]
  after_results_simp
theorem keep_B1_arg9 (V : Valuation τ sig (Elt F)) : after opsB1 V (main_arg9 : DevRef τ sig) = V (main_arg9 : DevRef τ sig) := by
  simp only [opsB1]
  after_results_simp
theorem keep_C_arg0 (V : Valuation τ sig (Elt F)) : after opsC V (main_arg0 : DevRef τ sig) = V (main_arg0 : DevRef τ sig) := by
  simp only [opsC]
  after_results_simp
theorem keep_C_arg1 (V : Valuation τ sig (Elt F)) : after opsC V (main_arg1 : DevRef τ sig) = V (main_arg1 : DevRef τ sig) := by
  simp only [opsC]
  after_results_simp
theorem keep_C_arg2 (V : Valuation τ sig (Elt F)) : after opsC V (main_arg2 : DevRef τ sig) = V (main_arg2 : DevRef τ sig) := by
  simp only [opsC]
  after_results_simp
theorem keep_C_arg3 (V : Valuation τ sig (Elt F)) : after opsC V (main_arg3 : DevRef τ sig) = V (main_arg3 : DevRef τ sig) := by
  simp only [opsC]
  after_results_simp
theorem keep_C_arg4 (V : Valuation τ sig (Elt F)) : after opsC V (main_arg4 : DevRef τ sig) = V (main_arg4 : DevRef τ sig) := by
  simp only [opsC]
  after_results_simp
theorem keep_C_arg5 (V : Valuation τ sig (Elt F)) : after opsC V (main_arg5 : DevRef τ sig) = V (main_arg5 : DevRef τ sig) := by
  simp only [opsC]
  after_results_simp
theorem keep_C_arg6 (V : Valuation τ sig (Elt F)) : after opsC V (main_arg6 : DevRef τ sig) = V (main_arg6 : DevRef τ sig) := by
  simp only [opsC]
  after_results_simp
theorem keep_C_arg7 (V : Valuation τ sig (Elt F)) : after opsC V (main_arg7 : DevRef τ sig) = V (main_arg7 : DevRef τ sig) := by
  simp only [opsC]
  after_results_simp
theorem keep_C_arg8 (V : Valuation τ sig (Elt F)) : after opsC V (main_arg8 : DevRef τ sig) = V (main_arg8 : DevRef τ sig) := by
  simp only [opsC]
  after_results_simp
theorem keep_C_arg9 (V : Valuation τ sig (Elt F)) : after opsC V (main_arg9 : DevRef τ sig) = V (main_arg9 : DevRef τ sig) := by
  simp only [opsC]
  after_results_simp

/-- Argument 0 is unchanged by @main's operations. -/
theorem arg0_eq (V : Valuation τ sig (Elt F)) : after ops V (main_arg0 : DevRef τ sig) = V (main_arg0 : DevRef τ sig) := by
  rw [after_ops]
  exact (keep_C_arg0 _).trans ((keep_B1_arg0 _).trans ((keep_B0_arg0 _).trans ((keep_A3_arg0 _).trans ((keep_A2_arg0 _).trans (keep_A1_arg0 V)))))
/-- Argument 1 is unchanged by @main's operations. -/
theorem arg1_eq (V : Valuation τ sig (Elt F)) : after ops V (main_arg1 : DevRef τ sig) = V (main_arg1 : DevRef τ sig) := by
  rw [after_ops]
  exact (keep_C_arg1 _).trans ((keep_B1_arg1 _).trans ((keep_B0_arg1 _).trans ((keep_A3_arg1 _).trans ((keep_A2_arg1 _).trans (keep_A1_arg1 V)))))
/-- Argument 2 is unchanged by @main's operations. -/
theorem arg2_eq (V : Valuation τ sig (Elt F)) : after ops V (main_arg2 : DevRef τ sig) = V (main_arg2 : DevRef τ sig) := by
  rw [after_ops]
  exact (keep_C_arg2 _).trans ((keep_B1_arg2 _).trans ((keep_B0_arg2 _).trans ((keep_A3_arg2 _).trans ((keep_A2_arg2 _).trans (keep_A1_arg2 V)))))
/-- Argument 3 is unchanged by @main's operations. -/
theorem arg3_eq (V : Valuation τ sig (Elt F)) : after ops V (main_arg3 : DevRef τ sig) = V (main_arg3 : DevRef τ sig) := by
  rw [after_ops]
  exact (keep_C_arg3 _).trans ((keep_B1_arg3 _).trans ((keep_B0_arg3 _).trans ((keep_A3_arg3 _).trans ((keep_A2_arg3 _).trans (keep_A1_arg3 V)))))
/-- Argument 4 is unchanged by @main's operations. -/
theorem arg4_eq (V : Valuation τ sig (Elt F)) : after ops V (main_arg4 : DevRef τ sig) = V (main_arg4 : DevRef τ sig) := by
  rw [after_ops]
  exact (keep_C_arg4 _).trans ((keep_B1_arg4 _).trans ((keep_B0_arg4 _).trans ((keep_A3_arg4 _).trans ((keep_A2_arg4 _).trans (keep_A1_arg4 V)))))
/-- Argument 5 is unchanged by @main's operations. -/
theorem arg5_eq (V : Valuation τ sig (Elt F)) : after ops V (main_arg5 : DevRef τ sig) = V (main_arg5 : DevRef τ sig) := by
  rw [after_ops]
  exact (keep_C_arg5 _).trans ((keep_B1_arg5 _).trans ((keep_B0_arg5 _).trans ((keep_A3_arg5 _).trans ((keep_A2_arg5 _).trans (keep_A1_arg5 V)))))
/-- Argument 6 is unchanged by @main's operations. -/
theorem arg6_eq (V : Valuation τ sig (Elt F)) : after ops V (main_arg6 : DevRef τ sig) = V (main_arg6 : DevRef τ sig) := by
  rw [after_ops]
  exact (keep_C_arg6 _).trans ((keep_B1_arg6 _).trans ((keep_B0_arg6 _).trans ((keep_A3_arg6 _).trans ((keep_A2_arg6 _).trans (keep_A1_arg6 V)))))
/-- Argument 7 is unchanged by @main's operations. -/
theorem arg7_eq (V : Valuation τ sig (Elt F)) : after ops V (main_arg7 : DevRef τ sig) = V (main_arg7 : DevRef τ sig) := by
  rw [after_ops]
  exact (keep_C_arg7 _).trans ((keep_B1_arg7 _).trans ((keep_B0_arg7 _).trans ((keep_A3_arg7 _).trans ((keep_A2_arg7 _).trans (keep_A1_arg7 V)))))
/-- Argument 8 is unchanged by @main's operations. -/
theorem arg8_eq (V : Valuation τ sig (Elt F)) : after ops V (main_arg8 : DevRef τ sig) = V (main_arg8 : DevRef τ sig) := by
  rw [after_ops]
  exact (keep_C_arg8 _).trans ((keep_B1_arg8 _).trans ((keep_B0_arg8 _).trans ((keep_A3_arg8 _).trans ((keep_A2_arg8 _).trans (keep_A1_arg8 V)))))
/-- Argument 9 is unchanged by @main's operations. -/
theorem arg9_eq (V : Valuation τ sig (Elt F)) : after ops V (main_arg9 : DevRef τ sig) = V (main_arg9 : DevRef τ sig) := by
  rw [after_ops]
  exact (keep_C_arg9 _).trans ((keep_B1_arg9 _).trans ((keep_B0_arg9 _).trans ((keep_A3_arg9 _).trans ((keep_A2_arg9 _).trans (keep_A1_arg9 V)))))

end Cert.ReferenceIdeal.Hand

end
-- ==== Proof.RefRows.lean ====
/-
  The first stage read back: after the operations of the three pieces that build the table of rows, the buffer of the
  reshaped gather holds `rows` of the four arguments it is computed from. Each piece is read on its own, from any
  contents, over the contents of the buffers it reads; the pieces are then chained. The nine-operand concatenation is
  read by its own result lemma, its operands each at its literal reference.
-/
import proofs.«141062_j86612310491664_1_alg».proof.Proof.RefOps
import proofs.«141062_j86612310491664_1_alg».proof.Proof.RefDefs
import proofs.«141062_j86612310491664_1_alg».proof.Proof.RefKeep

noncomputable section

namespace Cert.ReferenceIdeal.Hand

open Cert.ReferenceIdeal Cert.ReferenceIdeal.Facts₀ Idealize.ShloMosaic Idealize.ShloMosaic.TcCoe Idealize.SL.Sem Idealize.ShloMosaic.StableHlo

-- the equations below are between equal spellings: nothing is to be computed inside these operations
attribute [local irreducible] pad extractStridedSlice broadcastInDim concatenate shapeCast transpose Host.gather iotaInDim

/-- After the first piece, window 1 of the padded input, with its unit axis. -/
theorem A1_v10 (V : Valuation τ sig (Elt Ideal)) (x : FVec Ideal S16x8x16x16 .f32)
    (h_x : V (main_arg0 : DevRef τ sig) = x) :
    after opsA1 V (main_v10 : DevRef τ sig) =
      broadcastInDim S16x8x1x16x16 ![0, 1, 3, 4] bcast_S16x8x16x16_S16x8x1x16x16_0_1_3_4 (extractStridedSlice S16x8x16x16 ![0, 0, 0, 0] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_0_0) := by
  subst h_x
  simp only [opsA1]
  after_results_simp <;> rfl

/-- After the first piece, window 2 of the padded input, with its unit axis. -/
theorem A1_v11 (V : Valuation τ sig (Elt Ideal)) (x : FVec Ideal S16x8x16x16 .f32)
    (h_x : V (main_arg0 : DevRef τ sig) = x) :
    after opsA1 V (main_v11 : DevRef τ sig) =
      broadcastInDim S16x8x1x16x16 ![0, 1, 3, 4] bcast_S16x8x16x16_S16x8x1x16x16_0_1_3_4 (extractStridedSlice S16x8x16x16 ![0, 0, 0, 1] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_0_1) := by
  subst h_x
  simp only [opsA1]
  after_results_simp <;> rfl

/-- After the first piece, window 3 of the padded input, with its unit axis. -/
theorem A1_v12 (V : Valuation τ sig (Elt Ideal)) (x : FVec Ideal S16x8x16x16 .f32)
    (h_x : V (main_arg0 : DevRef τ sig) = x) :
    after opsA1 V (main_v12 : DevRef τ sig) =
      broadcastInDim S16x8x1x16x16 ![0, 1, 3, 4] bcast_S16x8x16x16_S16x8x1x16x16_0_1_3_4 (extractStridedSlice S16x8x16x16 ![0, 0, 0, 2] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_0_2) := by
  subst h_x
  simp only [opsA1]
  after_results_simp <;> rfl

/-- After the first piece, window 4 of the padded input, with its unit axis. -/
theorem A1_v13 (V : Valuation τ sig (Elt Ideal)) (x : FVec Ideal S16x8x16x16 .f32)
    (h_x : V (main_arg0 : DevRef τ sig) = x) :
    after opsA1 V (main_v13 : DevRef τ sig) =
      broadcastInDim S16x8x1x16x16 ![0, 1, 3, 4] bcast_S16x8x16x16_S16x8x1x16x16_0_1_3_4 (extractStridedSlice S16x8x16x16 ![0, 0, 1, 0] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_1_0) := by
  subst h_x
  simp only [opsA1]
  after_results_simp <;> rfl

/-- After the first piece, window 5 of the padded input, with its unit axis. -/
theorem A1_v14 (V : Valuation τ sig (Elt Ideal)) (x : FVec Ideal S16x8x16x16 .f32)
    (h_x : V (main_arg0 : DevRef τ sig) = x) :
    after opsA1 V (main_v14 : DevRef τ sig) =
      broadcastInDim S16x8x1x16x16 ![0, 1, 3, 4] bcast_S16x8x16x16_S16x8x1x16x16_0_1_3_4 (extractStridedSlice S16x8x16x16 ![0, 0, 1, 1] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_1_1) := by
  subst h_x
  simp only [opsA1]
  after_results_simp <;> rfl

/-- After the first piece, window 6 of the padded input, with its unit axis. -/
theorem A1_v15 (V : Valuation τ sig (Elt Ideal)) (x : FVec Ideal S16x8x16x16 .f32)
    (h_x : V (main_arg0 : DevRef τ sig) = x) :
    after opsA1 V (main_v15 : DevRef τ sig) =
      broadcastInDim S16x8x1x16x16 ![0, 1, 3, 4] bcast_S16x8x16x16_S16x8x1x16x16_0_1_3_4 (extractStridedSlice S16x8x16x16 ![0, 0, 1, 2] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_1_2) := by
  subst h_x
  simp only [opsA1]
  after_results_simp <;> rfl

/-- After the first piece, window 7 of the padded input, with its unit axis. -/
theorem A1_v16 (V : Valuation τ sig (Elt Ideal)) (x : FVec Ideal S16x8x16x16 .f32)
    (h_x : V (main_arg0 : DevRef τ sig) = x) :
    after opsA1 V (main_v16 : DevRef τ sig) =
      broadcastInDim S16x8x1x16x16 ![0, 1, 3, 4] bcast_S16x8x16x16_S16x8x1x16x16_0_1_3_4 (extractStridedSlice S16x8x16x16 ![0, 0, 2, 0] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_2_0) := by
  subst h_x
  simp only [opsA1]
  after_results_simp <;> rfl

/-- After the first piece, window 8 of the padded input, with its unit axis. -/
theorem A1_v17 (V : Valuation τ sig (Elt Ideal)) (x : FVec Ideal S16x8x16x16 .f32)
    (h_x : V (main_arg0 : DevRef τ sig) = x) :
    after opsA1 V (main_v17 : DevRef τ sig) =
      broadcastInDim S16x8x1x16x16 ![0, 1, 3, 4] bcast_S16x8x16x16_S16x8x1x16x16_0_1_3_4 (extractStridedSlice S16x8x16x16 ![0, 0, 2, 1] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_2_1) := by
  subst h_x
  simp only [opsA1]
  after_results_simp <;> rfl

/-- After the first piece, window 9 of the padded input, with its unit axis. -/
theorem A1_v18 (V : Valuation τ sig (Elt Ideal)) (x : FVec Ideal S16x8x16x16 .f32)
    (h_x : V (main_arg0 : DevRef τ sig) = x) :
    after opsA1 V (main_v18 : DevRef τ sig) =
      broadcastInDim S16x8x1x16x16 ![0, 1, 3, 4] bcast_S16x8x16x16_S16x8x1x16x16_0_1_3_4 (extractStridedSlice S16x8x16x16 ![0, 0, 2, 2] (pad S16x8x18x18 ![0, 0, 1, 1] ![0, 0, 1, 1] ![0, 0, 0, 0] x (sitofp (F := Ideal) .f32 (constantI S_ 32 0#32)) pads_S16x8x16x16_S16x8x18x18_000_000_110_110 h_S_) slices_S16x8x18x18_S16x8x16x16_0_0_2_2) := by
  subst h_x
  simp only [opsA1]
  after_results_simp <;> rfl

/-- After the second piece, the nine windows joined. -/
theorem A2_v19 (V : Valuation τ sig (Elt Ideal)) (w0 : FVec Ideal S16x8x1x16x16 .f32) (w1 : FVec Ideal S16x8x1x16x16 .f32) (w2 : FVec Ideal S16x8x1x16x16 .f32) (w3 : FVec Ideal S16x8x1x16x16 .f32) (w4 : FVec Ideal S16x8x1x16x16 .f32) (w5 : FVec Ideal S16x8x1x16x16 .f32) (w6 : FVec Ideal S16x8x1x16x16 .f32) (w7 : FVec Ideal S16x8x1x16x16 .f32) (w8 : FVec Ideal S16x8x1x16x16 .f32)
    (h_w0 : V (main_v10 : DevRef τ sig) = w0) (h_w1 : V (main_v11 : DevRef τ sig) = w1) (h_w2 : V (main_v12 : DevRef τ sig) = w2) (h_w3 : V (main_v13 : DevRef τ sig) = w3) (h_w4 : V (main_v14 : DevRef τ sig) = w4) (h_w5 : V (main_v15 : DevRef τ sig) = w5) (h_w6 : V (main_v16 : DevRef τ sig) = w6) (h_w7 : V (main_v17 : DevRef τ sig) = w7) (h_w8 : V (main_v18 : DevRef τ sig) = w8) :
    after opsA2 V (main_v19 : DevRef τ sig) =
      concatenate S16x8x9x16x16 2 [⟨S16x8x1x16x16, w0⟩, ⟨S16x8x1x16x16, w1⟩, ⟨S16x8x1x16x16, w2⟩, ⟨S16x8x1x16x16, w3⟩, ⟨S16x8x1x16x16, w4⟩, ⟨S16x8x1x16x16, w5⟩, ⟨S16x8x1x16x16, w6⟩, ⟨S16x8x1x16x16, w7⟩, ⟨S16x8x1x16x16, w8⟩] concatenates_S16x8x1x16x16_S16x8x1x16x16_S16x8x1x16x16_S16x8x1x16x16_S16x8x1x16x16_S16x8x1x16x16_S16x8x1x16x16_S16x8x1x16x16_S16x8x1x16x16_S16x8x9x16x16_d2 := by
  subst h_w0; subst h_w1; subst h_w2; subst h_w3; subst h_w4; subst h_w5; subst h_w6; subst h_w7; subst h_w8
  simp only [opsA2]
  simp only [after_cons, after_nil]
  rw [nary_result]
  rfl

set_option maxRecDepth 8192 in
set_option maxHeartbeats 2000000 in
/-- After the third piece, the table of rows, from the joined windows and the three other arguments. -/
theorem A3_v47 (V : Valuation τ sig (Elt Ideal)) (c : FVec Ideal S16x8x9x16x16 .f32) (ctl : FVec Ideal S16x8x3x4 .f32) (i8 : IVec S3x3 32) (i9 : IVec S3x4 32)
    (h_c : V (main_v19 : DevRef τ sig) = c) (h_ctl : V (main_arg1 : DevRef τ sig) = ctl) (h_i8 : V (main_arg8 : DevRef τ sig) = i8) (h_i9 : V (main_arg9 : DevRef τ sig) = i9) :
    after opsA3 V (main_v47 : DevRef τ sig) =
      shapeCast S1572864x7 (Host.gather gather_S16x16x8x256x3x7_S3x7x2_S16x16x8x256x3x7_0123_45_n_n_45_2_1616825611 (concatenate S16x16x8x256x3x7 5 [⟨S16x16x8x256x3x3, (broadcastInDim S16x16x8x256x3x3 ![0, 1, 2, 3, 4, 5] bcast_S16x1x8x256x3x3_S16x16x8x256x3x3_0_1_2_3_4_5 (broadcastInDim S16x1x8x256x3x3 ![0, 2, 3, 4, 5] bcast_S16x8x256x3x3_S16x1x8x256x3x3_0_2_3_4_5 (shapeCast S16x8x256x3x3 (transpose S16x8x256x9 [0, 1, 3, 2] (shapeCast S16x8x9x256 (shapeCast S16x72x256 c shapeCasts_S16x8x9x16x16_S16x72x256) shapeCasts_S16x72x256_S16x8x9x256) transposes_S16x8x9x256_S16x8x256x9_0_1_3_2) shapeCasts_S16x8x256x9_S16x8x256x3x3)))⟩, ⟨S16x16x8x256x3x4, (broadcastInDim S16x16x8x256x3x4 ![0, 1, 2, 3, 4, 5] bcast_S1x16x8x1x3x4_S16x16x8x256x3x4_0_1_2_3_4_5 (broadcastInDim S1x16x8x1x3x4 ![1, 2, 4, 5] bcast_S16x8x3x4_S1x16x8x1x3x4_1_2_4_5 ctl))⟩] concatenates_S16x16x8x256x3x3_S16x16x8x256x3x4_S16x16x8x256x3x7_d5) (concatenate S3x7x2 2 [⟨S3x7x1, (broadcastInDim S3x7x1 ![0, 1] bcast_S3x7_S3x7x1_0_1 (broadcastInDim S3x7 ![0, 1] bcast_S3x1_S3x7_0_1 (select (cmpi .slt (broadcastInDim S3x1 ![0] bcast_S3_S3x1_0 (iotaInDim S3 32 0)) (broadcastInDim S3x1 ![] bcast_S_S3x1 (constantI S_ 32 0#32))) (addi (broadcastInDim S3x1 ![0] bcast_S3_S3x1_0 (iotaInDim S3 32 0)) (broadcastInDim S3x1 ![] bcast_S_S3x1 (constantI S_ 32 3#32))) (broadcastInDim S3x1 ![0] bcast_S3_S3x1_0 (iotaInDim S3 32 0)))))⟩, ⟨S3x7x1, (broadcastInDim S3x7x1 ![0, 1] bcast_S3x7_S3x7x1_0_1 (select (cmpi .slt (concatenate S3x7 1 [⟨S3x3, i8⟩, ⟨S3x4, i9⟩] concatenates_S3x3_S3x4_S3x7_d1) (broadcastInDim S3x7 ![] bcast_S_S3x7 (constantI S_ 32 0#32))) (addi (concatenate S3x7 1 [⟨S3x3, i8⟩, ⟨S3x4, i9⟩] concatenates_S3x3_S3x4_S3x7_d1) (broadcastInDim S3x7 ![] bcast_S_S3x7 (constantI S_ 32 7#32))) (concatenate S3x7 1 [⟨S3x3, i8⟩, ⟨S3x4, i9⟩] concatenates_S3x3_S3x4_S3x7_d1)))⟩] concatenates_S3x7x1_S3x7x1_S3x7x2_d2)) shapeCasts_S16x16x8x256x3x7_S1572864x7 := by
  subst h_c; subst h_ctl; subst h_i8; subst h_i9
  simp only [opsA3]
  after_results_simp <;> rfl

/-- After the three pieces the table of rows is `rows` of the four arguments. -/
theorem rows_eq (V : Valuation τ sig (Elt Ideal)) :
    after opsA3 (after opsA2 (after opsA1 V)) (main_v47 : DevRef τ sig)
      = rows (V (main_arg0 : DevRef τ sig)) (V (main_arg1 : DevRef τ sig)) (V (main_arg8 : DevRef τ sig)) (V (main_arg9 : DevRef τ sig)) := by
  have h0 := A1_v10 V _ rfl
  have h1 := A1_v11 V _ rfl
  have h2 := A1_v12 V _ rfl
  have h3 := A1_v13 V _ rfl
  have h4 := A1_v14 V _ rfl
  have h5 := A1_v15 V _ rfl
  have h6 := A1_v16 V _ rfl
  have h7 := A1_v17 V _ rfl
  have h8 := A1_v18 V _ rfl
  have hc := A2_v19 (after opsA1 V) _ _ _ _ _ _ _ _ _ h0 h1 h2 h3 h4 h5 h6 h7 h8
  have k1 := (keep_A2_arg1 (after opsA1 V)).trans (keep_A1_arg1 V)
  have k8 := (keep_A2_arg8 (after opsA1 V)).trans (keep_A1_arg8 V)
  have k9 := (keep_A2_arg9 (after opsA1 V)).trans (keep_A1_arg9 V)
  exact A3_v47 (after opsA2 (after opsA1 V)) _ _ _ _ hc k1 k8 k9

end Cert.ReferenceIdeal.Hand

end
-- ==== Proof.RefNet.lean ====
/-
  The second stage read back: after the two pieces that apply the network, the buffer of the last sum holds `net` of the
  table of rows and the six parameter arguments. The called function's operations carry their values to each buffer's
  own type and back; those round trips are the identity and are removed before the two spellings are compared.
-/
import proofs.«141062_j86612310491664_1_alg».proof.Proof.RefOps
import proofs.«141062_j86612310491664_1_alg».proof.Proof.RefDefs
import proofs.«141062_j86612310491664_1_alg».proof.Proof.RefKeep

noncomputable section

namespace Cert.ReferenceIdeal.Hand

open Cert.ReferenceIdeal Cert.ReferenceIdeal.Facts₀ Idealize.ShloMosaic Idealize.ShloMosaic.TcCoe Idealize.SL.Sem Idealize.ShloMosaic.StableHlo

-- the equations below are between equal spellings: nothing is to be computed inside these operations
attribute [local irreducible] broadcastInDim Host.expm1 select cmpf addf mulf constant

set_option maxRecDepth 8192 in
set_option maxHeartbeats 2000000 in
/-- After the first piece of the network, the second layer's product. -/
theorem B0_v53 (V : Valuation τ sig (Elt Ideal)) (X : FVec Ideal S1572864x7 .f32) (W1 : FVec Ideal S7x90 .f32) (b1 : FVec Ideal S90 .f32) (W2 : FVec Ideal S90x90 .f32)
    (h_X : V (main_v47 : DevRef τ sig) = X) (h_W1 : V (main_arg2 : DevRef τ sig) = W1) (h_b1 : V (main_arg3 : DevRef τ sig) = b1) (h_W2 : V (main_arg4 : DevRef τ sig) = W2) :
    after opsB0 V (main_v53 : DevRef τ sig) =
      Host.dotGeneral (F := Ideal) dot_S1572864x90_S90x90_S1572864x90_1_0_0_1_n_n none (eluV (addf (F := Ideal) (Host.dotGeneral (F := Ideal) dot_S1572864x7_S7x90_S1572864x90_1_0_0_1_n_n none X W1) (broadcastInDim S1572864x90 ![0, 1] bcast_S1x90_S1572864x90_0_1 (broadcastInDim S1x90 ![1] bcast_S90_S1x90_1 b1)))) W2 := by
  subst h_X; subst h_W1; subst h_b1; subst h_W2
  simp only [opsB0]
  after_results_simp
  simp only [Cert.LibHostCalls.ofBuf_toBuf]
  rfl

/-- After the first piece of the network, the second bias with its unit axis. -/
theorem B0_v54 (V : Valuation τ sig (Elt Ideal)) (b2 : FVec Ideal S90 .f32)
    (h_b2 : V (main_arg5 : DevRef τ sig) = b2) :
    after opsB0 V (main_v54 : DevRef τ sig) =
      broadcastInDim S1x90 ![1] bcast_S90_S1x90_1 b2 := by
  subst h_b2
  simp only [opsB0]
  after_results_simp <;> rfl

set_option maxRecDepth 8192 in
set_option maxHeartbeats 2000000 in
/-- After the second piece of the network, its output, from the second layer's product and bias and the third layer's parameters. -/
theorem B1_v61 (V : Valuation τ sig (Elt Ideal)) (p : FVec Ideal S1572864x90 .f32) (c : FVec Ideal S1x90 .f32) (W3 : FVec Ideal S90x1 .f32) (b3 : FVec Ideal S1 .f32)
    (h_p : V (main_v53 : DevRef τ sig) = p) (h_c : V (main_v54 : DevRef τ sig) = c) (h_W3 : V (main_arg6 : DevRef τ sig) = W3) (h_b3 : V (main_arg7 : DevRef τ sig) = b3) :
    after opsB1 V (main_v61 : DevRef τ sig) =
      addf (F := Ideal) (Host.dotGeneral (F := Ideal) dot_S1572864x90_S90x1_S1572864x1_1_0_0_1_n_n none (eluV (addf (F := Ideal) p (broadcastInDim S1572864x90 ![0, 1] bcast_S1x90_S1572864x90_0_1 c))) W3) (broadcastInDim S1572864x1 ![0, 1] bcast_S1x1_S1572864x1_0_1 (broadcastInDim S1x1 ![1] bcast_S1_S1x1_1 b3)) := by
  subst h_p; subst h_c; subst h_W3; subst h_b3
  simp only [opsB1]
  after_results_simp
  simp only [Cert.LibHostCalls.ofBuf_toBuf]
  rfl

/-- After the two pieces the network's output is `net` of the table of rows and the six parameters. -/
theorem net_eq (V : Valuation τ sig (Elt Ideal)) (X : FVec Ideal S1572864x7 .f32) (W1 : FVec Ideal S7x90 .f32) (b1 : FVec Ideal S90 .f32)
    (W2 : FVec Ideal S90x90 .f32) (b2 : FVec Ideal S90 .f32) (W3 : FVec Ideal S90x1 .f32) (b3 : FVec Ideal S1 .f32)
    (hX : V (main_v47 : DevRef τ sig) = X) (h2 : V (main_arg2 : DevRef τ sig) = W1) (h3 : V (main_arg3 : DevRef τ sig) = b1) (h4 : V (main_arg4 : DevRef τ sig) = W2)
    (h5 : V (main_arg5 : DevRef τ sig) = b2) (h6 : V (main_arg6 : DevRef τ sig) = W3) (h7 : V (main_arg7 : DevRef τ sig) = b3) :
    after opsB1 (after opsB0 V) (main_v61 : DevRef τ sig) = net X W1 b1 W2 b2 W3 b3 :=
  B1_v61 (after opsB0 V) _ _ _ _ (B0_v53 V X W1 b1 W2 hX h2 h3 h4) (B0_v54 V b2 h5)
    ((keep_B0_arg6 V).trans h6) ((keep_B0_arg7 V).trans h7)

end Cert.ReferenceIdeal.Hand

end
-- ==== Proof.RefSums.lean ====
/-
  The third stage read back: after the last piece the result buffer holds `sums` of the network's output.
-/
import proofs.«141062_j86612310491664_1_alg».proof.Proof.RefOps
import proofs.«141062_j86612310491664_1_alg».proof.Proof.RefDefs

noncomputable section

namespace Cert.ReferenceIdeal.Hand

open Cert.ReferenceIdeal Cert.ReferenceIdeal.Facts₀ Idealize.ShloMosaic Idealize.ShloMosaic.TcCoe Idealize.SL.Sem Idealize.ShloMosaic.StableHlo

-- the equation below is between equal spellings: nothing is to be computed inside these operations
attribute [local irreducible] shapeCast Host.reduceAdd constant

/-- After the last piece the result is `sums` of the network's output. -/
theorem sums_eq (V : Valuation τ sig (Elt Ideal)) (y : FVec Ideal S1572864x1 .f32)
    (h_y : V (main_v61 : DevRef τ sig) = y) :
    after opsC V (main_v65 : DevRef τ sig) =
      sums y := by
  subst h_y
  simp only [opsC]
  after_results_simp <;> rfl

end Cert.ReferenceIdeal.Hand

end
-- ==== Proof.RefRun.lean ====
/-
  The reference's run: every weakly fair execution of @main terminates; the result buffer then holds the sums of the
  network applied to the table of rows built from the arguments' launch contents, and every argument holds what it held.
-/
import proofs.«141062_j86612310491664_1_alg».proof.Proof.RefOps
import proofs.«141062_j86612310491664_1_alg».proof.Proof.RefDefs
import proofs.«141062_j86612310491664_1_alg».proof.Proof.RefKeep
import proofs.«141062_j86612310491664_1_alg».proof.Proof.RefRows
import proofs.«141062_j86612310491664_1_alg».proof.Proof.RefNet
import proofs.«141062_j86612310491664_1_alg».proof.Proof.RefSums

noncomputable section

namespace Cert.ReferenceIdeal.Hand

open Cert.ReferenceIdeal Cert.ReferenceIdeal.Facts₀ Idealize.ShloMosaic Idealize.ShloMosaic.TcCoe Idealize.SL.Sem Idealize.ShloMosaic.StableHlo

/-- After @main's operations the result buffer holds the three stages composed, over the arguments' contents. -/
theorem out_eq (V : Valuation τ sig (Elt Ideal)) :
    after ops V (main_v65 : DevRef τ sig)
      = sums (net (rows (V (main_arg0 : DevRef τ sig)) (V (main_arg1 : DevRef τ sig)) (V (main_arg8 : DevRef τ sig)) (V (main_arg9 : DevRef τ sig)))
          (V (main_arg2 : DevRef τ sig)) (V (main_arg3 : DevRef τ sig)) (V (main_arg4 : DevRef τ sig)) (V (main_arg5 : DevRef τ sig)) (V (main_arg6 : DevRef τ sig)) (V (main_arg7 : DevRef τ sig))) :=
  (congrFun (after_ops V) _).trans
    (sums_eq _ _ (net_eq _ _ _ _ _ _ _ _ (rows_eq V)
      ((keep_A3_arg2 _).trans ((keep_A2_arg2 _).trans (keep_A1_arg2 V)))
      ((keep_A3_arg3 _).trans ((keep_A2_arg3 _).trans (keep_A1_arg3 V)))
      ((keep_A3_arg4 _).trans ((keep_A2_arg4 _).trans (keep_A1_arg4 V)))
      ((keep_A3_arg5 _).trans ((keep_A2_arg5 _).trans (keep_A1_arg5 V)))
      ((keep_A3_arg6 _).trans ((keep_A2_arg6 _).trans (keep_A1_arg6 V)))
      ((keep_A3_arg7 _).trans ((keep_A2_arg7 _).trans (keep_A1_arg7 V)))))

/-- At the compiled mesh, from any memory with zero counters: every weakly fair execution of @main terminates with the
    result at `sums (net (rows …) …)` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v65) = sums (net (rows (m ((c.tc : Thread nD τ).loc main_arg0)) (m ((c.tc : Thread nD τ).loc main_arg1)) (m ((c.tc : Thread nD τ).loc main_arg8)) (m ((c.tc : Thread nD τ).loc main_arg9))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono (fun _ h c => ⟨(h c main_v65).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c))⟩)
    (run_seq scopedRefs_eq scopedSems_eq (defs (F := Ideal)) (main (F := Ideal)) (fun _ => ops) main_eq (fun _ => ops_sub) m ρ
      (fun _ => ops_fresh))

end Cert.ReferenceIdeal.Hand

end
-- ==== Proof.LibDotGeneral.lean ====
/-
  A plain M × K by K × N host matrix product (`dot_general` contracting the left operand's second axis with the right
  operand's first), read at one entry: at the exact (extended real) values the entry (a, b) is the sum over the contracted
  coordinate c of A (a, c) · B (c, b), whatever schedule the host uses.
-/
import Idealize.ShloMosaic.Lib.ValueIdx
import Idealize.ShloMosaic.PureOps.Ideal.Laws

noncomputable section

open scoped BigOperators

namespace Cert.LibDotGeneral

open Idealize.ShloMosaic Idealize.ShloMosaic.ValueIdx

/-- The host product of an `M × K` by a `K × N` matrix, at entry `(a, b)`, is `∑ c, A (a, c) · B (c, b)` over the
    extended reals. -/
theorem dotGeneral_plain_apply {M K N : Nat} {φ₁ φ₂ : FTy} (prec : Option ContractPrecision) (sched : HostSchedule)
    (A : FVec Ideal ⟨2, ![M, K]⟩ φ₁) (B : FVec Ideal ⟨2, ![K, N]⟩ φ₂) (a : Fin M) (b : Fin N) :
    FloatOps.dotGeneral (DotDims.plain M K N) prec sched A B (ix2 a b) = ∑ c : Fin K, A (ix2 a c) * B (ix2 c b) := by
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibDotGeneral

end
-- ==== Proof.RefNetApply.lean ====
/-
  The network read at one row. At the exact values each host product is the sum over the contracted coordinate, each
  bias is broadcast along the rows, and the called exponential linear unit, read at an element `y`, is `y` where `y > 0`
  and `1 · (exp y' − 1)` elsewhere with `y'` equal to `y` there — the specification's `exp y − 1`, since the float word of one
  denotes `1`. So the entry of `net` at a row is the specification's function of that row.
-/
import proofs.«141062_j86612310491664_1_alg».proof.Proof.RefDefs
import proofs.«141062_j86612310491664_1_alg».proof.Proof.MlpSpec
import proofs.«141062_j86612310491664_1_alg».proof.Proof.LibDotGeneral
import Idealize.ShloMosaic.Lib.ValueIdx
import Idealize.ShloMosaic.Lib.Pipeline.Value

noncomputable section

open scoped BigOperators

namespace Cert.ReferenceIdeal.Hand

open Cert.ReferenceIdeal Cert.ReferenceIdeal.Facts₀ Idealize.ShloMosaic Idealize.ShloMosaic.ValueIdx

/-- The float word of one denotes `1`. -/
theorem ofBits_one : Ideal.ofBits .f32 0x3F800000#32 = 1 := by
  simp [Ideal.ofBits, Ideal.ieee, -EReal.coe_mul]; norm_num

/-- The called exponential linear unit's composed term, on a table of any shape, read at one element: the specification's
    unit of that element. Where the comparison bit is set both are the element; where it is clear the inner selection gives
    the element back, and `1 · (exp y − 1) = exp y − 1`. -/
theorem elu_apply {s : Shape} (h : S_.BroadcastsInDim s (![] : Fin S_.rank → Fin s.rank)) (y : FVec Ideal s .f32) (i : s.Idx) :
    (select (cmpf (F := Ideal) .ogt y (broadcastInDim s ![] h (constant (F := Ideal) S_ .f32 0x00000000#32))) y (mulf (F := Ideal) (broadcastInDim s ![] h (constant (F := Ideal) S_ .f32 0x3F800000#32)) (Host.expm1 (F := Ideal) (select (cmpf (F := Ideal) .ogt y (broadcastInDim s ![] h (constant (F := Ideal) S_ .f32 0x00000000#32))) (broadcastInDim s ![] h (constant (F := Ideal) S_ .f32 0x00000000#32)) y)))) i
      = Cert.MlpSpec.elu (y i) := by
  show Scalar.select (Ideal.cmp .ogt (y i) (Ideal.ofBits .f32 0x00000000#32)) (y i)
      (Ideal.ofBits .f32 0x3F800000#32
        * (Ideal.exp (Scalar.select (Ideal.cmp .ogt (y i) (Ideal.ofBits .f32 0x00000000#32)) (Ideal.ofBits .f32 0x00000000#32) (y i)) - 1))
    = Scalar.select (Ideal.cmp .ogt (y i) (Ideal.ofBits .f32 0x00000000#32)) (y i) (Ideal.exp (y i) - Ideal.ofBits .f32 0x3F800000#32)
  rcases BitVec.eq_zero_or_eq_one (Ideal.cmp .ogt (y i) (Ideal.ofBits .f32 0x00000000#32)) with hc | hc
  · simp only [hc, select_zero, ofBits_one, one_mul]
  · simp only [hc, select_one]

/-- `eluV` read at one element. -/
theorem eluV_apply (y : FVec Ideal S1572864x90 .f32) (i : S1572864x90.Idx) : eluV y i = Cert.MlpSpec.elu (y i) :=
  elu_apply bcast_S_S1572864x90 y i

/-- The three host products read at one entry. -/
theorem dot1_apply (A : FVec Ideal S1572864x7 .f32) (B : FVec Ideal S7x90 .f32) (a : Fin 1572864) (b : Fin 90) :
    (Host.dotGeneral (F := Ideal) dot_S1572864x7_S7x90_S1572864x90_1_0_0_1_n_n none A B) (ix2 a b) = ∑ c : Fin 7, A (ix2 a c) * B (ix2 c b) :=
  Cert.LibDotGeneral.dotGeneral_plain_apply none .single A B a b
theorem dot2_apply (A : FVec Ideal S1572864x90 .f32) (B : FVec Ideal S90x90 .f32) (a : Fin 1572864) (b : Fin 90) :
    (Host.dotGeneral (F := Ideal) dot_S1572864x90_S90x90_S1572864x90_1_0_0_1_n_n none A B) (ix2 a b) = ∑ c : Fin 90, A (ix2 a c) * B (ix2 c b) :=
  Cert.LibDotGeneral.dotGeneral_plain_apply none .single A B a b
theorem dot3_apply (A : FVec Ideal S1572864x90 .f32) (B : FVec Ideal S90x1 .f32) (a : Fin 1572864) (b : Fin 1) :
    (Host.dotGeneral (F := Ideal) dot_S1572864x90_S90x1_S1572864x1_1_0_0_1_n_n none A B) (ix2 a b) = ∑ c : Fin 90, A (ix2 a c) * B (ix2 c b) :=
  Cert.LibDotGeneral.dotGeneral_plain_apply none .single A B a b

/-- A bias of ninety entries, given a unit axis and broadcast along the rows, read at row `a`, column `j`: entry `j`. -/
theorem bias90_apply (b : FVec Ideal S90 .f32) (a : Fin 1572864) (j : Fin 90) :
    (broadcastInDim S1572864x90 ![0, 1] bcast_S1x90_S1572864x90_0_1 (broadcastInDim S1x90 ![1] bcast_S90_S1x90_1 b)) (ix2 a j) = b (ix1 j) :=
  (broadcastInDim_apply _ _ _ (ix2 a j) (ix2 (0 : Fin 1) j) (fun ax => match ax with | ⟨0, _⟩ => rfl | ⟨1, _⟩ => rfl)).trans
    (broadcastInDim_apply _ _ _ (ix2 (0 : Fin 1) j) (ix1 j) (fun ax => match ax with | ⟨0, _⟩ => rfl))

/-- The one-entry bias, likewise: its entry. -/
theorem bias1_apply (b : FVec Ideal S1 .f32) (a : Fin 1572864) (j : Fin 1) :
    (broadcastInDim S1572864x1 ![0, 1] bcast_S1x1_S1572864x1_0_1 (broadcastInDim S1x1 ![1] bcast_S1_S1x1_1 b)) (ix2 a j) = b (ix1 0) :=
  (broadcastInDim_apply _ _ _ (ix2 a j) (ix2 (0 : Fin 1) (0 : Fin 1)) (fun ax => match ax with | ⟨0, _⟩ => rfl | ⟨1, _⟩ => rfl)).trans
    (broadcastInDim_apply _ _ _ (ix2 (0 : Fin 1) (0 : Fin 1)) (ix1 (0 : Fin 1)) (fun ax => match ax with | ⟨0, _⟩ => rfl))

/-- A hidden layer read at one unit: the unit of the row's product with the weights' column plus the bias's entry. -/
theorem layer1_apply (X : FVec Ideal S1572864x7 .f32) (W : FVec Ideal S7x90 .f32) (b : FVec Ideal S90 .f32) (r : Fin 1572864) (j : Fin 90) :
    eluV (addf (F := Ideal) (Host.dotGeneral (F := Ideal) dot_S1572864x7_S7x90_S1572864x90_1_0_0_1_n_n none X W) (broadcastInDim S1572864x90 ![0, 1] bcast_S1x90_S1572864x90_0_1 (broadcastInDim S1x90 ![1] bcast_S90_S1x90_1 b))) (ix2 r j)
      = Cert.MlpSpec.elu ((∑ i : Fin 7, X (ix2 r i) * W (ix2 i j)) + b (ix1 j)) := by
  rw [eluV_apply, addf_apply, dot1_apply, bias90_apply]
theorem layer2_apply (H : FVec Ideal S1572864x90 .f32) (W : FVec Ideal S90x90 .f32) (b : FVec Ideal S90 .f32) (r : Fin 1572864) (k : Fin 90) :
    eluV (addf (F := Ideal) (Host.dotGeneral (F := Ideal) dot_S1572864x90_S90x90_S1572864x90_1_0_0_1_n_n none H W) (broadcastInDim S1572864x90 ![0, 1] bcast_S1x90_S1572864x90_0_1 (broadcastInDim S1x90 ![1] bcast_S90_S1x90_1 b))) (ix2 r k)
      = Cert.MlpSpec.elu ((∑ j : Fin 90, H (ix2 r j) * W (ix2 j k)) + b (ix1 k)) := by
  rw [eluV_apply, addf_apply, dot2_apply, bias90_apply]
theorem layer3_apply (H : FVec Ideal S1572864x90 .f32) (W : FVec Ideal S90x1 .f32) (b : FVec Ideal S1 .f32) (r : Fin 1572864) (q : Fin 1) :
    addf (F := Ideal) (Host.dotGeneral (F := Ideal) dot_S1572864x90_S90x1_S1572864x1_1_0_0_1_n_n none H W) (broadcastInDim S1572864x1 ![0, 1] bcast_S1x1_S1572864x1_0_1 (broadcastInDim S1x1 ![1] bcast_S1_S1x1_1 b)) (ix2 r q)
      = (∑ k : Fin 90, H (ix2 r k) * W (ix2 k q)) + b (ix1 0) := by
  rw [addf_apply, dot3_apply, bias1_apply]

/-- The network's entry at row `r` is the specification's function of row `r` of the table, the weights and the biases. -/
theorem net_apply (X : FVec Ideal S1572864x7 .f32) (W1 : FVec Ideal S7x90 .f32) (b1 : FVec Ideal S90 .f32) (W2 : FVec Ideal S90x90 .f32)
    (b2 : FVec Ideal S90 .f32) (W3 : FVec Ideal S90x1 .f32) (b3 : FVec Ideal S1 .f32) (r : Fin 1572864) (q : Fin 1) :
    net X W1 b1 W2 b2 W3 b3 (ValueIdx.ix2 r q)
      = Cert.MlpSpec.row (fun i => X (ValueIdx.ix2 r i)) (fun i j => W1 (ValueIdx.ix2 i j)) (fun j => b1 (ValueIdx.ix1 j))
          (fun j k => W2 (ValueIdx.ix2 j k)) (fun k => b2 (ValueIdx.ix1 k)) (fun k => W3 (ValueIdx.ix2 k 0)) (b3 (ValueIdx.ix1 0)) := by
  have hq : q = 0 := Subsingleton.elim _ _
  subst hq
  unfold net
  rw [layer3_apply]
  refine congrArg (· + b3 (ix1 0)) (Finset.sum_congr rfl fun k _ => congrArg (· * W3 (ix2 k 0)) ?_)
  rw [layer2_apply]
  refine congrArg (fun t => Cert.MlpSpec.elu (t + b2 (ix1 k))) (Finset.sum_congr rfl fun j _ => congrArg (· * W2 (ix2 j k)) ?_)
  exact layer1_apply X W1 b1 r j

end Cert.ReferenceIdeal.Hand

end
-- ==== Proof.lean ====
/-
  A convolution layer of small nonlinear devices: every 3 × 3 neighbourhood of the (zero-padded) input image is split in three
  groups of three values, each group joined with four control voltages and re-ordered by two index tables into a row of
  seven numbers, and every row is sent through one three-layer network with the exponential linear unit between the layers;
  the outputs are summed over the three groups and over the input channels. The kernel's program builds the table of rows
  on the host, runs the network block by block (96 blocks of 16384 rows) with the weights narrowed to the short float format,
  and sums on the host; the reference does everything on the host with whole-table matrix products.

  At the exact values the two agree: narrowing a float is no change; a product accumulated into zero and a host product are
  both the plain sum over the contracted coordinate; "y if y > 0, else exp y − 1" and "y if y > 0, else 1 · expm1 (y if not
  y > 0, else 0)" are one function of y, because expm1 y is exp y − 1 and 1 · z = z on the extended reals; and the blocks
  tile the table, so the block-by-block result is the row-by-row result. The table of rows and the final sums are the same
  operations in both programs. None of this needs the inputs to be finite, so the precondition is not opened.

  The three frames: each kernel program runs to its end through the pipeline's launch theorem (the body's loads and its one
  store are whole-buffer accesses of buffers it is handed), no host line writes an argument, and the pipeline writes back
  only its output window; the reference is a straight line of host operations none of which writes an argument.
-/
import proofs.«141062_j86612310491664_1_alg».proof.Defs
import proofs.«141062_j86612310491664_1_alg».proof.Proof.Gen.Kernel
import proofs.«141062_j86612310491664_1_alg».proof.Proof.Gen.KernelIdeal
import proofs.«141062_j86612310491664_1_alg».proof.Proof.Gen.ReferenceIdeal
import proofs.«141062_j86612310491664_1_alg».proof.Proof.Gen.Pre_finite_inputs
import proofs.«141062_j86612310491664_1_alg».proof.Proof.BitsFrame
import proofs.«141062_j86612310491664_1_alg».proof.Proof.KValue
import proofs.«141062_j86612310491664_1_alg».proof.Proof.RefRun
import proofs.«141062_j86612310491664_1_alg».proof.Proof.RefNetApply
import Idealize.ShloMosaic.Adequacy
import Idealize.ShloMosaic.Init

noncomputable section

namespace Cert.Proof

open Idealize.ShloMosaic Idealize.ShloMosaic.ValueIdx Idealize.SL.Sem

/-- The two sums after the network are the same operations in both programs. -/
theorem same_sums (y : FVec Ideal Cert.KernelIdeal.S1572864x1 .f32) :
    Cert.KernelIdeal.Val.sumsK y = Cert.ReferenceIdeal.Hand.sums y := rfl

/-- The table of rows is built by the same operations in both programs. -/
theorem same_rows (x : FVec Ideal Cert.KernelIdeal.S16x8x16x16 .f32) (ctl : FVec Ideal Cert.KernelIdeal.S16x8x3x4 .f32)
    (i8 : IVec Cert.KernelIdeal.S3x3 32) (i9 : IVec Cert.KernelIdeal.S3x4 32) :
    Cert.KernelIdeal.Val.rowsK x ctl i8 i9 = Cert.ReferenceIdeal.Hand.rows x ctl i8 i9 := rfl

theorem frame_k : Cert.frame_Kernel := fun m ρ _ => Cert.Kernel.Hand.args_kept m ρ

theorem frame_ki : Cert.frame_KernelIdeal := fun m ρ _ => Cert.KernelIdeal.Hand.args_kept m ρ

theorem frame_r : Cert.frame_ReferenceIdeal := fun m ρ _ =>
  (θ_run Cert.ReferenceIdeal.defs _ _).mono (fun _ h c => (h c).2) (Cert.ReferenceIdeal.Hand.run m ρ)

/-- The idealized kernel is the kernel's own text read at the exact values: nothing was rewritten. -/
theorem preserves : Cert.preserves_Kernel_KernelIdeal := trivial

/-- From memories that agree on the arguments both programs end with the same result: the sums of the network's value on
    every row of the one table of rows. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Hand.run m' ρ')
  obtain ⟨h0, h1, h2, h3, h4, h5, h6, h7, h8, h9⟩ := hagree c
  rw [h0, h1, h2, h3, h4, h5, h6, h7, h8, h9, ← same_sums, Cert.KernelIdeal.Val.outArr_eq, ← same_rows]
  refine congrArg Cert.KernelIdeal.Val.sumsK ?_
  funext i
  obtain ⟨r, q, rfl⟩ : ∃ (r : Fin 1572864) (q : Fin 1), i = ix2 r q := ⟨i 0, i 1, eq_ix2 i⟩
  exact Cert.ReferenceIdeal.Hand.net_apply _ _ _ _ _ _ _ r q

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
